-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000 : Shape := ⟨1, ![320000]⟩
abbrev S5x256x256 : Shape := ⟨3, ![5, 256, 256]⟩
abbrev S768x256 : Shape := ⟨2, ![768, 256]⟩
abbrev S768 : Shape := ⟨1, ![768]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S5x256x256 : S_.BroadcastsInDim S5x256x256 (![] : Fin 0 → Fin S5x256x256.rank)
  reducesTo_S5x256x256_S_d0_1_2 : S5x256x256.ReducesTo [0, 1, 2] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768x256 .f32) (main_arg6 : FVec F S768 .f32) (main_arg7 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768x256 .f32 := Host.absf main_arg5
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S20000x256 .f32) (main_arg1 : IVec S2x320000 32) (main_arg2 : FVec F S320000 .f32) (main_arg3 : FVec F S5x256x256 .f32) (main_arg4 : FVec F S768x256 .f32) (main_arg5 : FVec F S768x256 .f32) (main_arg6 : FVec F S768 .f32) (main_arg7 : FVec F S768 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S5x256x256 .f32 := Host.absf main_arg3
  let main_cst_2 : FVec F S_ .f32 := constant S_ .f32 0x7F800000#32
  let main_v10 : FVec F S5x256x256 .f32 := broadcastInDim S5x256x256 ![] bcast_S_S5x256x256 main_cst_2
  let main_v11 : IVec S5x256x256 1 := cmpf .olt main_v9 main_v10
  let main_c_3 : IVec S_ 1 := constantI S_ 1 1#1
  let main_v12 : IVec S_ 1 := (fun x v => Host.reduce IntOp.andi x v reducesTo_S5x256x256_S_d0_1_2 h_S_) main_v11 main_c_3
  let main_v13 : IVec S_ 1 := andi main_v8 main_v12
  let main_v14 : FVec F S768x256 .f32 := Host.absf main_arg4
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg5 main_arg6 main_arg7 main_v13 main_v16
-- ==== Kernel.lean ====
abbrev S20000x256 : Shape := ⟨2, ![20000, 256]⟩
abbrev S2x320000 : Shape := ⟨2, ![2, 320000]⟩
abbrev S320000 : Shape := ⟨1, ![320000]⟩
abbrev S5x256x256 : Shape := ⟨3, ![5, 256, 256]⟩
abbrev S768x256 : Shape := ⟨2, ![768, 256]⟩
abbrev S768 : Shape := ⟨1, ![768]⟩
abbrev S1x320000 : Shape := ⟨2, ![1, 320000]⟩
abbrev S256x768 : Shape := ⟨2, ![256, 768]⟩
abbrev S1x768 : Shape := ⟨2, ![1, 768]⟩
abbrev S1x256x256 : Shape := ⟨3, ![1, 256, 256]⟩
abbrev S256x256 : Shape := ⟨2, ![256, 256]⟩
abbrev S2000x256 : Shape := ⟨2, ![2000, 256]⟩
abbrev S_ : Shape := ⟨0, ![]⟩
abbrev S320000x1 : Shape := ⟨2, ![320000, 1]⟩
abbrev S320000x256 : Shape := ⟨2, ![320000, 256]⟩
abbrev S2000x768 : Shape := ⟨2, ![2000, 768]⟩

abbrev nBuf : Space → Nat
  | .hbm => 116
  | .vmem => 75
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000, .f32⟩
  | .hbm, ⟨3, _⟩ => ⟨S5x256x256, .f32⟩
  | .hbm, ⟨4, _⟩ => ⟨S768x256, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S256x768, .f32⟩
  | .hbm, ⟨13, _⟩ => ⟨S256x768, .f32⟩
  | .hbm, ⟨14, _⟩ => ⟨S1x768, .f32⟩
  | .hbm, ⟨15, _⟩ => ⟨S1x768, .f32⟩
  | .hbm, ⟨16, _⟩ => ⟨S1x256x256, .f32⟩
  | .hbm, ⟨17, _⟩ => ⟨S256x256, .f32⟩
  | .hbm, ⟨18, _⟩ => ⟨S20000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x1, .f32⟩
  | .hbm, ⟨29, _⟩ => ⟨S320000x256, .f32⟩
  | .hbm, ⟨30, _⟩ => ⟨S320000x256, .f32⟩
  | .hbm, ⟨31, _⟩ => ⟨S_, .f32⟩
  | .hbm, ⟨32, _⟩ => ⟨S20000x256, .f32⟩
  | .hbm, ⟨33, _⟩ => ⟨S320000x1, .i32⟩
  | .hbm, ⟨34, _⟩ => ⟨S20000x256, .f32⟩
  | .hbm, ⟨35, _⟩ => ⟨S20000x256, .f32⟩
  | .hbm, ⟨36, _⟩ => ⟨S1x256x256, .f32⟩
  | .hbm, ⟨37, _⟩ => ⟨S256x256, .f32⟩
  | .hbm, ⟨38, _⟩ => ⟨S20000x256, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x256, .f32⟩
  | .hbm, ⟨48, _⟩ => ⟨S320000x1, .f32⟩
  | .hbm, ⟨49, _⟩ => ⟨S320000x256, .f32⟩
  | .hbm, ⟨50, _⟩ => ⟨S320000x256, .f32⟩
  | .hbm, ⟨51, _⟩ => ⟨S_, .f32⟩
  | .hbm, ⟨52, _⟩ => ⟨S20000x256, .f32⟩
  | .hbm, ⟨53, _⟩ => ⟨S320000x1, .i32⟩
  | .hbm, ⟨54, _⟩ => ⟨S20000x256, .f32⟩
  | .hbm, ⟨55, _⟩ => ⟨S20000x256, .f32⟩
  | .hbm, ⟨56, _⟩ => ⟨S1x256x256, .f32⟩
  | .hbm, ⟨57, _⟩ => ⟨S256x256, .f32⟩
  | .hbm, ⟨58, _⟩ => ⟨S20000x256, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x256, .f32⟩
  | .hbm, ⟨68, _⟩ => ⟨S320000x1, .f32⟩
  | .hbm, ⟨69, _⟩ => ⟨S320000x256, .f32⟩
  | .hbm, ⟨70, _⟩ => ⟨S320000x256, .f32⟩
  | .hbm, ⟨71, _⟩ => ⟨S_, .f32⟩
  | .hbm, ⟨72, _⟩ => ⟨S20000x256, .f32⟩
  | .hbm, ⟨73, _⟩ => ⟨S320000x1, .i32⟩
  | .hbm, ⟨74, _⟩ => ⟨S20000x256, .f32⟩
  | .hbm, ⟨75, _⟩ => ⟨S20000x256, .f32⟩
  | .hbm, ⟨76, _⟩ => ⟨S1x256x256, .f32⟩
  | .hbm, ⟨77, _⟩ => ⟨S256x256, .f32⟩
  | .hbm, ⟨78, _⟩ => ⟨S20000x256, .f32⟩
  | .hbm, ⟨79, _⟩ => ⟨S_, .i32⟩
  | .hbm, ⟨80, _⟩ => ⟨S320000, .i32⟩
  | .hbm, ⟨81, _⟩ => ⟨S320000, .i1⟩
  | .hbm, ⟨82, _⟩ => ⟨S_, .i32⟩
  | .hbm, ⟨83, _⟩ => ⟨S320000, .i32⟩
  | .hbm, ⟨84, _⟩ => ⟨S320000, .i32⟩
  | .hbm, ⟨85, _⟩ => ⟨S320000, .i32⟩
  | .hbm, ⟨86, _⟩ => ⟨S320000x1, .i32⟩
  | .hbm, ⟨87, _⟩ => ⟨S320000x256, .f32⟩
  | .hbm, ⟨88, _⟩ => ⟨S320000x1, .f32⟩
  | .hbm, ⟨89, _⟩ => ⟨S320000x256, .f32⟩
  | .hbm, ⟨90, _⟩ => ⟨S320000x256, .f32⟩
  | .hbm, ⟨91, _⟩ => ⟨S_, .f32⟩
  | .hbm, ⟨92, _⟩ => ⟨S20000x256, .f32⟩
  | .hbm, ⟨93, _⟩ => ⟨S320000x1, .i32⟩
  | .hbm, ⟨94, _⟩ => ⟨S20000x256, .f32⟩
  | .hbm, ⟨95, _⟩ => ⟨S20000x256, .f32⟩
  | .hbm, ⟨96, _⟩ => ⟨S1x256x256, .f32⟩
  | .hbm, ⟨97, _⟩ => ⟨S256x256, .f32⟩
  | .hbm, ⟨98, _⟩ => ⟨S20000x256, .f32⟩
  | .hbm, ⟨99, _⟩ => ⟨S_, .i32⟩
  | .hbm, ⟨100, _⟩ => ⟨S320000, .i32⟩
  | .hbm, ⟨101, _⟩ => ⟨S320000, .i1⟩
  | .hbm, ⟨102, _⟩ => ⟨S_, .i32⟩
  | .hbm, ⟨103, _⟩ => ⟨S320000, .i32⟩
  | .hbm, ⟨104, _⟩ => ⟨S320000, .i32⟩
  | .hbm, ⟨105, _⟩ => ⟨S320000, .i32⟩
  | .hbm, ⟨106, _⟩ => ⟨S320000x1, .i32⟩
  | .hbm, ⟨107, _⟩ => ⟨S320000x256, .f32⟩
  | .hbm, ⟨108, _⟩ => ⟨S320000x1, .f32⟩
  | .hbm, ⟨109, _⟩ => ⟨S320000x256, .f32⟩
  | .hbm, ⟨110, _⟩ => ⟨S320000x256, .f32⟩
  | .hbm, ⟨111, _⟩ => ⟨S_, .f32⟩
  | .hbm, ⟨112, _⟩ => ⟨S20000x256, .f32⟩
  | .hbm, ⟨113, _⟩ => ⟨S320000x1, .i32⟩
  | .hbm, ⟨114, _⟩ => ⟨S20000x256, .f32⟩
  | .hbm, ⟨115, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256x768, .f32⟩
  | .local _ .vmem, ⟨10, _⟩ => ⟨S256x768, .f32⟩
  | .local _ .vmem, ⟨11, _⟩ => ⟨S1x768, .f32⟩
  | .local _ .vmem, ⟨12, _⟩ => ⟨S1x768, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x768, .f32⟩
  | .local _ .vmem, ⟨25, _⟩ => ⟨S256x768, .f32⟩
  | .local _ .vmem, ⟨26, _⟩ => ⟨S1x768, .f32⟩
  | .local _ .vmem, ⟨27, _⟩ => ⟨S1x768, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S256x768, .f32⟩
  | .local _ .vmem, ⟨40, _⟩ => ⟨S256x768, .f32⟩
  | .local _ .vmem, ⟨41, _⟩ => ⟨S1x768, .f32⟩
  | .local _ .vmem, ⟨42, _⟩ => ⟨S1x768, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S256x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S256x768, .f32⟩
  | .local _ .vmem, ⟨55, _⟩ => ⟨S256x768, .f32⟩
  | .local _ .vmem, ⟨56, _⟩ => ⟨S1x768, .f32⟩
  | .local _ .vmem, ⟨57, _⟩ => ⟨S1x768, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S256x256, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S2000x256, .f32⟩
  | .local _ .vmem, ⟨67, _⟩ => ⟨S2000x256, .f32⟩
  | .local _ .vmem, ⟨68, _⟩ => ⟨S2000x256, .f32⟩
  | .local _ .vmem, ⟨69, _⟩ => ⟨S256x768, .f32⟩
  | .local _ .vmem, ⟨70, _⟩ => ⟨S256x768, .f32⟩
  | .local _ .vmem, ⟨71, _⟩ => ⟨S1x768, .f32⟩
  | .local _ .vmem, ⟨72, _⟩ => ⟨S1x768, .f32⟩
  | .local _ .vmem, ⟨73, _⟩ => ⟨S2000x256, .f32⟩
  | .local _ .vmem, ⟨74, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_1 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_4 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_7 : Ref sig .tc := ⟨.hbm, 79, rfl⟩
abbrev main_v62 : Ref sig .tc := ⟨.hbm, 80, rfl⟩
abbrev main_v63 : Ref sig .tc := ⟨.hbm, 81, rfl⟩
abbrev main_c_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_10 : Ref sig .tc := ⟨.hbm, 99, rfl⟩
abbrev main_v79 : Ref sig .tc := ⟨.hbm, 100, rfl⟩
abbrev main_v80 : Ref sig .tc := ⟨.hbm, 101, rfl⟩
abbrev main_c_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg6_0 : Ref sig .tc := ⟨.vmem, 73, rfl⟩
abbrev cc9_stg6_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem6_0 : DmaSem sig := 73
abbrev cc9_sem6_1 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x768 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x768 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x768 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x768 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x768 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x768 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x768 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x768 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x768 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x256 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S768x256_S256x768_1_0 : S768x256.Transposes [1, 0] S256x768
  shapeCasts_S768_S1x768 : S768.ShapeCasts S1x768
  slices_S5x256x256_S1x256x256_0_0_0 : S5x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  shapeCasts_S2000x256_S2000x256 : S2000x256.ShapeCasts S2000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  slices_S2000x768_o0_0_S2000x256 : S2000x768.Slices ![0, 0] S2000x256
  slices_S2000x768_o0_256_S2000x256 : S2000x768.Slices ![0, 256] S2000x256
  slices_S2000x768_o0_512_S2000x256 : S2000x768.Slices ![0, 512] S2000x256
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x768_S2000x768_1_0_0_1_n_n_wf : DotDims.WF S2000x256 S256x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .f32 = 32 ∨ (Rect.block (s := S256x768) S256x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .f32 = 32 ∨ (Rect.block (s := S20000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x768.size a ≤ S256x768.size a
  hwx3_2 : ∀ i : grid3.Coords, EltTy.bits .f32 = 32 ∨ (Rect.block (s := S256x768) S256x768.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x768.size a ≤ S256x768.size a
  hwx3_3 : ∀ i : grid3.Coords, EltTy.bits .f32 = 32 ∨ (Rect.block (s := S256x768) S256x768.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x768.size a ≤ S1x768.size a
  hwx3_4 : ∀ i : grid3.Coords, EltTy.bits .f32 = 32 ∨ (Rect.block (s := S1x768) S1x768.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x768.size a ≤ S1x768.size a
  hwx3_5 : ∀ i : grid3.Coords, EltTy.bits .f32 = 32 ∨ (Rect.block (s := S1x768) S1x768.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .f32 = 32 ∨ (Rect.block (s := S20000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S20000x256.size a
  hwx4_2 : ∀ i : grid4.Coords, EltTy.bits .f32 = 32 ∨ (Rect.block (s := S20000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S20000x256.size a
  hwx5_1 : ∀ i : grid5.Coords, EltTy.bits .f32 = 32 ∨ (Rect.block (s := S20000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x768.size a ≤ S256x768.size a
  hwx5_2 : ∀ i : grid5.Coords, EltTy.bits .f32 = 32 ∨ (Rect.block (s := S256x768) S256x768.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x768.size a ≤ S256x768.size a
  hwx5_3 : ∀ i : grid5.Coords, EltTy.bits .f32 = 32 ∨ (Rect.block (s := S256x768) S256x768.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x768.size a ≤ S1x768.size a
  hwx5_4 : ∀ i : grid5.Coords, EltTy.bits .f32 = 32 ∨ (Rect.block (s := S1x768) S1x768.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x768.size a ≤ S1x768.size a
  hwx5_5 : ∀ i : grid5.Coords, EltTy.bits .f32 = 32 ∨ (Rect.block (s := S1x768) S1x768.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S20000x256.size a
  hwx5_6 : ∀ i : grid5.Coords, EltTy.bits .f32 = 32 ∨ (Rect.block (s := S20000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S20000x256.size a
  hwx6_2 : ∀ i : grid6.Coords, EltTy.bits .f32 = 32 ∨ (Rect.block (s := S20000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S20000x256.size a
  hwx7_1 : ∀ i : grid7.Coords, EltTy.bits .f32 = 32 ∨ (Rect.block (s := S20000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x768.size a ≤ S256x768.size a
  hwx7_2 : ∀ i : grid7.Coords, EltTy.bits .f32 = 32 ∨ (Rect.block (s := S256x768) S256x768.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x768.size a ≤ S256x768.size a
  hwx7_3 : ∀ i : grid7.Coords, EltTy.bits .f32 = 32 ∨ (Rect.block (s := S256x768) S256x768.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x768.size a ≤ S1x768.size a
  hwx7_4 : ∀ i : grid7.Coords, EltTy.bits .f32 = 32 ∨ (Rect.block (s := S1x768) S1x768.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x768.size a ≤ S1x768.size a
  hwx7_5 : ∀ i : grid7.Coords, EltTy.bits .f32 = 32 ∨ (Rect.block (s := S1x768) S1x768.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x256.size a ≤ S20000x256.size a
  hwx7_6 : ∀ i : grid7.Coords, EltTy.bits .f32 = 32 ∨ (Rect.block (s := S20000x256) S2000x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S20000x256.size a
  hwx8_0 : ∀ i : grid8.Coords, EltTy.bits .f32 = 32 ∨ (Rect.block (s := S20000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x256.size a ≤ S20000x256.size a
  hwx8_2 : ∀ i : grid8.Coords, EltTy.bits .f32 = 32 ∨ (Rect.block (s := S20000x256) S2000x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S20000x256.size a
  hwx9_0 : ∀ i : grid9.Coords, EltTy.bits .f32 = 32 ∨ (Rect.block (s := S20000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x256.size a ≤ S20000x256.size a
  hwx9_1 : ∀ i : grid9.Coords, EltTy.bits .f32 = 32 ∨ (Rect.block (s := S20000x256) S2000x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x768.size a ≤ S256x768.size a
  hwx9_2 : ∀ i : grid9.Coords, EltTy.bits .f32 = 32 ∨ (Rect.block (s := S256x768) S256x768.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x768.size a ≤ S256x768.size a
  hwx9_3 : ∀ i : grid9.Coords, EltTy.bits .f32 = 32 ∨ (Rect.block (s := S256x768) S256x768.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x768.size a ≤ S1x768.size a
  hwx9_4 : ∀ i : grid9.Coords, EltTy.bits .f32 = 32 ∨ (Rect.block (s := S1x768) S1x768.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x768.size a ≤ S1x768.size a
  hwx9_5 : ∀ i : grid9.Coords, EltTy.bits .f32 = 32 ∨ (Rect.block (s := S1x768) S1x768.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x256.size a ≤ S20000x256.size a
  hwx9_6 : ∀ i : grid9.Coords, EltTy.bits .f32 = 32 ∨ (Rect.block (s := S20000x256) S2000x256.size (cc9_transform_6 i) (hinb9_6 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S256x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S256x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x768.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v41) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S256x768.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S256x768.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v6) S1x768.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1x768.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v58) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v58) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v60) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v74) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v58) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S256x768.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v5) S256x768.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v6) S1x768.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v7) S1x768.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v75) S2000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v75) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v77) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v78) S2000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v91) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v75) S2000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S256x768.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v5) S256x768.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v6) S1x768.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v7) S1x768.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v92) S2000x256.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000 : Shape := ⟨1, ![320000]⟩
abbrev S5x256x256 : Shape := ⟨3, ![5, 256, 256]⟩
abbrev S768x256 : Shape := ⟨2, ![768, 256]⟩
abbrev S768 : Shape := ⟨1, ![768]⟩
abbrev S1x320000 : Shape := ⟨2, ![1, 320000]⟩
abbrev S1x256x256 : Shape := ⟨3, ![1, 256, 256]⟩
abbrev S256x256 : Shape := ⟨2, ![256, 256]⟩
abbrev S_ : Shape := ⟨0, ![]⟩
abbrev S320000x1 : Shape := ⟨2, ![320000, 1]⟩
abbrev S320000x256 : Shape := ⟨2, ![320000, 256]⟩
abbrev S256x768 : Shape := ⟨2, ![256, 768]⟩
abbrev S20000x768 : Shape := ⟨2, ![20000, 768]⟩
abbrev S1x768 : Shape := ⟨2, ![1, 768]⟩

abbrev nBuf : Space → Nat
  | .hbm => 322
  | .vmem => 0
  | .smem => 0
  | _ => 0

abbrev hbmTy0_0 (i : Nat) : BufTy := match i % 128 with
  | 0 => ⟨S20000x256, .f32⟩
  | 1 => ⟨S2x320000, .i32⟩
  | 2 => ⟨S320000, .f32⟩
  | 3 => ⟨S5x256x256, .f32⟩
  | 4 => ⟨S768x256, .f32⟩
  | 5 => ⟨S768x256, .f32⟩
  | 6 => ⟨S768, .f32⟩
  | 7 => ⟨S768, .f32⟩
  | 8 => ⟨S1x320000, .i32⟩
  | 9 => ⟨S320000, .i32⟩
  | 10 => ⟨S1x320000, .i32⟩
  | 11 => ⟨S320000, .i32⟩
  | 12 => ⟨S1x256x256, .f32⟩
  | 13 => ⟨S256x256, .f32⟩
  | 14 => ⟨S20000x256, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000x256, .f32⟩
  | 24 => ⟨S320000x1, .f32⟩
  | 25 => ⟨S320000x256, .f32⟩
  | 26 => ⟨S320000x256, .f32⟩
  | 27 => ⟨S_, .f32⟩
  | 28 => ⟨S20000x256, .f32⟩
  | 29 => ⟨S320000x1, .i32⟩
  | 30 => ⟨S20000x256, .f32⟩
  | 31 => ⟨S256x768, .f32⟩
  | 32 => ⟨S20000x768, .f32⟩
  | 33 => ⟨S1x768, .f32⟩
  | 34 => ⟨S20000x768, .f32⟩
  | 35 => ⟨S20000x768, .f32⟩
  | 36 => ⟨S256x768, .f32⟩
  | 37 => ⟨S20000x768, .f32⟩
  | 38 => ⟨S1x768, .f32⟩
  | 39 => ⟨S20000x768, .f32⟩
  | 40 => ⟨S20000x768, .f32⟩
  | 41 => ⟨S20000x256, .f32⟩
  | 42 => ⟨S20000x256, .f32⟩
  | 43 => ⟨S20000x256, .f32⟩
  | 44 => ⟨S20000x256, .f32⟩
  | 45 => ⟨S20000x256, .f32⟩
  | 46 => ⟨S20000x256, .f32⟩
  | 47 => ⟨S20000x256, .f32⟩
  | 48 => ⟨S20000x256, .f32⟩
  | 49 => ⟨S20000x256, .f32⟩
  | 50 => ⟨S_, .f32⟩
  | 51 => ⟨S20000x256, .f32⟩
  | 52 => ⟨S20000x256, .f32⟩
  | 53 => ⟨S_, .f32⟩
  | 54 => ⟨S20000x256, .f32⟩
  | 55 => ⟨S20000x256, .f32⟩
  | 56 => ⟨S20000x256, .f32⟩
  | 57 => ⟨S20000x256, .f32⟩
  | 58 => ⟨S20000x256, .f32⟩
  | 59 => ⟨S_, .f32⟩
  | 60 => ⟨S20000x256, .f32⟩
  | 61 => ⟨S20000x256, .f32⟩
  | 62 => ⟨S_, .f32⟩
  | 63 => ⟨S20000x256, .f32⟩
  | 64 => ⟨S20000x256, .f32⟩
  | 65 => ⟨S20000x256, .f32⟩
  | 66 => ⟨S20000x256, .f32⟩
  | 67 => ⟨S20000x256, .f32⟩
  | 68 => ⟨S_, .f32⟩
  | 69 => ⟨S20000x256, .f32⟩
  | 70 => ⟨S20000x256, .f32⟩
  | 71 => ⟨S20000x256, .f32⟩
  | 72 => ⟨S20000x256, .f32⟩
  | 73 => ⟨S20000x256, .f32⟩
  | 74 => ⟨S1x256x256, .f32⟩
  | 75 => ⟨S256x256, .f32⟩
  | 76 => ⟨S20000x256, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x256, .f32⟩
  | 86 => ⟨S320000x1, .f32⟩
  | 87 => ⟨S320000x256, .f32⟩
  | 88 => ⟨S320000x256, .f32⟩
  | 89 => ⟨S_, .f32⟩
  | 90 => ⟨S20000x256, .f32⟩
  | 91 => ⟨S320000x1, .i32⟩
  | 92 => ⟨S20000x256, .f32⟩
  | 93 => ⟨S256x768, .f32⟩
  | 94 => ⟨S20000x768, .f32⟩
  | 95 => ⟨S1x768, .f32⟩
  | 96 => ⟨S20000x768, .f32⟩
  | 97 => ⟨S20000x768, .f32⟩
  | 98 => ⟨S256x768, .f32⟩
  | 99 => ⟨S20000x768, .f32⟩
  | 100 => ⟨S1x768, .f32⟩
  | 101 => ⟨S20000x768, .f32⟩
  | 102 => ⟨S20000x768, .f32⟩
  | 103 => ⟨S20000x256, .f32⟩
  | 104 => ⟨S20000x256, .f32⟩
  | 105 => ⟨S20000x256, .f32⟩
  | 106 => ⟨S20000x256, .f32⟩
  | 107 => ⟨S20000x256, .f32⟩
  | 108 => ⟨S20000x256, .f32⟩
  | 109 => ⟨S20000x256, .f32⟩
  | 110 => ⟨S20000x256, .f32⟩
  | 111 => ⟨S20000x256, .f32⟩
  | 112 => ⟨S_, .f32⟩
  | 113 => ⟨S20000x256, .f32⟩
  | 114 => ⟨S20000x256, .f32⟩
  | 115 => ⟨S_, .f32⟩
  | 116 => ⟨S20000x256, .f32⟩
  | 117 => ⟨S20000x256, .f32⟩
  | 118 => ⟨S20000x256, .f32⟩
  | 119 => ⟨S20000x256, .f32⟩
  | 120 => ⟨S20000x256, .f32⟩
  | 121 => ⟨S_, .f32⟩
  | 122 => ⟨S20000x256, .f32⟩
  | 123 => ⟨S20000x256, .f32⟩
  | 124 => ⟨S_, .f32⟩
  | 125 => ⟨S20000x256, .f32⟩
  | 126 => ⟨S20000x256, .f32⟩
  | 127 => ⟨S20000x256, .f32⟩
  | _ => ⟨S20000x256, .f32⟩

abbrev hbmTy0_1 (i : Nat) : BufTy := match i % 128 with
  | 0 => ⟨S20000x256, .f32⟩
  | 1 => ⟨S20000x256, .f32⟩
  | 2 => ⟨S_, .f32⟩
  | 3 => ⟨S20000x256, .f32⟩
  | 4 => ⟨S20000x256, .f32⟩
  | 5 => ⟨S20000x256, .f32⟩
  | 6 => ⟨S20000x256, .f32⟩
  | 7 => ⟨S20000x256, .f32⟩
  | 8 => ⟨S1x256x256, .f32⟩
  | 9 => ⟨S256x256, .f32⟩
  | 10 => ⟨S20000x256, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x256, .f32⟩
  | 20 => ⟨S320000x1, .f32⟩
  | 21 => ⟨S320000x256, .f32⟩
  | 22 => ⟨S320000x256, .f32⟩
  | 23 => ⟨S_, .f32⟩
  | 24 => ⟨S20000x256, .f32⟩
  | 25 => ⟨S320000x1, .i32⟩
  | 26 => ⟨S20000x256, .f32⟩
  | 27 => ⟨S256x768, .f32⟩
  | 28 => ⟨S20000x768, .f32⟩
  | 29 => ⟨S1x768, .f32⟩
  | 30 => ⟨S20000x768, .f32⟩
  | 31 => ⟨S20000x768, .f32⟩
  | 32 => ⟨S256x768, .f32⟩
  | 33 => ⟨S20000x768, .f32⟩
  | 34 => ⟨S1x768, .f32⟩
  | 35 => ⟨S20000x768, .f32⟩
  | 36 => ⟨S20000x768, .f32⟩
  | 37 => ⟨S20000x256, .f32⟩
  | 38 => ⟨S20000x256, .f32⟩
  | 39 => ⟨S20000x256, .f32⟩
  | 40 => ⟨S20000x256, .f32⟩
  | 41 => ⟨S20000x256, .f32⟩
  | 42 => ⟨S20000x256, .f32⟩
  | 43 => ⟨S20000x256, .f32⟩
  | 44 => ⟨S20000x256, .f32⟩
  | 45 => ⟨S20000x256, .f32⟩
  | 46 => ⟨S_, .f32⟩
  | 47 => ⟨S20000x256, .f32⟩
  | 48 => ⟨S20000x256, .f32⟩
  | 49 => ⟨S_, .f32⟩
  | 50 => ⟨S20000x256, .f32⟩
  | 51 => ⟨S20000x256, .f32⟩
  | 52 => ⟨S20000x256, .f32⟩
  | 53 => ⟨S20000x256, .f32⟩
  | 54 => ⟨S20000x256, .f32⟩
  | 55 => ⟨S_, .f32⟩
  | 56 => ⟨S20000x256, .f32⟩
  | 57 => ⟨S20000x256, .f32⟩
  | 58 => ⟨S_, .f32⟩
  | 59 => ⟨S20000x256, .f32⟩
  | 60 => ⟨S20000x256, .f32⟩
  | 61 => ⟨S20000x256, .f32⟩
  | 62 => ⟨S20000x256, .f32⟩
  | 63 => ⟨S20000x256, .f32⟩
  | 64 => ⟨S_, .f32⟩
  | 65 => ⟨S20000x256, .f32⟩
  | 66 => ⟨S20000x256, .f32⟩
  | 67 => ⟨S20000x256, .f32⟩
  | 68 => ⟨S20000x256, .f32⟩
  | 69 => ⟨S20000x256, .f32⟩
  | 70 => ⟨S1x256x256, .f32⟩
  | 71 => ⟨S256x256, .f32⟩
  | 72 => ⟨S20000x256, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x256, .f32⟩
  | 82 => ⟨S320000x1, .f32⟩
  | 83 => ⟨S320000x256, .f32⟩
  | 84 => ⟨S320000x256, .f32⟩
  | 85 => ⟨S_, .f32⟩
  | 86 => ⟨S20000x256, .f32⟩
  | 87 => ⟨S320000x1, .i32⟩
  | 88 => ⟨S20000x256, .f32⟩
  | 89 => ⟨S256x768, .f32⟩
  | 90 => ⟨S20000x768, .f32⟩
  | 91 => ⟨S1x768, .f32⟩
  | 92 => ⟨S20000x768, .f32⟩
  | 93 => ⟨S20000x768, .f32⟩
  | 94 => ⟨S256x768, .f32⟩
  | 95 => ⟨S20000x768, .f32⟩
  | 96 => ⟨S1x768, .f32⟩
  | 97 => ⟨S20000x768, .f32⟩
  | 98 => ⟨S20000x768, .f32⟩
  | 99 => ⟨S20000x256, .f32⟩
  | 100 => ⟨S20000x256, .f32⟩
  | 101 => ⟨S20000x256, .f32⟩
  | 102 => ⟨S20000x256, .f32⟩
  | 103 => ⟨S20000x256, .f32⟩
  | 104 => ⟨S20000x256, .f32⟩
  | 105 => ⟨S20000x256, .f32⟩
  | 106 => ⟨S20000x256, .f32⟩
  | 107 => ⟨S20000x256, .f32⟩
  | 108 => ⟨S_, .f32⟩
  | 109 => ⟨S20000x256, .f32⟩
  | 110 => ⟨S20000x256, .f32⟩
  | 111 => ⟨S_, .f32⟩
  | 112 => ⟨S20000x256, .f32⟩
  | 113 => ⟨S20000x256, .f32⟩
  | 114 => ⟨S20000x256, .f32⟩
  | 115 => ⟨S20000x256, .f32⟩
  | 116 => ⟨S20000x256, .f32⟩
  | 117 => ⟨S_, .f32⟩
  | 118 => ⟨S20000x256, .f32⟩
  | 119 => ⟨S20000x256, .f32⟩
  | 120 => ⟨S_, .f32⟩
  | 121 => ⟨S20000x256, .f32⟩
  | 122 => ⟨S20000x256, .f32⟩
  | 123 => ⟨S20000x256, .f32⟩
  | 124 => ⟨S20000x256, .f32⟩
  | 125 => ⟨S20000x256, .f32⟩
  | 126 => ⟨S_, .f32⟩
  | 127 => ⟨S20000x256, .f32⟩
  | _ => ⟨S20000x256, .f32⟩

abbrev hbmTy0_2 (i : Nat) : BufTy := match i % 128 with
  | 0 => ⟨S20000x256, .f32⟩
  | 1 => ⟨S20000x256, .f32⟩
  | 2 => ⟨S20000x256, .f32⟩
  | 3 => ⟨S20000x256, .f32⟩
  | 4 => ⟨S1x256x256, .f32⟩
  | 5 => ⟨S256x256, .f32⟩
  | 6 => ⟨S20000x256, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000x256, .f32⟩
  | 16 => ⟨S320000x1, .f32⟩
  | 17 => ⟨S320000x256, .f32⟩
  | 18 => ⟨S320000x256, .f32⟩
  | 19 => ⟨S_, .f32⟩
  | 20 => ⟨S20000x256, .f32⟩
  | 21 => ⟨S320000x1, .i32⟩
  | 22 => ⟨S20000x256, .f32⟩
  | 23 => ⟨S256x768, .f32⟩
  | 24 => ⟨S20000x768, .f32⟩
  | 25 => ⟨S1x768, .f32⟩
  | 26 => ⟨S20000x768, .f32⟩
  | 27 => ⟨S20000x768, .f32⟩
  | 28 => ⟨S256x768, .f32⟩
  | 29 => ⟨S20000x768, .f32⟩
  | 30 => ⟨S1x768, .f32⟩
  | 31 => ⟨S20000x768, .f32⟩
  | 32 => ⟨S20000x768, .f32⟩
  | 33 => ⟨S20000x256, .f32⟩
  | 34 => ⟨S20000x256, .f32⟩
  | 35 => ⟨S20000x256, .f32⟩
  | 36 => ⟨S20000x256, .f32⟩
  | 37 => ⟨S20000x256, .f32⟩
  | 38 => ⟨S20000x256, .f32⟩
  | 39 => ⟨S20000x256, .f32⟩
  | 40 => ⟨S20000x256, .f32⟩
  | 41 => ⟨S20000x256, .f32⟩
  | 42 => ⟨S_, .f32⟩
  | 43 => ⟨S20000x256, .f32⟩
  | 44 => ⟨S20000x256, .f32⟩
  | 45 => ⟨S_, .f32⟩
  | 46 => ⟨S20000x256, .f32⟩
  | 47 => ⟨S20000x256, .f32⟩
  | 48 => ⟨S20000x256, .f32⟩
  | 49 => ⟨S20000x256, .f32⟩
  | 50 => ⟨S20000x256, .f32⟩
  | 51 => ⟨S_, .f32⟩
  | 52 => ⟨S20000x256, .f32⟩
  | 53 => ⟨S20000x256, .f32⟩
  | 54 => ⟨S_, .f32⟩
  | 55 => ⟨S20000x256, .f32⟩
  | 56 => ⟨S20000x256, .f32⟩
  | 57 => ⟨S20000x256, .f32⟩
  | 58 => ⟨S20000x256, .f32⟩
  | 59 => ⟨S20000x256, .f32⟩
  | 60 => ⟨S_, .f32⟩
  | 61 => ⟨S20000x256, .f32⟩
  | 62 => ⟨S20000x256, .f32⟩
  | 63 => ⟨S20000x256, .f32⟩
  | 64 => ⟨S20000x256, .f32⟩
  | 65 => ⟨S20000x256, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_6 : Ref sig .tc := ⟨.hbm, 77, rfl⟩
abbrev main_v61 : Ref sig .tc := ⟨.hbm, 78, rfl⟩
abbrev main_v62 : Ref sig .tc := ⟨.hbm, 79, rfl⟩
abbrev main_c_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_9 : Ref sig .tc := ⟨.hbm, 112, rfl⟩
abbrev main_v93 : Ref sig .tc := ⟨.hbm, 113, rfl⟩
abbrev main_v94 : Ref sig .tc := ⟨.hbm, 114, rfl⟩
abbrev main_cst_10 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_11 : Ref sig .tc := ⟨.hbm, 121, rfl⟩
abbrev main_v100 : Ref sig .tc := ⟨.hbm, 122, rfl⟩
abbrev main_v101 : Ref sig .tc := ⟨.hbm, 123, rfl⟩
abbrev main_cst_12 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_13 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_c_14 : Ref sig .tc := ⟨.hbm, 139, rfl⟩
abbrev main_v115 : Ref sig .tc := ⟨.hbm, 140, rfl⟩
abbrev main_v116 : Ref sig .tc := ⟨.hbm, 141, rfl⟩
abbrev main_c_15 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_16 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_17 : Ref sig .tc := ⟨.hbm, 174, rfl⟩
abbrev main_v147 : Ref sig .tc := ⟨.hbm, 175, rfl⟩
abbrev main_v148 : Ref sig .tc := ⟨.hbm, 176, rfl⟩
abbrev main_cst_18 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_19 : Ref sig .tc := ⟨.hbm, 183, rfl⟩
abbrev main_v154 : Ref sig .tc := ⟨.hbm, 184, rfl⟩
abbrev main_v155 : Ref sig .tc := ⟨.hbm, 185, rfl⟩
abbrev main_cst_20 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_21 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_c_22 : Ref sig .tc := ⟨.hbm, 201, rfl⟩
abbrev main_v169 : Ref sig .tc := ⟨.hbm, 202, rfl⟩
abbrev main_v170 : Ref sig .tc := ⟨.hbm, 203, rfl⟩
abbrev main_c_23 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_cst_24 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_cst_25 : Ref sig .tc := ⟨.hbm, 236, rfl⟩
abbrev main_v201 : Ref sig .tc := ⟨.hbm, 237, rfl⟩
abbrev main_v202 : Ref sig .tc := ⟨.hbm, 238, rfl⟩
abbrev main_cst_26 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_cst_27 : Ref sig .tc := ⟨.hbm, 245, rfl⟩
abbrev main_v208 : Ref sig .tc := ⟨.hbm, 246, rfl⟩
abbrev main_v209 : Ref sig .tc := ⟨.hbm, 247, rfl⟩
abbrev main_cst_28 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_cst_29 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_c_30 : Ref sig .tc := ⟨.hbm, 263, rfl⟩
abbrev main_v223 : Ref sig .tc := ⟨.hbm, 264, rfl⟩
abbrev main_v224 : Ref sig .tc := ⟨.hbm, 265, rfl⟩
abbrev main_c_31 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_cst_32 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_cst_33 : Ref sig .tc := ⟨.hbm, 298, rfl⟩
abbrev main_v255 : Ref sig .tc := ⟨.hbm, 299, rfl⟩
abbrev main_v256 : Ref sig .tc := ⟨.hbm, 300, rfl⟩
abbrev main_cst_34 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_cst_35 : Ref sig .tc := ⟨.hbm, 307, rfl⟩
abbrev main_v262 : Ref sig .tc := ⟨.hbm, 308, rfl⟩
abbrev main_v263 : Ref sig .tc := ⟨.hbm, 309, rfl⟩
abbrev main_cst_36 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_cst_37 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S5x256x256_S1x256x256_0_0_0 : S5x256x256.Slices ![0, 0, 0] S1x256x256
  shapeCasts_S1x256x256_S256x256 : S1x256x256.ShapeCasts S256x256
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  transposes_S768x256_S256x768_1_0 : S768x256.Transposes [1, 0] S256x768
  bcast_S768_S1x768_1 : S768.BroadcastsInDim S1x768 (![1] : Fin 1 → Fin S1x768.rank)
  bcast_S1x768_S20000x768_0_1 : S1x768.BroadcastsInDim S20000x768 (![0, 1] : Fin 2 → Fin S20000x768.rank)
  slices_S20000x768_S20000x256_0_0 : S20000x768.Slices ![0, 0] S20000x256
  slices_S20000x768_S20000x256_0_256 : S20000x768.Slices ![0, 256] S20000x256
  slices_S20000x768_S20000x256_0_512 : S20000x768.Slices ![0, 512] S20000x256
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x768_S20000x768_1_0_0_1_n_n_wf : DotDims.WF S20000x256 S256x768 S20000x768 [1] [0] [0] [1] [] []

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x768_S20000x768_1_0_0_1_n_n : DotDims S20000x256 S256x768 S20000x768 where
  lhsContracting := [1]
  rhsContracting := [0]
  lhsNonContracting := [0]
  rhsNonContracting := [1]
  lhsBatch := []
  rhsBatch := []
  wf := dot_S20000x256_S256x768_S20000x768_1_0_0_1_n_n_wf

class Facts : Prop extends Facts₀ where

variable [Facts]
-- ==== Proof.RunResult.lean ====
/-
  The run of the ten-call program with its result kept in the post.

  The generated frame launches the program's twenty segments — ten stretches of host operations and ten kernel calls —
  and concludes, of every final state, that each buffer no call scopes holds the last boundary's contents; it then keeps
  only the arguments.  Here the same launch keeps the result buffer too: after every weakly fair execution the result
  array holds the contents `W20` gives it, the fold of the segments from the launch memory.
-/
import proofs.«109821_j77129022701746_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result array at the last boundary's contents and the
    arguments as launched. -/
theorem run_result : θ_run defs (onTc (τ := τ) (main (F := F))) ⟨m, fun _ => 0, ρ⟩ (fun r => ∀ c : Dev nD,
      r.2.mem ((c.tc : Thread nD τ).loc main_v92) = W20 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v92 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c)⟩)

end Cert.KernelIdeal.Whole

end
-- ==== Proof.Route.lean ====
/-
  The routing of messages along the edges and the layers' weights, as the kernel program's host operations write them.
-/
import proofs.«109821_j77129022701746_1_alg».proof.Proof.Gen.KernelIdeal
import Idealize.ShloMosaic.PureOps.Ideal

set_option maxRecDepth 16384

noncomputable section

namespace Cert.KernelIdeal.Chain

open Cert.KernelIdeal Cert.KernelIdeal.Gen Idealize.ShloMosaic

/-- Routing the messages along the edges: negative sources wrap once, rows are gathered by source, scaled by the edge
    weight and added up per target onto zeros. -/
def route (src dst : IVec S320000 32) (ea : FVec Ideal S320000 .f32)
    (msgs : FVec Ideal S20000x256 .f32) : FVec Ideal S20000x256 .f32 :=
  Host.scatterAdd scatter_S20000x256_S320000x1_S320000x256_1_0_0_1 (broadcastInDim S20000x256 ![] bcast_S_S20000x256 (constant (F := Ideal) S_ .f32 0x00000000#32)) (broadcastInDim S320000x1 ![0] bcast_S320000_S320000x1_0 dst) (mulf (Host.gather gather_S20000x256_S320000x1_S320000x256_1_0_n_n_0_1_1256 msgs (broadcastInDim S320000x1 ![0] bcast_S320000_S320000x1_0 (select (cmpi .slt src (broadcastInDim S320000 ![] bcast_S_S320000 (constantI S_ 32 0#32))) (addi src (broadcastInDim S320000 ![] bcast_S_S320000 (constantI S_ 32 20000#32))) src))) (broadcastInDim S320000x256 ![0, 1] bcast_S320000x1_S320000x256_0_1 (broadcastInDim S320000x1 ![0] bcast_S320000_S320000x1_0 ea)))

/-- The layer weights: slice `k` of the [5, 256, 256] argument, reshaped to a matrix. -/
abbrev wsl0 (a3 : FVec Ideal S5x256x256 .f32) : FVec Ideal S256x256 .f32 :=
  shapeCast S256x256 (extractStridedSlice S1x256x256 ![0, 0, 0] a3 slices_S5x256x256_S1x256x256_0_0_0) shapeCasts_S1x256x256_S256x256
abbrev wsl1 (a3 : FVec Ideal S5x256x256 .f32) : FVec Ideal S256x256 .f32 :=
  shapeCast S256x256 (extractStridedSlice S1x256x256 ![1, 0, 0] a3 slices_S5x256x256_S1x256x256_1_0_0) shapeCasts_S1x256x256_S256x256
abbrev wsl2 (a3 : FVec Ideal S5x256x256 .f32) : FVec Ideal S256x256 .f32 :=
  shapeCast S256x256 (extractStridedSlice S1x256x256 ![2, 0, 0] a3 slices_S5x256x256_S1x256x256_2_0_0) shapeCasts_S1x256x256_S256x256
abbrev wsl3 (a3 : FVec Ideal S5x256x256 .f32) : FVec Ideal S256x256 .f32 :=
  shapeCast S256x256 (extractStridedSlice S1x256x256 ![3, 0, 0] a3 slices_S5x256x256_S1x256x256_3_0_0) shapeCasts_S1x256x256_S256x256
abbrev wsl4 (a3 : FVec Ideal S5x256x256 .f32) : FVec Ideal S256x256 .f32 :=
  shapeCast S256x256 (extractStridedSlice S1x256x256 ![4, 0, 0] a3 slices_S5x256x256_S1x256x256_4_0_0) shapeCasts_S1x256x256_S256x256

end Cert.KernelIdeal.Chain

end
-- ==== Proof.Carry.lean ====
/-
  Buffers that cross the program unchanged.

  Between the first stretch of host operations and the last kernel call, eight buffers are written by nobody: the edge
  weights and the layer weights (arguments), the two rows of edge endpoints, the two transposed [256, 768] matrices and
  the two bias rows (all computed by the first stretch).  Each host stretch writes a known list of buffers and each kernel
  call writes only its result (a buffer it merely reads through an input window ends as it was entered); none of the
  written ones is among the eight: at every boundary they hold what they held after the first stretch.
-/
import proofs.«109821_j77129022701746_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## What each host stretch writes -/

/-- The buffers stretch 0 writes. -/
abbrev host0_W : List (Ref sig .tc) := [main_v0, main_v1, main_v2, main_v3, main_v4, main_v5, main_v6, main_v7, main_v8, main_v9]
theorem host0_writes : (hostOps0 : List (HloOp τ sig (Elt F))).Forall fun op => op.writes ⊆ (host0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 0 does not write keeps its contents through it. -/
theorem keep_host0 (V : Valuation τ sig (Elt F)) (r : Ref sig .tc) (h : r ∉ host0_W) :
    StableHlo.after hostOps0 V (Proc.devRef .tc r) = V (Proc.devRef .tc r) :=
  StableHlo.after_of_writes_sub hostOps0 V host0_writes h

/-- The buffers stretch 1 writes. -/
abbrev host1_W : List (Ref sig .tc) := [main_c, main_v11, main_v12, main_c_0, main_v13, main_v14, main_v15, main_v16, main_v17, main_v18, main_v19, main_v20, main_cst, main_v21, main_v22, main_v23]
theorem host1_writes : (hostOps1 : List (HloOp τ sig (Elt F))).Forall fun op => op.writes ⊆ (host1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 1 does not write keeps its contents through it. -/
theorem keep_host1 (V : Valuation τ sig (Elt F)) (r : Ref sig .tc) (h : r ∉ host1_W) :
    StableHlo.after hostOps1 V (Proc.devRef .tc r) = V (Proc.devRef .tc r) :=
  StableHlo.after_of_writes_sub hostOps1 V host1_writes h

/-- The buffers stretch 2 writes. -/
abbrev host2_W : List (Ref sig .tc) := [main_v25, main_v26]
theorem host2_writes : (hostOps2 : List (HloOp τ sig (Elt F))).Forall fun op => op.writes ⊆ (host2_W.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 2 does not write keeps its contents through it. -/
theorem keep_host2 (V : Valuation τ sig (Elt F)) (r : Ref sig .tc) (h : r ∉ host2_W) :
    StableHlo.after hostOps2 V (Proc.devRef .tc r) = V (Proc.devRef .tc r) :=
  StableHlo.after_of_writes_sub hostOps2 V host2_writes h

/-- The buffers stretch 3 writes. -/
abbrev host3_W : List (Ref sig .tc) := [main_c_1, main_v28, main_v29, main_c_2, main_v30, main_v31, main_v32, main_v33, main_v34, main_v35, main_v36, main_v37, main_cst_3, main_v38, main_v39, main_v40]
theorem host3_writes : (hostOps3 : List (HloOp τ sig (Elt F))).Forall fun op => op.writes ⊆ (host3_W.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 3 does not write keeps its contents through it. -/
theorem keep_host3 (V : Valuation τ sig (Elt F)) (r : Ref sig .tc) (h : r ∉ host3_W) :
    StableHlo.after hostOps3 V (Proc.devRef .tc r) = V (Proc.devRef .tc r) :=
  StableHlo.after_of_writes_sub hostOps3 V host3_writes h

/-- The buffers stretch 4 writes. -/
abbrev host4_W : List (Ref sig .tc) := [main_v42, main_v43]
theorem host4_writes : (hostOps4 : List (HloOp τ sig (Elt F))).Forall fun op => op.writes ⊆ (host4_W.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 4 does not write keeps its contents through it. -/
theorem keep_host4 (V : Valuation τ sig (Elt F)) (r : Ref sig .tc) (h : r ∉ host4_W) :
    StableHlo.after hostOps4 V (Proc.devRef .tc r) = V (Proc.devRef .tc r) :=
  StableHlo.after_of_writes_sub hostOps4 V host4_writes h

/-- The buffers stretch 5 writes. -/
abbrev host5_W : List (Ref sig .tc) := [main_c_4, main_v45, main_v46, main_c_5, main_v47, main_v48, main_v49, main_v50, main_v51, main_v52, main_v53, main_v54, main_cst_6, main_v55, main_v56, main_v57]
theorem host5_writes : (hostOps5 : List (HloOp τ sig (Elt F))).Forall fun op => op.writes ⊆ (host5_W.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 5 does not write keeps its contents through it. -/
theorem keep_host5 (V : Valuation τ sig (Elt F)) (r : Ref sig .tc) (h : r ∉ host5_W) :
    StableHlo.after hostOps5 V (Proc.devRef .tc r) = V (Proc.devRef .tc r) :=
  StableHlo.after_of_writes_sub hostOps5 V host5_writes h

/-- The buffers stretch 6 writes. -/
abbrev host6_W : List (Ref sig .tc) := [main_v59, main_v60]
theorem host6_writes : (hostOps6 : List (HloOp τ sig (Elt F))).Forall fun op => op.writes ⊆ (host6_W.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 6 does not write keeps its contents through it. -/
theorem keep_host6 (V : Valuation τ sig (Elt F)) (r : Ref sig .tc) (h : r ∉ host6_W) :
    StableHlo.after hostOps6 V (Proc.devRef .tc r) = V (Proc.devRef .tc r) :=
  StableHlo.after_of_writes_sub hostOps6 V host6_writes h

/-- The buffers stretch 7 writes. -/
abbrev host7_W : List (Ref sig .tc) := [main_c_7, main_v62, main_v63, main_c_8, main_v64, main_v65, main_v66, main_v67, main_v68, main_v69, main_v70, main_v71, main_cst_9, main_v72, main_v73, main_v74]
theorem host7_writes : (hostOps7 : List (HloOp τ sig (Elt F))).Forall fun op => op.writes ⊆ (host7_W.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 7 does not write keeps its contents through it. -/
theorem keep_host7 (V : Valuation τ sig (Elt F)) (r : Ref sig .tc) (h : r ∉ host7_W) :
    StableHlo.after hostOps7 V (Proc.devRef .tc r) = V (Proc.devRef .tc r) :=
  StableHlo.after_of_writes_sub hostOps7 V host7_writes h

/-- The buffers stretch 8 writes. -/
abbrev host8_W : List (Ref sig .tc) := [main_v76, main_v77]
theorem host8_writes : (hostOps8 : List (HloOp τ sig (Elt F))).Forall fun op => op.writes ⊆ (host8_W.map (Proc.devRef (τ := τ) .tc)).toFinset := by
  simp only [hostOps8, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 8 does not write keeps its contents through it. -/
theorem keep_host8 (V : Valuation τ sig (Elt F)) (r : Ref sig .tc) (h : r ∉ host8_W) :
    StableHlo.after hostOps8 V (Proc.devRef .tc r) = V (Proc.devRef .tc r) :=
  StableHlo.after_of_writes_sub hostOps8 V host8_writes h

/-- The buffers stretch 9 writes. -/
abbrev host9_W : List (Ref sig .tc) := [main_c_10, main_v79, main_v80, main_c_11, main_v81, main_v82, main_v83, main_v84, main_v85, main_v86, main_v87, main_v88, main_cst_12, main_v89, main_v90, main_v91]
theorem host9_writes : (hostOps9 : List (HloOp τ sig (Elt F))).Forall fun op => op.writes ⊆ (host9_W.map (Proc.devRef (τ := τ) .tc)).toFinset := by
  simp only [hostOps9, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer stretch 9 does not write keeps its contents through it. -/
theorem keep_host9 (V : Valuation τ sig (Elt F)) (r : Ref sig .tc) (h : r ∉ host9_W) :
    StableHlo.after hostOps9 V (Proc.devRef .tc r) = V (Proc.devRef .tc r) :=
  StableHlo.after_of_writes_sub hostOps9 V host9_writes h

/-! ## The eight buffers nobody writes after the first stretch -/

abbrev stable : List (Ref sig .tc) := [main_arg2, main_arg3, main_v1, main_v3, main_v4, main_v5, main_v6, main_v7]

theorem up2 (c : Dev nD) (b : Ref sig .tc) (hb : b ∈ stable) : W2 m ρ c (Proc.devRef .tc b) = W1 m ρ c (Proc.devRef .tc b) := by
  rcases (by decide : ∀ b ∈ stable, (∀ w, Pipeline.arrRef spec0 w ≠ b) ∨ ∃ w, Pipeline.arrRef spec0 w = b ∧ (cfg0.win w).isOut = false) b hb with h | ⟨w, rfl, hw⟩
  · exact W2_of_ne m ρ c b h
  · exact ((W2_arr m ρ c w).trans ((dat0 (V1 m ρ) c).arrAt_in w hw cfg0.N)).trans (A_eq0 (V1 m ρ) c w)
/-- At boundary 2 a stable buffer holds what it held after the first stretch. -/
theorem to1_2 (c : Dev nD) (b : Ref sig .tc) (hb : b ∈ stable) : W2 m ρ c (Proc.devRef .tc b) = W1 m ρ c (Proc.devRef .tc b) :=
  up2 m ρ c b hb

theorem up3 (c : Dev nD) (b : Ref sig .tc) (hb : b ∈ stable) : W3 m ρ c (Proc.devRef .tc b) = W2 m ρ c (Proc.devRef .tc b) :=
  keep_host1 (W2 m ρ c) b ((by decide : ∀ b ∈ stable, b ∉ host1_W) b hb)
/-- At boundary 3 a stable buffer holds what it held after the first stretch. -/
theorem to1_3 (c : Dev nD) (b : Ref sig .tc) (hb : b ∈ stable) : W3 m ρ c (Proc.devRef .tc b) = W1 m ρ c (Proc.devRef .tc b) :=
  (up3 m ρ c b hb).trans (to1_2 m ρ c b hb)

theorem up4 (c : Dev nD) (b : Ref sig .tc) (hb : b ∈ stable) : W4 m ρ c (Proc.devRef .tc b) = W3 m ρ c (Proc.devRef .tc b) := by
  rcases (by decide : ∀ b ∈ stable, (∀ w, Pipeline.arrRef spec1 w ≠ b) ∨ ∃ w, Pipeline.arrRef spec1 w = b ∧ (cfg1.win w).isOut = false) b hb with h | ⟨w, rfl, hw⟩
  · exact W4_of_ne m ρ c b h
  · exact ((W4_arr m ρ c w).trans ((dat1 (V3 m ρ) c).arrAt_in w hw cfg1.N)).trans (A_eq1 (V3 m ρ) c w)
/-- At boundary 4 a stable buffer holds what it held after the first stretch. -/
theorem to1_4 (c : Dev nD) (b : Ref sig .tc) (hb : b ∈ stable) : W4 m ρ c (Proc.devRef .tc b) = W1 m ρ c (Proc.devRef .tc b) :=
  (up4 m ρ c b hb).trans (to1_3 m ρ c b hb)

theorem up5 (c : Dev nD) (b : Ref sig .tc) (hb : b ∈ stable) : W5 m ρ c (Proc.devRef .tc b) = W4 m ρ c (Proc.devRef .tc b) :=
  keep_host2 (W4 m ρ c) b ((by decide : ∀ b ∈ stable, b ∉ host2_W) b hb)
/-- At boundary 5 a stable buffer holds what it held after the first stretch. -/
theorem to1_5 (c : Dev nD) (b : Ref sig .tc) (hb : b ∈ stable) : W5 m ρ c (Proc.devRef .tc b) = W1 m ρ c (Proc.devRef .tc b) :=
  (up5 m ρ c b hb).trans (to1_4 m ρ c b hb)

theorem up6 (c : Dev nD) (b : Ref sig .tc) (hb : b ∈ stable) : W6 m ρ c (Proc.devRef .tc b) = W5 m ρ c (Proc.devRef .tc b) := by
  rcases (by decide : ∀ b ∈ stable, (∀ w, Pipeline.arrRef spec2 w ≠ b) ∨ ∃ w, Pipeline.arrRef spec2 w = b ∧ (cfg2.win w).isOut = false) b hb with h | ⟨w, rfl, hw⟩
  · exact W6_of_ne m ρ c b h
  · exact ((W6_arr m ρ c w).trans ((dat2 (V5 m ρ) c).arrAt_in w hw cfg2.N)).trans (A_eq2 (V5 m ρ) c w)
/-- At boundary 6 a stable buffer holds what it held after the first stretch. -/
theorem to1_6 (c : Dev nD) (b : Ref sig .tc) (hb : b ∈ stable) : W6 m ρ c (Proc.devRef .tc b) = W1 m ρ c (Proc.devRef .tc b) :=
  (up6 m ρ c b hb).trans (to1_5 m ρ c b hb)

theorem up7 (c : Dev nD) (b : Ref sig .tc) (hb : b ∈ stable) : W7 m ρ c (Proc.devRef .tc b) = W6 m ρ c (Proc.devRef .tc b) :=
  keep_host3 (W6 m ρ c) b ((by decide : ∀ b ∈ stable, b ∉ host3_W) b hb)
/-- At boundary 7 a stable buffer holds what it held after the first stretch. -/
theorem to1_7 (c : Dev nD) (b : Ref sig .tc) (hb : b ∈ stable) : W7 m ρ c (Proc.devRef .tc b) = W1 m ρ c (Proc.devRef .tc b) :=
  (up7 m ρ c b hb).trans (to1_6 m ρ c b hb)

theorem up8 (c : Dev nD) (b : Ref sig .tc) (hb : b ∈ stable) : W8 m ρ c (Proc.devRef .tc b) = W7 m ρ c (Proc.devRef .tc b) := by
  rcases (by decide : ∀ b ∈ stable, (∀ w, Pipeline.arrRef spec3 w ≠ b) ∨ ∃ w, Pipeline.arrRef spec3 w = b ∧ (cfg3.win w).isOut = false) b hb with h | ⟨w, rfl, hw⟩
  · exact W8_of_ne m ρ c b h
  · exact ((W8_arr m ρ c w).trans ((dat3 (V7 m ρ) c).arrAt_in w hw cfg3.N)).trans (A_eq3 (V7 m ρ) c w)
/-- At boundary 8 a stable buffer holds what it held after the first stretch. -/
theorem to1_8 (c : Dev nD) (b : Ref sig .tc) (hb : b ∈ stable) : W8 m ρ c (Proc.devRef .tc b) = W1 m ρ c (Proc.devRef .tc b) :=
  (up8 m ρ c b hb).trans (to1_7 m ρ c b hb)

theorem up9 (c : Dev nD) (b : Ref sig .tc) (hb : b ∈ stable) : W9 m ρ c (Proc.devRef .tc b) = W8 m ρ c (Proc.devRef .tc b) :=
  keep_host4 (W8 m ρ c) b ((by decide : ∀ b ∈ stable, b ∉ host4_W) b hb)
/-- At boundary 9 a stable buffer holds what it held after the first stretch. -/
theorem to1_9 (c : Dev nD) (b : Ref sig .tc) (hb : b ∈ stable) : W9 m ρ c (Proc.devRef .tc b) = W1 m ρ c (Proc.devRef .tc b) :=
  (up9 m ρ c b hb).trans (to1_8 m ρ c b hb)

theorem up10 (c : Dev nD) (b : Ref sig .tc) (hb : b ∈ stable) : W10 m ρ c (Proc.devRef .tc b) = W9 m ρ c (Proc.devRef .tc b) := by
  rcases (by decide : ∀ b ∈ stable, (∀ w, Pipeline.arrRef spec4 w ≠ b) ∨ ∃ w, Pipeline.arrRef spec4 w = b ∧ (cfg4.win w).isOut = false) b hb with h | ⟨w, rfl, hw⟩
  · exact W10_of_ne m ρ c b h
  · exact ((W10_arr m ρ c w).trans ((dat4 (V9 m ρ) c).arrAt_in w hw cfg4.N)).trans (A_eq4 (V9 m ρ) c w)
/-- At boundary 10 a stable buffer holds what it held after the first stretch. -/
theorem to1_10 (c : Dev nD) (b : Ref sig .tc) (hb : b ∈ stable) : W10 m ρ c (Proc.devRef .tc b) = W1 m ρ c (Proc.devRef .tc b) :=
  (up10 m ρ c b hb).trans (to1_9 m ρ c b hb)

theorem up11 (c : Dev nD) (b : Ref sig .tc) (hb : b ∈ stable) : W11 m ρ c (Proc.devRef .tc b) = W10 m ρ c (Proc.devRef .tc b) :=
  keep_host5 (W10 m ρ c) b ((by decide : ∀ b ∈ stable, b ∉ host5_W) b hb)
/-- At boundary 11 a stable buffer holds what it held after the first stretch. -/
theorem to1_11 (c : Dev nD) (b : Ref sig .tc) (hb : b ∈ stable) : W11 m ρ c (Proc.devRef .tc b) = W1 m ρ c (Proc.devRef .tc b) :=
  (up11 m ρ c b hb).trans (to1_10 m ρ c b hb)

theorem up12 (c : Dev nD) (b : Ref sig .tc) (hb : b ∈ stable) : W12 m ρ c (Proc.devRef .tc b) = W11 m ρ c (Proc.devRef .tc b) := by
  rcases (by decide : ∀ b ∈ stable, (∀ w, Pipeline.arrRef spec5 w ≠ b) ∨ ∃ w, Pipeline.arrRef spec5 w = b ∧ (cfg5.win w).isOut = false) b hb with h | ⟨w, rfl, hw⟩
  · exact W12_of_ne m ρ c b h
  · exact ((W12_arr m ρ c w).trans ((dat5 (V11 m ρ) c).arrAt_in w hw cfg5.N)).trans (A_eq5 (V11 m ρ) c w)
/-- At boundary 12 a stable buffer holds what it held after the first stretch. -/
theorem to1_12 (c : Dev nD) (b : Ref sig .tc) (hb : b ∈ stable) : W12 m ρ c (Proc.devRef .tc b) = W1 m ρ c (Proc.devRef .tc b) :=
  (up12 m ρ c b hb).trans (to1_11 m ρ c b hb)

theorem up13 (c : Dev nD) (b : Ref sig .tc) (hb : b ∈ stable) : W13 m ρ c (Proc.devRef .tc b) = W12 m ρ c (Proc.devRef .tc b) :=
  keep_host6 (W12 m ρ c) b ((by decide : ∀ b ∈ stable, b ∉ host6_W) b hb)
/-- At boundary 13 a stable buffer holds what it held after the first stretch. -/
theorem to1_13 (c : Dev nD) (b : Ref sig .tc) (hb : b ∈ stable) : W13 m ρ c (Proc.devRef .tc b) = W1 m ρ c (Proc.devRef .tc b) :=
  (up13 m ρ c b hb).trans (to1_12 m ρ c b hb)

theorem up14 (c : Dev nD) (b : Ref sig .tc) (hb : b ∈ stable) : W14 m ρ c (Proc.devRef .tc b) = W13 m ρ c (Proc.devRef .tc b) := by
  rcases (by decide : ∀ b ∈ stable, (∀ w, Pipeline.arrRef spec6 w ≠ b) ∨ ∃ w, Pipeline.arrRef spec6 w = b ∧ (cfg6.win w).isOut = false) b hb with h | ⟨w, rfl, hw⟩
  · exact W14_of_ne m ρ c b h
  · exact ((W14_arr m ρ c w).trans ((dat6 (V13 m ρ) c).arrAt_in w hw cfg6.N)).trans (A_eq6 (V13 m ρ) c w)
/-- At boundary 14 a stable buffer holds what it held after the first stretch. -/
theorem to1_14 (c : Dev nD) (b : Ref sig .tc) (hb : b ∈ stable) : W14 m ρ c (Proc.devRef .tc b) = W1 m ρ c (Proc.devRef .tc b) :=
  (up14 m ρ c b hb).trans (to1_13 m ρ c b hb)

theorem up15 (c : Dev nD) (b : Ref sig .tc) (hb : b ∈ stable) : W15 m ρ c (Proc.devRef .tc b) = W14 m ρ c (Proc.devRef .tc b) :=
  keep_host7 (W14 m ρ c) b ((by decide : ∀ b ∈ stable, b ∉ host7_W) b hb)
/-- At boundary 15 a stable buffer holds what it held after the first stretch. -/
theorem to1_15 (c : Dev nD) (b : Ref sig .tc) (hb : b ∈ stable) : W15 m ρ c (Proc.devRef .tc b) = W1 m ρ c (Proc.devRef .tc b) :=
  (up15 m ρ c b hb).trans (to1_14 m ρ c b hb)

theorem up16 (c : Dev nD) (b : Ref sig .tc) (hb : b ∈ stable) : W16 m ρ c (Proc.devRef .tc b) = W15 m ρ c (Proc.devRef .tc b) := by
  rcases (by decide : ∀ b ∈ stable, (∀ w, Pipeline.arrRef spec7 w ≠ b) ∨ ∃ w, Pipeline.arrRef spec7 w = b ∧ (cfg7.win w).isOut = false) b hb with h | ⟨w, rfl, hw⟩
  · exact W16_of_ne m ρ c b h
  · exact ((W16_arr m ρ c w).trans ((dat7 (V15 m ρ) c).arrAt_in w hw cfg7.N)).trans (A_eq7 (V15 m ρ) c w)
/-- At boundary 16 a stable buffer holds what it held after the first stretch. -/
theorem to1_16 (c : Dev nD) (b : Ref sig .tc) (hb : b ∈ stable) : W16 m ρ c (Proc.devRef .tc b) = W1 m ρ c (Proc.devRef .tc b) :=
  (up16 m ρ c b hb).trans (to1_15 m ρ c b hb)

theorem up17 (c : Dev nD) (b : Ref sig .tc) (hb : b ∈ stable) : W17 m ρ c (Proc.devRef .tc b) = W16 m ρ c (Proc.devRef .tc b) :=
  keep_host8 (W16 m ρ c) b ((by decide : ∀ b ∈ stable, b ∉ host8_W) b hb)
/-- At boundary 17 a stable buffer holds what it held after the first stretch. -/
theorem to1_17 (c : Dev nD) (b : Ref sig .tc) (hb : b ∈ stable) : W17 m ρ c (Proc.devRef .tc b) = W1 m ρ c (Proc.devRef .tc b) :=
  (up17 m ρ c b hb).trans (to1_16 m ρ c b hb)

theorem up18 (c : Dev nD) (b : Ref sig .tc) (hb : b ∈ stable) : W18 m ρ c (Proc.devRef .tc b) = W17 m ρ c (Proc.devRef .tc b) := by
  rcases (by decide : ∀ b ∈ stable, (∀ w, Pipeline.arrRef spec8 w ≠ b) ∨ ∃ w, Pipeline.arrRef spec8 w = b ∧ (cfg8.win w).isOut = false) b hb with h | ⟨w, rfl, hw⟩
  · exact W18_of_ne m ρ c b h
  · exact ((W18_arr m ρ c w).trans ((dat8 (V17 m ρ) c).arrAt_in w hw cfg8.N)).trans (A_eq8 (V17 m ρ) c w)
/-- At boundary 18 a stable buffer holds what it held after the first stretch. -/
theorem to1_18 (c : Dev nD) (b : Ref sig .tc) (hb : b ∈ stable) : W18 m ρ c (Proc.devRef .tc b) = W1 m ρ c (Proc.devRef .tc b) :=
  (up18 m ρ c b hb).trans (to1_17 m ρ c b hb)

theorem up19 (c : Dev nD) (b : Ref sig .tc) (hb : b ∈ stable) : W19 m ρ c (Proc.devRef .tc b) = W18 m ρ c (Proc.devRef .tc b) :=
  keep_host9 (W18 m ρ c) b ((by decide : ∀ b ∈ stable, b ∉ host9_W) b hb)
/-- At boundary 19 a stable buffer holds what it held after the first stretch. -/
theorem to1_19 (c : Dev nD) (b : Ref sig .tc) (hb : b ∈ stable) : W19 m ρ c (Proc.devRef .tc b) = W1 m ρ c (Proc.devRef .tc b) :=
  (up19 m ρ c b hb).trans (to1_18 m ρ c b hb)

end Cert.KernelIdeal.Carry

end
-- ==== Proof.GateCell.lean ====
/-
  One layer of the network, entry by entry, on the extended reals.

  A node's message is its state row times the layer's weight matrix.  The update of entry `(p, j)` of the state takes
  two rows of 768 pre-activations, `a = agg_p · Wi + bi` and `b = h_p · Wh + bh`, reads each in three blocks of 256
  columns (reset, update, candidate), and returns
      (1 - z) · tanh (a₂ + r · b₂) + z · h (p, j),   r = σ (a₀ + b₀),   z = σ (a₁ + b₁),
  with σ x = 1 / (1 + e^(-x)) as the extended reals define it.  Everything is stated for any number of rows, so that a
  block of rows and the whole array are read by the same function.
-/
import Idealize.ShloMosaic.PureOps.Ideal
import Idealize.ShloMosaic.Lib.ValueIdx

noncomputable section

namespace Cert.GateCell

open Idealize.ShloMosaic Idealize.ShloMosaic.ValueIdx

/-- Entry `(p, j)` of the product of a matrix with 256 columns and a matrix with 256 rows. -/
def prodAt {a n : ℕ} (x : (⟨2, ![a, 256]⟩ : Shape).Idx → EReal) (w : (⟨2, ![256, n]⟩ : Shape).Idx → EReal)
    (p : Fin a) (j : Fin n) : EReal :=
  ∑ q : Fin 256, x (ix2 p q) * w (ix2 q j)

/-- A pre-activation: row `p` of `x` times column `c` of `w`, plus the bias entry `c`. -/
def pre {a : ℕ} (x : (⟨2, ![a, 256]⟩ : Shape).Idx → EReal) (w : (⟨2, ![256, 768]⟩ : Shape).Idx → EReal)
    (b : Fin 768 → EReal) (p : Fin a) (c : Fin 768) : EReal :=
  prodAt x w p c + b c

/-- Column `j` of the reset block, of the update block and of the candidate block of a row of 768. -/
def col0 (j : Fin 256) : Fin 768 := ⟨j.val, by omega⟩
def col1 (j : Fin 256) : Fin 768 := ⟨256 + j.val, by omega⟩
def col2 (j : Fin 256) : Fin 768 := ⟨512 + j.val, by omega⟩

/-- The gated update of one entry from its six pre-activations and its previous value. -/
def cell (a0 a1 a2 b0 b1 b2 hp : EReal) : EReal :=
  (1 - Ideal.logistic (a1 + b1)) * Ideal.tanh (a2 + Ideal.logistic (a0 + b0) * b2) + Ideal.logistic (a1 + b1) * hp

/-- Entry `(p, j)` of the updated state. -/
def gruAt {a : ℕ} (agg h : (⟨2, ![a, 256]⟩ : Shape).Idx → EReal) (wi wh : (⟨2, ![256, 768]⟩ : Shape).Idx → EReal)
    (bi bh : Fin 768 → EReal) (p : Fin a) (j : Fin 256) : EReal :=
  cell (pre agg wi bi p (col0 j)) (pre agg wi bi p (col1 j)) (pre agg wi bi p (col2 j))
    (pre h wh bh p (col0 j)) (pre h wh bh p (col1 j)) (pre h wh bh p (col2 j)) (h (ix2 p j))

/-- The product at an entry depends on the left operand only through the entry's row. -/
theorem prodAt_congr {a a' n : ℕ} {x : (⟨2, ![a, 256]⟩ : Shape).Idx → EReal} {x' : (⟨2, ![a', 256]⟩ : Shape).Idx → EReal}
    (w : (⟨2, ![256, n]⟩ : Shape).Idx → EReal) {p : Fin a} {p' : Fin a'} (hx : ∀ q, x (ix2 p q) = x' (ix2 p' q)) (j : Fin n) :
    prodAt x w p j = prodAt x' w p' j := by
  unfold prodAt
  exact Finset.sum_congr rfl fun q _ => by rw [hx q]

/-- The update at an entry depends on the aggregate and on the state only through the entry's row. -/
theorem gruAt_congr {a a' : ℕ} {agg h : (⟨2, ![a, 256]⟩ : Shape).Idx → EReal} {agg' h' : (⟨2, ![a', 256]⟩ : Shape).Idx → EReal}
    (wi wh : (⟨2, ![256, 768]⟩ : Shape).Idx → EReal) (bi bh : Fin 768 → EReal) {p : Fin a} {p' : Fin a'}
    (hagg : ∀ q, agg (ix2 p q) = agg' (ix2 p' q)) (hh : ∀ q, h (ix2 p q) = h' (ix2 p' q)) (j : Fin 256) :
    gruAt agg h wi wh bi bh p j = gruAt agg' h' wi wh bi bh p' j := by
  unfold gruAt pre
  rw [prodAt_congr wi hagg, prodAt_congr wi hagg, prodAt_congr wi hagg, prodAt_congr wh hh, prodAt_congr wh hh,
    prodAt_congr wh hh, hh j]

end Cert.GateCell

end
-- ==== Proof.LibColumnSlice.lean ====
/-
  A block of whole columns cut out of a matrix, read at an index written by coordinates: the slice of `[a, n]` that
  keeps every row and the `b` columns from `o` on reads, at `(p, j)`, the matrix's entry `(p, o + j)`.
  General lemma: any element type, any extents.
-/
import Idealize.ShloMosaic.Lib.Pipeline.Value
import Idealize.ShloMosaic.Lib.ValueIdx

namespace Cert.LibColumnSlice

open Idealize.ShloMosaic Idealize.ShloMosaic.ValueIdx

/-- A slice with offset `(0, o)` reads, at `(p, j)`, the operand's entry `(p, c)` for the column `c = o + j`. -/
theorem slice_cols_apply {α : Type} {a n b : ℕ} (o : ℕ) (x : (⟨2, ![a, n]⟩ : Shape).Idx → α)
    (h : (⟨2, ![a, n]⟩ : Shape).Slices ![0, o] ⟨2, ![a, b]⟩) (p : Fin a) (j : Fin b) (c : Fin n) (hc : c.val = o + j.val) :
    extractStridedSlice ⟨2, ![a, b]⟩ ![0, o] x h (ix2 p j) = x (ix2 p c) := by
  refine extractStridedSlice_apply _ x h (ix2 p j) (ix2 p c) fun ax => ?_
  match ax with
  | ⟨0, _⟩ => exact (Nat.zero_add _).symm
  | ⟨1, _⟩ => exact hc

end Cert.LibColumnSlice
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.GateRead.lean ====
/-
  The gate arithmetic read at an entry, in the two spellings the programs use.

  Both programs compute the update from two rows of 768 pre-activations `gi`, `gh` and the previous state: three
  column slices of each, two logistic gates, a hyperbolic tangent, and `(1 - z) · n + z · h`.  The kernel writes the
  logistic function as one operation and the constant one as a splat scalar; the host writes `1 / (1 + exp (-x))` out
  and broadcasts a scalar constant.  On the extended reals the logistic function IS that expression, and the pattern
  `0x3F800000` is one, so both spellings read, at `(p, j)`, as `GateCell.cell` of the six pre-activations in columns
  `j`, `256 + j`, `512 + j` and the previous state's entry.  Stated for any number of rows.
-/
import proofs.«109821_j77129022701746_1_alg».proof.Proof.GateCell
import proofs.«109821_j77129022701746_1_alg».proof.Proof.LibColumnSlice
import proofs.«109821_j77129022701746_1_alg».proof.Proof.LibMatrixLayout
import Idealize.ShloMosaic.Lib.IdealHost
import Idealize.ShloMosaic.Lib.Pipeline.Value

noncomputable section

namespace Cert.GateRead

open Idealize.ShloMosaic Idealize.ShloMosaic.ValueIdx Cert.GateCell

variable {a : ℕ}

/-- The three column blocks of a row of 768, read at `(p, j)`. -/
theorem slice0_apply (x : (⟨2, ![a, 768]⟩ : Shape).Idx → EReal) (h : (⟨2, ![a, 768]⟩ : Shape).Slices ![0, 0] ⟨2, ![a, 256]⟩)
    (p : Fin a) (j : Fin 256) : extractStridedSlice ⟨2, ![a, 256]⟩ ![0, 0] x h (ix2 p j) = x (ix2 p (col0 j)) :=
  Cert.LibColumnSlice.slice_cols_apply 0 x h p j (col0 j) (Nat.zero_add _).symm
theorem slice1_apply (x : (⟨2, ![a, 768]⟩ : Shape).Idx → EReal) (h : (⟨2, ![a, 768]⟩ : Shape).Slices ![0, 256] ⟨2, ![a, 256]⟩)
    (p : Fin a) (j : Fin 256) : extractStridedSlice ⟨2, ![a, 256]⟩ ![0, 256] x h (ix2 p j) = x (ix2 p (col1 j)) :=
  Cert.LibColumnSlice.slice_cols_apply 256 x h p j (col1 j) rfl
theorem slice2_apply (x : (⟨2, ![a, 768]⟩ : Shape).Idx → EReal) (h : (⟨2, ![a, 768]⟩ : Shape).Slices ![0, 512] ⟨2, ![a, 256]⟩)
    (p : Fin a) (j : Fin 256) : extractStridedSlice ⟨2, ![a, 256]⟩ ![0, 512] x h (ix2 p j) = x (ix2 p (col2 j)) :=
  Cert.LibColumnSlice.slice_cols_apply 512 x h p j (col2 j) rfl

/-- The kernel's spelling of the update, at `(p, j)`. -/
theorem gate_kernel (gi gh : FVec Ideal ⟨2, ![a, 768]⟩ .f32) (hp : FVec Ideal ⟨2, ![a, 256]⟩ .f32)
    (s0 : (⟨2, ![a, 768]⟩ : Shape).Slices ![0, 0] ⟨2, ![a, 256]⟩) (s1 : (⟨2, ![a, 768]⟩ : Shape).Slices ![0, 256] ⟨2, ![a, 256]⟩)
    (s2 : (⟨2, ![a, 768]⟩ : Shape).Slices ![0, 512] ⟨2, ![a, 256]⟩) (p : Fin a) (j : Fin 256) :
    addf (mulf (subf (broadcast ⟨2, ![a, 256]⟩ (Scalar.ofBits (F := Ideal) .f32 0x3F800000#32))
        (logistic (addf (extractStridedSlice ⟨2, ![a, 256]⟩ ![0, 256] gi s1) (extractStridedSlice ⟨2, ![a, 256]⟩ ![0, 256] gh s1))))
      (tanh (addf (extractStridedSlice ⟨2, ![a, 256]⟩ ![0, 512] gi s2)
        (mulf (logistic (addf (extractStridedSlice ⟨2, ![a, 256]⟩ ![0, 0] gi s0) (extractStridedSlice ⟨2, ![a, 256]⟩ ![0, 0] gh s0)))
          (extractStridedSlice ⟨2, ![a, 256]⟩ ![0, 512] gh s2)))))
      (mulf (logistic (addf (extractStridedSlice ⟨2, ![a, 256]⟩ ![0, 256] gi s1) (extractStridedSlice ⟨2, ![a, 256]⟩ ![0, 256] gh s1))) hp)
      (ix2 p j)
    = cell (gi (ix2 p (col0 j))) (gi (ix2 p (col1 j))) (gi (ix2 p (col2 j)))
        (gh (ix2 p (col0 j))) (gh (ix2 p (col1 j))) (gh (ix2 p (col2 j))) (hp (ix2 p j)) := by
  have e0i := slice0_apply gi s0 p j
  have e1i := slice1_apply gi s1 p j
  have e2i := slice2_apply gi s2 p j
  have e0h := slice0_apply gh s0 p j
  have e1h := slice1_apply gh s1 p j
  have e2h := slice2_apply gh s2 p j
  show (Ideal.ofBits .f32 0x3F800000#32 - Ideal.logistic (extractStridedSlice ⟨2, ![a, 256]⟩ ![0, 256] gi s1 (ix2 p j) + extractStridedSlice ⟨2, ![a, 256]⟩ ![0, 256] gh s1 (ix2 p j)))
      * Ideal.tanh (extractStridedSlice ⟨2, ![a, 256]⟩ ![0, 512] gi s2 (ix2 p j)
        + Ideal.logistic (extractStridedSlice ⟨2, ![a, 256]⟩ ![0, 0] gi s0 (ix2 p j) + extractStridedSlice ⟨2, ![a, 256]⟩ ![0, 0] gh s0 (ix2 p j))
          * extractStridedSlice ⟨2, ![a, 256]⟩ ![0, 512] gh s2 (ix2 p j))
      + Ideal.logistic (extractStridedSlice ⟨2, ![a, 256]⟩ ![0, 256] gi s1 (ix2 p j) + extractStridedSlice ⟨2, ![a, 256]⟩ ![0, 256] gh s1 (ix2 p j)) * hp (ix2 p j) = _
  rw [e0i, e1i, e2i, e0h, e1h, e2h, Ideal.ofBits_one_f32]
  rfl

/-- The host's spelling of the update, at `(p, j)`. -/
theorem gate_host (gi gh : FVec Ideal ⟨2, ![a, 768]⟩ .f32) (hp : FVec Ideal ⟨2, ![a, 256]⟩ .f32)
    (s0 : (⟨2, ![a, 768]⟩ : Shape).Slices ![0, 0] ⟨2, ![a, 256]⟩) (s1 : (⟨2, ![a, 768]⟩ : Shape).Slices ![0, 256] ⟨2, ![a, 256]⟩)
    (s2 : (⟨2, ![a, 768]⟩ : Shape).Slices ![0, 512] ⟨2, ![a, 256]⟩)
    (hb : (⟨0, ![]⟩ : Shape).BroadcastsInDim ⟨2, ![a, 256]⟩ ![]) (p : Fin a) (j : Fin 256) :
    addf (mulf (subf (broadcastInDim ⟨2, ![a, 256]⟩ ![] hb (constant (F := Ideal) ⟨0, ![]⟩ .f32 0x3F800000#32))
        (Host.divf (broadcastInDim ⟨2, ![a, 256]⟩ ![] hb (constant (F := Ideal) ⟨0, ![]⟩ .f32 0x3F800000#32))
          (addf (broadcastInDim ⟨2, ![a, 256]⟩ ![] hb (constant (F := Ideal) ⟨0, ![]⟩ .f32 0x3F800000#32))
            (Host.exp (Host.negf (addf (extractStridedSlice ⟨2, ![a, 256]⟩ ![0, 256] gi s1) (extractStridedSlice ⟨2, ![a, 256]⟩ ![0, 256] gh s1)))))))
      (Host.tanh (addf (extractStridedSlice ⟨2, ![a, 256]⟩ ![0, 512] gi s2)
        (mulf (Host.divf (broadcastInDim ⟨2, ![a, 256]⟩ ![] hb (constant (F := Ideal) ⟨0, ![]⟩ .f32 0x3F800000#32))
            (addf (broadcastInDim ⟨2, ![a, 256]⟩ ![] hb (constant (F := Ideal) ⟨0, ![]⟩ .f32 0x3F800000#32))
              (Host.exp (Host.negf (addf (extractStridedSlice ⟨2, ![a, 256]⟩ ![0, 0] gi s0) (extractStridedSlice ⟨2, ![a, 256]⟩ ![0, 0] gh s0))))))
          (extractStridedSlice ⟨2, ![a, 256]⟩ ![0, 512] gh s2)))))
      (mulf (Host.divf (broadcastInDim ⟨2, ![a, 256]⟩ ![] hb (constant (F := Ideal) ⟨0, ![]⟩ .f32 0x3F800000#32))
          (addf (broadcastInDim ⟨2, ![a, 256]⟩ ![] hb (constant (F := Ideal) ⟨0, ![]⟩ .f32 0x3F800000#32))
            (Host.exp (Host.negf (addf (extractStridedSlice ⟨2, ![a, 256]⟩ ![0, 256] gi s1) (extractStridedSlice ⟨2, ![a, 256]⟩ ![0, 256] gh s1))))))
        hp)
      (ix2 p j)
    = cell (gi (ix2 p (col0 j))) (gi (ix2 p (col1 j))) (gi (ix2 p (col2 j)))
        (gh (ix2 p (col0 j))) (gh (ix2 p (col1 j))) (gh (ix2 p (col2 j))) (hp (ix2 p j)) := by
  have e0i := slice0_apply gi s0 p j
  have e1i := slice1_apply gi s1 p j
  have e2i := slice2_apply gi s2 p j
  have e0h := slice0_apply gh s0 p j
  have e1h := slice1_apply gh s1 p j
  have e2h := slice2_apply gh s2 p j
  have one : broadcastInDim ⟨2, ![a, 256]⟩ ![] hb (constant (F := Ideal) ⟨0, ![]⟩ .f32 0x3F800000#32) (ix2 p j) = 1 :=
    (Cert.LibMatrixLayout.bcast_scalar_apply _ hb (ix2 p j)).trans Ideal.ofBits_one_f32
  show (broadcastInDim ⟨2, ![a, 256]⟩ ![] hb (constant (F := Ideal) ⟨0, ![]⟩ .f32 0x3F800000#32) (ix2 p j)
        - Ideal.div (broadcastInDim ⟨2, ![a, 256]⟩ ![] hb (constant (F := Ideal) ⟨0, ![]⟩ .f32 0x3F800000#32) (ix2 p j))
            (broadcastInDim ⟨2, ![a, 256]⟩ ![] hb (constant (F := Ideal) ⟨0, ![]⟩ .f32 0x3F800000#32) (ix2 p j)
              + Ideal.exp (-(extractStridedSlice ⟨2, ![a, 256]⟩ ![0, 256] gi s1 (ix2 p j) + extractStridedSlice ⟨2, ![a, 256]⟩ ![0, 256] gh s1 (ix2 p j)))))
      * Ideal.tanh (extractStridedSlice ⟨2, ![a, 256]⟩ ![0, 512] gi s2 (ix2 p j)
        + Ideal.div (broadcastInDim ⟨2, ![a, 256]⟩ ![] hb (constant (F := Ideal) ⟨0, ![]⟩ .f32 0x3F800000#32) (ix2 p j))
            (broadcastInDim ⟨2, ![a, 256]⟩ ![] hb (constant (F := Ideal) ⟨0, ![]⟩ .f32 0x3F800000#32) (ix2 p j)
              + Ideal.exp (-(extractStridedSlice ⟨2, ![a, 256]⟩ ![0, 0] gi s0 (ix2 p j) + extractStridedSlice ⟨2, ![a, 256]⟩ ![0, 0] gh s0 (ix2 p j))))
          * extractStridedSlice ⟨2, ![a, 256]⟩ ![0, 512] gh s2 (ix2 p j))
      + Ideal.div (broadcastInDim ⟨2, ![a, 256]⟩ ![] hb (constant (F := Ideal) ⟨0, ![]⟩ .f32 0x3F800000#32) (ix2 p j))
            (broadcastInDim ⟨2, ![a, 256]⟩ ![] hb (constant (F := Ideal) ⟨0, ![]⟩ .f32 0x3F800000#32) (ix2 p j)
              + Ideal.exp (-(extractStridedSlice ⟨2, ![a, 256]⟩ ![0, 256] gi s1 (ix2 p j) + extractStridedSlice ⟨2, ![a, 256]⟩ ![0, 256] gh s1 (ix2 p j))))
          * hp (ix2 p j) = _
  rw [one, e0i, e1i, e2i, e0h, e1h, e2h]
  rfl

end Cert.GateRead

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.Payload.lean ====
/-
  Each kernel call's one stored value, read at an entry.

  The five message calls store the product of a 2000-row block of the state with the layer's weight matrix; the five
  update calls store the gated update of a 2000-row block.  The narrowing of the operands before a product is the
  identity on the extended reals, a reshape to the same shape is the identity, and the product into a zero accumulator
  is the plain sum over the contracted axis; the bias row is broadcast down the block's rows.
-/
import proofs.«109821_j77129022701746_1_alg».proof.Proof.Gen.KernelIdeal.Skeleton
import proofs.«109821_j77129022701746_1_alg».proof.Proof.GateRead
import proofs.«109821_j77129022701746_1_alg».proof.Proof.LibPlainDot
import proofs.«109821_j77129022701746_1_alg».proof.Proof.LibRowBroadcast

set_option maxRecDepth 16384

noncomputable section

namespace Cert.KernelIdeal.Payload

open Cert.KernelIdeal Cert.KernelIdeal.Gen Idealize.ShloMosaic Idealize.ShloMosaic.ValueIdx Cert.GateCell

/-- Both printed products contract the left operand's columns with the right operand's rows. -/
theorem dotMsg_plain : dot_S2000x256_S256x256_S2000x256_1_0_0_1_n_n = DotDims.plain 2000 256 256 := rfl
theorem dotGate_plain : dot_S2000x256_S256x768_S2000x768_1_0_0_1_n_n = DotDims.plain 2000 256 768 := rfl

/-- A row of pre-activations of a block: the product with a [256, 768] matrix plus the bias row, at `(p, c)`. -/
theorem pre_ix2 (x : Vec Ideal S2000x256 .f32) (w : Vec Ideal S256x768 .f32) (b : Vec Ideal S1x768 .f32) (p : Fin 2000) (c : Fin 768) :
    addf (matmul dot_S2000x256_S256x768_S2000x768_1_0_0_1_n_n none (truncf .bf16 x bitsLt_bf16_f32) (truncf .bf16 w bitsLt_bf16_f32)
        (constant (F := Ideal) S2000x768 .f32 0x00000000#32)) (broadcastTo S2000x768 b broadcasts_S1x768_S2000x768) (ix2 p c)
      = pre x w (fun c => b (ix2 (0 : Fin 1) c)) p c := by
  rw [addf_apply, Cert.PlainDot.matmul_zero_ix2 _ dotGate_plain none _ _ p c, Cert.LibRowBroadcast.broadcastTo_1b_ab_apply]
  rfl

/-- The message kernel's payload (call 0) at `(p, j)`: row `p` of the state block times column `j` of the weight. -/
theorem msg0_ix2 (x0 : Vec Ideal S2000x256 .f32) (x1 : Vec Ideal S256x256 .f32) (p : Fin 2000) (j : Fin 256) :
    k0_pay1 (F := Ideal) x0 x1 (ix2 p j) = prodAt x0 x1 p j := by
  unfold k0_pay1
  simp only [shapeCast_self]
  exact Cert.PlainDot.matmul_zero_ix2 _ dotMsg_plain none _ _ p j

/-- The message kernel's payload (call 2) at `(p, j)`: row `p` of the state block times column `j` of the weight. -/
theorem msg2_ix2 (x0 : Vec Ideal S2000x256 .f32) (x1 : Vec Ideal S256x256 .f32) (p : Fin 2000) (j : Fin 256) :
    k2_pay1 (F := Ideal) x0 x1 (ix2 p j) = prodAt x0 x1 p j := by
  unfold k2_pay1
  simp only [shapeCast_self]
  exact Cert.PlainDot.matmul_zero_ix2 _ dotMsg_plain none _ _ p j

/-- The message kernel's payload (call 4) at `(p, j)`: row `p` of the state block times column `j` of the weight. -/
theorem msg4_ix2 (x0 : Vec Ideal S2000x256 .f32) (x1 : Vec Ideal S256x256 .f32) (p : Fin 2000) (j : Fin 256) :
    k4_pay1 (F := Ideal) x0 x1 (ix2 p j) = prodAt x0 x1 p j := by
  unfold k4_pay1
  simp only [shapeCast_self]
  exact Cert.PlainDot.matmul_zero_ix2 _ dotMsg_plain none _ _ p j

/-- The message kernel's payload (call 6) at `(p, j)`: row `p` of the state block times column `j` of the weight. -/
theorem msg6_ix2 (x0 : Vec Ideal S2000x256 .f32) (x1 : Vec Ideal S256x256 .f32) (p : Fin 2000) (j : Fin 256) :
    k6_pay1 (F := Ideal) x0 x1 (ix2 p j) = prodAt x0 x1 p j := by
  unfold k6_pay1
  simp only [shapeCast_self]
  exact Cert.PlainDot.matmul_zero_ix2 _ dotMsg_plain none _ _ p j

/-- The message kernel's payload (call 8) at `(p, j)`: row `p` of the state block times column `j` of the weight. -/
theorem msg8_ix2 (x0 : Vec Ideal S2000x256 .f32) (x1 : Vec Ideal S256x256 .f32) (p : Fin 2000) (j : Fin 256) :
    k8_pay1 (F := Ideal) x0 x1 (ix2 p j) = prodAt x0 x1 p j := by
  unfold k8_pay1
  simp only [shapeCast_self]
  exact Cert.PlainDot.matmul_zero_ix2 _ dotMsg_plain none _ _ p j

/-- The update kernel's payload (call 1) at `(p, j)`: the gated update of entry `(p, j)` of its blocks. -/
theorem gru1_ix2 (x0 x1 : Vec Ideal S2000x256 .f32) (x2 x3 : Vec Ideal S256x768 .f32) (x4 x5 : Vec Ideal S1x768 .f32)
    (p : Fin 2000) (j : Fin 256) :
    k1_pay1 (F := Ideal) x0 x1 x2 x3 x4 x5 (ix2 p j)
      = gruAt x0 x1 x2 x3 (fun c => x4 (ix2 (0 : Fin 1) c)) (fun c => x5 (ix2 (0 : Fin 1) c)) p j := by
  unfold k1_pay1
  simp only [shapeCast_self]
  refine (Cert.GateRead.gate_kernel (a := 2000) _ _ _ _ _ _ p j).trans ?_
  rw [pre_ix2 x0 x2 x4 p (col0 j), pre_ix2 x0 x2 x4 p (col1 j), pre_ix2 x0 x2 x4 p (col2 j),
    pre_ix2 x1 x3 x5 p (col0 j), pre_ix2 x1 x3 x5 p (col1 j), pre_ix2 x1 x3 x5 p (col2 j)]
  rfl

/-- The update kernel's payload (call 3) at `(p, j)`: the gated update of entry `(p, j)` of its blocks. -/
theorem gru3_ix2 (x0 x1 : Vec Ideal S2000x256 .f32) (x2 x3 : Vec Ideal S256x768 .f32) (x4 x5 : Vec Ideal S1x768 .f32)
    (p : Fin 2000) (j : Fin 256) :
    k3_pay1 (F := Ideal) x0 x1 x2 x3 x4 x5 (ix2 p j)
      = gruAt x0 x1 x2 x3 (fun c => x4 (ix2 (0 : Fin 1) c)) (fun c => x5 (ix2 (0 : Fin 1) c)) p j := by
  unfold k3_pay1
  simp only [shapeCast_self]
  refine (Cert.GateRead.gate_kernel (a := 2000) _ _ _ _ _ _ p j).trans ?_
  rw [pre_ix2 x0 x2 x4 p (col0 j), pre_ix2 x0 x2 x4 p (col1 j), pre_ix2 x0 x2 x4 p (col2 j),
    pre_ix2 x1 x3 x5 p (col0 j), pre_ix2 x1 x3 x5 p (col1 j), pre_ix2 x1 x3 x5 p (col2 j)]
  rfl

/-- The update kernel's payload (call 5) at `(p, j)`: the gated update of entry `(p, j)` of its blocks. -/
theorem gru5_ix2 (x0 x1 : Vec Ideal S2000x256 .f32) (x2 x3 : Vec Ideal S256x768 .f32) (x4 x5 : Vec Ideal S1x768 .f32)
    (p : Fin 2000) (j : Fin 256) :
    k5_pay1 (F := Ideal) x0 x1 x2 x3 x4 x5 (ix2 p j)
      = gruAt x0 x1 x2 x3 (fun c => x4 (ix2 (0 : Fin 1) c)) (fun c => x5 (ix2 (0 : Fin 1) c)) p j := by
  unfold k5_pay1
  simp only [shapeCast_self]
  refine (Cert.GateRead.gate_kernel (a := 2000) _ _ _ _ _ _ p j).trans ?_
  rw [pre_ix2 x0 x2 x4 p (col0 j), pre_ix2 x0 x2 x4 p (col1 j), pre_ix2 x0 x2 x4 p (col2 j),
    pre_ix2 x1 x3 x5 p (col0 j), pre_ix2 x1 x3 x5 p (col1 j), pre_ix2 x1 x3 x5 p (col2 j)]
  rfl

/-- The update kernel's payload (call 7) at `(p, j)`: the gated update of entry `(p, j)` of its blocks. -/
theorem gru7_ix2 (x0 x1 : Vec Ideal S2000x256 .f32) (x2 x3 : Vec Ideal S256x768 .f32) (x4 x5 : Vec Ideal S1x768 .f32)
    (p : Fin 2000) (j : Fin 256) :
    k7_pay1 (F := Ideal) x0 x1 x2 x3 x4 x5 (ix2 p j)
      = gruAt x0 x1 x2 x3 (fun c => x4 (ix2 (0 : Fin 1) c)) (fun c => x5 (ix2 (0 : Fin 1) c)) p j := by
  unfold k7_pay1
  simp only [shapeCast_self]
  refine (Cert.GateRead.gate_kernel (a := 2000) _ _ _ _ _ _ p j).trans ?_
  rw [pre_ix2 x0 x2 x4 p (col0 j), pre_ix2 x0 x2 x4 p (col1 j), pre_ix2 x0 x2 x4 p (col2 j),
    pre_ix2 x1 x3 x5 p (col0 j), pre_ix2 x1 x3 x5 p (col1 j), pre_ix2 x1 x3 x5 p (col2 j)]
  rfl

/-- The update kernel's payload (call 9) at `(p, j)`: the gated update of entry `(p, j)` of its blocks. -/
theorem gru9_ix2 (x0 x1 : Vec Ideal S2000x256 .f32) (x2 x3 : Vec Ideal S256x768 .f32) (x4 x5 : Vec Ideal S1x768 .f32)
    (p : Fin 2000) (j : Fin 256) :
    k9_pay1 (F := Ideal) x0 x1 x2 x3 x4 x5 (ix2 p j)
      = gruAt x0 x1 x2 x3 (fun c => x4 (ix2 (0 : Fin 1) c)) (fun c => x5 (ix2 (0 : Fin 1) c)) p j := by
  unfold k9_pay1
  simp only [shapeCast_self]
  refine (Cert.GateRead.gate_kernel (a := 2000) _ _ _ _ _ _ p j).trans ?_
  rw [pre_ix2 x0 x2 x4 p (col0 j), pre_ix2 x0 x2 x4 p (col1 j), pre_ix2 x0 x2 x4 p (col2 j),
    pre_ix2 x1 x3 x5 p (col0 j), pre_ix2 x1 x3 x5 p (col1 j), pre_ix2 x1 x3 x5 p (col2 j)]
  rfl

end Cert.KernelIdeal.Payload

end
-- ==== Proof.Layer.lean ====
/-
  One layer of the network as a function of whole arrays, on the extended reals.

  The state is a [20000, 256] array.  A layer multiplies it by its [256, 256] weight (`msgG`), sends the messages along
  the edges and adds them up per target node (`route`, kept abstract here: both programs apply the very same host
  operations to the messages), and updates every entry by the gated rule of `GateCell` (`gruG`).  `layerG` is their
  composition and `net` the five layers in order.  Biases are functions of the column alone.
-/
import proofs.«109821_j77129022701746_1_alg».proof.Proof.GateCell

noncomputable section

namespace Cert.Layer

open Idealize.ShloMosaic Idealize.ShloMosaic.ValueIdx Cert.GateCell

/-- The state and the messages. -/
abbrev Nodes : Type := (⟨2, ![20000, 256]⟩ : Shape).Idx → EReal

/-- The messages: the state times the layer's weight matrix. -/
def msgG (h : Nodes) (w : (⟨2, ![256, 256]⟩ : Shape).Idx → EReal) : Nodes :=
  fun i => prodAt h w (i 0) (i 1)

/-- The gated update of every entry from the aggregated messages and the state. -/
def gruG (agg h : Nodes) (wi wh : (⟨2, ![256, 768]⟩ : Shape).Idx → EReal) (bi bh : Fin 768 → EReal) : Nodes :=
  fun i => gruAt agg h wi wh bi bh (i 0) (i 1)

/-- One layer: messages, routing along the edges, gated update. -/
def layerG (route : Nodes → Nodes) (w : (⟨2, ![256, 256]⟩ : Shape).Idx → EReal)
    (wi wh : (⟨2, ![256, 768]⟩ : Shape).Idx → EReal) (bi bh : Fin 768 → EReal) (h : Nodes) : Nodes :=
  gruG (route (msgG h w)) h wi wh bi bh

/-- The network: five layers, each with its own weight, sharing the routing, the gate matrices and the biases. -/
def net (route : Nodes → Nodes) (w0 w1 w2 w3 w4 : (⟨2, ![256, 256]⟩ : Shape).Idx → EReal)
    (wi wh : (⟨2, ![256, 768]⟩ : Shape).Idx → EReal) (bi bh : Fin 768 → EReal) (x : Nodes) : Nodes :=
  layerG route w4 wi wh bi bh (layerG route w3 wi wh bi bh (layerG route w2 wi wh bi bh
    (layerG route w1 wi wh bi bh (layerG route w0 wi wh bi bh x))))

end Cert.Layer

end
-- ==== Proof.Msg0.lean ====
/-
  Kernel call 0: the message product, from blocks to the whole array.

  The call walks the state in ten blocks of 2000 rows; at block `t` it multiplies rows `2000 t … 2000 t + 1999` by the
  whole weight matrix and writes the product back to the same rows of its result.  The ten row blocks tile the result,
  so after the call the result array is the state times the weight, entry by entry.  Stated at any contents `V` the
  call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Msg0

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the state and the result move one row block per point, the weight stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The payload at any index of the block. -/
theorem pay_at (x0 : Vec Ideal S2000x256 .f32) (x1 : Vec Ideal S256x256 .f32) (y : S2000x256.Idx) :
    k0_pay1 (F := Ideal) x0 x1 y = prodAt x0 x1 (y 0) (y 1) :=
  (congrArg (k0_pay1 (F := Ideal) x0 x1) (eq_ix2 y)).trans (Payload.msg0_ix2 x0 x1 (y 0) (y 1))

set_option maxHeartbeats 4000000 in
/-- What point `t` writes back is block `t` of the product of the arrays the call finds. -/
theorem flushed (c : Dev nD) (t : Fin cfg0.N) :
    (dat0 V c).flushed 2 t = ((cfg0.win 2).blk t).view.read (Elt Ideal) (msgG (V c main_arg0) (V c main_v9)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e00, e01, e10, e11, e20, e21⟩ := idx t
  funext y
  refine (pay_at _ _ y).trans ?_
  show prodAt (iblk0 V c 0 t) (iblk0 V c 1 t) (y 0) (y 1)
    = prodAt (V c main_arg0) (V c main_v9) ((((cfg0.win 2).blk t).view.emb y) 0) ((((cfg0.win 2).blk t).view.emb y) 1)
  unfold prodAt
  refine Finset.sum_congr rfl fun q _ => ?_
  congr 1
  · show V c main_arg0 (((cfg0.win 0).blk t).view.emb (ix2 (y 0) q)) = V c main_arg0 (ix2 ((((cfg0.win 2).blk t).view.emb y) 0) q)
    congr 1; funext a; apply Fin.ext
    match a with
    | ⟨0, _⟩ => show win0_0.index t (0 : Fin 2) * 2000 + 1 * (y 0).val = win0_2.index t (0 : Fin 2) * 2000 + 1 * (y 0).val; rw [e00, e20]
    | ⟨1, _⟩ => show win0_0.index t (1 : Fin 2) * 256 + 1 * q.val = q.val; rw [e01]; omega
  · show V c main_v9 (((cfg0.win 1).blk t).view.emb (ix2 q (y 1))) = V c main_v9 (ix2 q ((((cfg0.win 2).blk t).view.emb y) 1))
    congr 1; funext a; apply Fin.ext
    match a with
    | ⟨0, _⟩ => show win0_1.index t (0 : Fin 2) * 256 + 1 * q.val = q.val; rw [e10]; omega
    | ⟨1, _⟩ => show win0_1.index t (1 : Fin 2) * 256 + 1 * (y 1).val = win0_2.index t (1 : Fin 2) * 256 + 1 * (y 1).val; rw [e11, e21]

set_option maxHeartbeats 1600000 in
/-- An index of the result is in point `t`'s block iff each coordinate is in the block's range on its axis. -/
theorem mem_blk (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v10).slice (win0_2.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg0.N, (cfg0.win 2).flush t = true ∧ i ∈ ((cfg0.win 2).blk t).view.set := by
  have hi0 : (i 0).val < 20000 := (i 0).isLt
  have hi1 : (i 1).val < 256 := (i 1).isLt
  have hN : cfg0.N = 10 := N_0
  refine ⟨⟨(i 0).val / 2000, by rw [hN]; omega⟩, flush0_2 _, ?_⟩
  rw [mem_blk]
  obtain ⟨-, -, -, -, e20, e21⟩ := idx ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e21]; omega

set_option maxHeartbeats 1600000 in
/-- After the call its result array is the product of the state and the weight it was entered with. -/
theorem final (c : Dev nD) : (dat0 V c).arrAt 2 cfg0.N = msgG (V c main_arg0) (V c main_v9) :=
  (dat0 V c).arrAt_eq_of_cover 2 (msgG (V c main_arg0) (V c main_v9)) (fun t _ => flushed V c t) cover

set_option maxHeartbeats 1600000 in
/-- The state array is an input of the call: it ends as it was entered. -/
theorem kept (c : Dev nD) : (dat0 V c).arrAt 0 cfg0.N = V c main_arg0 :=
  ((dat0 V c).arrAt_in 0 rfl cfg0.N).trans (A_eq0 V c 0)

end Cert.KernelIdeal.Msg0

end
-- ==== Proof.Gru1.lean ====
/-
  Kernel call 1: the gated update, from blocks to the whole array.

  The call walks the aggregated messages and the state in ten blocks of 2000 rows, with the two [256, 768] matrices and
  the two bias rows whole at every point; at block `t` it updates rows `2000 t … 2000 t + 1999` and writes them back to
  the same rows of its result.  An entry's update reads the aggregate and the state only in the entry's own row, so the
  block's update is the whole array's update read through the block, and the ten row blocks tile the result.  Stated at
  any contents `V` the call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Gru1

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate, the state and the result move one row block per point, the
    matrices and the bias rows stay. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The payload at any index of the block. -/
theorem pay_at (x0 x1 : Vec Ideal S2000x256 .f32) (x2 x3 : Vec Ideal S256x768 .f32) (x4 x5 : Vec Ideal S1x768 .f32) (y : S2000x256.Idx) :
    k1_pay1 (F := Ideal) x0 x1 x2 x3 x4 x5 y
      = gruAt x0 x1 x2 x3 (fun cc => x4 (ix2 (0 : Fin 1) cc)) (fun cc => x5 (ix2 (0 : Fin 1) cc)) (y 0) (y 1) :=
  (congrArg (k1_pay1 (F := Ideal) x0 x1 x2 x3 x4 x5) (eq_ix2 y)).trans (Payload.gru1_ix2 x0 x1 x2 x3 x4 x5 (y 0) (y 1))

set_option maxHeartbeats 1600000 in
/-- Window 2's block is its whole array at every point. -/
theorem whole2 (c : Dev nD) (t : Fin cfg1.N) : (iblk1 V c 2 t : Vec Ideal S256x768 .f32) = V c main_v4 := by
  obtain ⟨-, -, -, -, e20, e21, e30, e31, e40, e41, e50, e51, -, -⟩ := idx t
  funext y
  show V c main_v4 (((cfg1.win 2).blk t).view.emb y) = V c main_v4 y
  congr 1; funext a; apply Fin.ext
  match a with
  | ⟨0, _⟩ => show win1_2.index t (0 : Fin 2) * 256 + 1 * (y 0).val = (y 0).val; rw [e20]; omega
  | ⟨1, _⟩ => show win1_2.index t (1 : Fin 2) * 768 + 1 * (y 1).val = (y 1).val; rw [e21]; omega

set_option maxHeartbeats 1600000 in
/-- Window 3's block is its whole array at every point. -/
theorem whole3 (c : Dev nD) (t : Fin cfg1.N) : (iblk1 V c 3 t : Vec Ideal S256x768 .f32) = V c main_v5 := by
  obtain ⟨-, -, -, -, e20, e21, e30, e31, e40, e41, e50, e51, -, -⟩ := idx t
  funext y
  show V c main_v5 (((cfg1.win 3).blk t).view.emb y) = V c main_v5 y
  congr 1; funext a; apply Fin.ext
  match a with
  | ⟨0, _⟩ => show win1_3.index t (0 : Fin 2) * 256 + 1 * (y 0).val = (y 0).val; rw [e30]; omega
  | ⟨1, _⟩ => show win1_3.index t (1 : Fin 2) * 768 + 1 * (y 1).val = (y 1).val; rw [e31]; omega

set_option maxHeartbeats 1600000 in
/-- Window 4's block is its whole array at every point. -/
theorem whole4 (c : Dev nD) (t : Fin cfg1.N) : (iblk1 V c 4 t : Vec Ideal S1x768 .f32) = V c main_v6 := by
  obtain ⟨-, -, -, -, e20, e21, e30, e31, e40, e41, e50, e51, -, -⟩ := idx t
  funext y
  show V c main_v6 (((cfg1.win 4).blk t).view.emb y) = V c main_v6 y
  congr 1; funext a; apply Fin.ext
  match a with
  | ⟨0, _⟩ => show win1_4.index t (0 : Fin 2) * 1 + 1 * (y 0).val = (y 0).val; rw [e40]; omega
  | ⟨1, _⟩ => show win1_4.index t (1 : Fin 2) * 768 + 1 * (y 1).val = (y 1).val; rw [e41]; omega

set_option maxHeartbeats 1600000 in
/-- Window 5's block is its whole array at every point. -/
theorem whole5 (c : Dev nD) (t : Fin cfg1.N) : (iblk1 V c 5 t : Vec Ideal S1x768 .f32) = V c main_v7 := by
  obtain ⟨-, -, -, -, e20, e21, e30, e31, e40, e41, e50, e51, -, -⟩ := idx t
  funext y
  show V c main_v7 (((cfg1.win 5).blk t).view.emb y) = V c main_v7 y
  congr 1; funext a; apply Fin.ext
  match a with
  | ⟨0, _⟩ => show win1_5.index t (0 : Fin 2) * 1 + 1 * (y 0).val = (y 0).val; rw [e50]; omega
  | ⟨1, _⟩ => show win1_5.index t (1 : Fin 2) * 768 + 1 * (y 1).val = (y 1).val; rw [e51]; omega

set_option maxHeartbeats 4000000 in
/-- What point `t` writes back is block `t` of the update of the arrays the call finds. -/
theorem flushed (c : Dev nD) (t : Fin cfg1.N) :
    (dat1 V c).flushed 6 t = ((cfg1.win 6).blk t).view.read (Elt Ideal)
      (gruG (V c main_v23) (V c main_arg0) (V c main_v4) (V c main_v5) (fun cc => V c main_v6 (ix2 (0 : Fin 1) cc)) (fun cc => V c main_v7 (ix2 (0 : Fin 1) cc))) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x768) hz, View.ld_unit_zero (S := S1x768) hz]
  rw [whole2 V c t, whole3 V c t, whole4 V c t, whole5 V c t]
  obtain ⟨e00, e01, e10, e11, -, -, -, -, -, -, -, -, e60, e61⟩ := idx t
  funext y
  refine (pay_at _ _ _ _ _ _ y).trans ?_
  have hcol : ((((cfg1.win 6).blk t).view.emb y) 1 : Fin 256) = y 1 :=
    Fin.ext (by show win1_6.index t (1 : Fin 2) * 256 + 1 * (y 1).val = (y 1).val; rw [e61]; omega)
  show gruAt (a := 2000) (iblk1 V c 0 t) (iblk1 V c 1 t) (V c main_v4) (V c main_v5) _ _ (y 0) (y 1)
    = gruAt (a := 20000) (V c main_v23) (V c main_arg0) (V c main_v4) (V c main_v5) _ _ ((((cfg1.win 6).blk t).view.emb y) 0) ((((cfg1.win 6).blk t).view.emb y) 1)
  rw [hcol]
  refine gruAt_congr _ _ _ _ (fun q => ?_) (fun q => ?_) (y 1)
  · show V c main_v23 (((cfg1.win 0).blk t).view.emb (ix2 (y 0) q)) = V c main_v23 (ix2 ((((cfg1.win 6).blk t).view.emb y) 0) q)
    congr 1; funext a; apply Fin.ext
    match a with
    | ⟨0, _⟩ => show win1_0.index t (0 : Fin 2) * 2000 + 1 * (y 0).val = win1_6.index t (0 : Fin 2) * 2000 + 1 * (y 0).val; rw [e00, e60]
    | ⟨1, _⟩ => show win1_0.index t (1 : Fin 2) * 256 + 1 * q.val = q.val; rw [e01]; omega
  · show V c main_arg0 (((cfg1.win 1).blk t).view.emb (ix2 (y 0) q)) = V c main_arg0 (ix2 ((((cfg1.win 6).blk t).view.emb y) 0) q)
    congr 1; funext a; apply Fin.ext
    match a with
    | ⟨0, _⟩ => show win1_1.index t (0 : Fin 2) * 2000 + 1 * (y 0).val = win1_6.index t (0 : Fin 2) * 2000 + 1 * (y 0).val; rw [e10, e60]
    | ⟨1, _⟩ => show win1_1.index t (1 : Fin 2) * 256 + 1 * q.val = q.val; rw [e11]; omega

set_option maxHeartbeats 1600000 in
/-- An index of the result is in point `t`'s block iff each coordinate is in the block's range on its axis. -/
theorem mem_blk (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v24).slice (win1_6.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg1.N, (cfg1.win 6).flush t = true ∧ i ∈ ((cfg1.win 6).blk t).view.set := by
  have hi0 : (i 0).val < 20000 := (i 0).isLt
  have hi1 : (i 1).val < 256 := (i 1).isLt
  have hN : cfg1.N = 10 := N_1
  refine ⟨⟨(i 0).val / 2000, by rw [hN]; omega⟩, flush1_6 _, ?_⟩
  rw [mem_blk]
  obtain ⟨-, -, -, -, -, -, -, -, -, -, -, -, e60, e61⟩ := idx ⟨(i 0).val / 2000, by rw [hN]; omega⟩
  intro a
  match a with
  | ⟨0, _⟩ => show win1_6.index _ (0 : Fin 2) * 2000 ≤ (i 0).val ∧ (i 0).val < win1_6.index _ (0 : Fin 2) * 2000 + 2000; rw [e60]; show (i 0).val / 2000 * 2000 ≤ (i 0).val ∧ (i 0).val < (i 0).val / 2000 * 2000 + 2000; omega
  | ⟨1, _⟩ => show win1_6.index _ (1 : Fin 2) * 256 ≤ (i 1).val ∧ (i 1).val < win1_6.index _ (1 : Fin 2) * 256 + 256; rw [e61]; omega

set_option maxHeartbeats 1600000 in
/-- After the call its result array is the gated update of the arrays it was entered with. -/
theorem final (c : Dev nD) : (dat1 V c).arrAt 6 cfg1.N
    = gruG (V c main_v23) (V c main_arg0) (V c main_v4) (V c main_v5) (fun cc => V c main_v6 (ix2 (0 : Fin 1) cc)) (fun cc => V c main_v7 (ix2 (0 : Fin 1) cc)) :=
  (dat1 V c).arrAt_eq_of_cover 6 _ (fun t _ => flushed V c t) cover

end Cert.KernelIdeal.Gru1

end
-- ==== Proof.Chain0.lean ====
/-
  Layer 0 of the kernel program.

  The layer is a stretch that cuts the layer's weight out of the weight argument, the message call, the routing stretch
  (gather by source, scale, scatter-add by target) and the update call.  Reading the four segments in order — each host
  stretch's result buffer as the stretch's operations of the buffers before it, each call's result array as the
  whole-array function of the arrays it was entered with, every other buffer carried unchanged — the state after the
  layer is `Layer.layerG` of the state before it, with the routing, the transposed matrices and the bias rows as the
  first stretch left them.
-/
import proofs.«109821_j77129022701746_1_alg».proof.Proof.Route
import proofs.«109821_j77129022701746_1_alg».proof.Proof.Carry
import proofs.«109821_j77129022701746_1_alg».proof.Proof.Msg0
import proofs.«109821_j77129022701746_1_alg».proof.Proof.Gru1
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo Cert.GateCell Cert.Layer

variable (m : (ℓ : Loc nD τ sig) → Buf (Elt Ideal) ℓ) (ρ : Dev nD → PrngReg)

set_option maxHeartbeats 16000000 in
/-- Layer 0's weight, as the stretch before the message call leaves it: slice 0 of the weight argument. -/
theorem weight0 (c : Dev nD) : W1 m ρ c (Proc.devRef .tc main_v9) = wsl0 (W0 m ρ c (Proc.devRef .tc main_arg3)) := by
  show StableHlo.after hostOps0 (W0 m ρ c) (Proc.devRef .tc main_v9) = _
  after_results
  rfl

set_option maxHeartbeats 16000000 in
/-- Layer 0's aggregate, as the routing stretch leaves it: the routing of the messages by the edge endpoints and weights. -/
theorem agg0 (c : Dev nD) : W3 m ρ c (Proc.devRef .tc main_v23)
    = route (W2 m ρ c (Proc.devRef .tc main_v1)) (W2 m ρ c (Proc.devRef .tc main_v3)) (W2 m ρ c (Proc.devRef .tc main_arg2))
        (W2 m ρ c (Proc.devRef .tc main_v10)) := by
  show StableHlo.after hostOps1 (W2 m ρ c) (Proc.devRef .tc main_v23) = _
  after_results
  rfl

set_option maxHeartbeats 4000000 in
/-- Layer 0: the state after the layer's update call is `layerG` of the state before the layer. -/
theorem layer0 (c : Dev nD) : W4 m ρ c (Proc.devRef .tc main_v24)
    = layerG (route (W1 m ρ c (Proc.devRef .tc main_v1)) (W1 m ρ c (Proc.devRef .tc main_v3)) (W1 m ρ c (Proc.devRef .tc main_arg2)))
        (wsl0 (W1 m ρ c (Proc.devRef .tc main_arg3))) (W1 m ρ c (Proc.devRef .tc main_v4)) (W1 m ρ c (Proc.devRef .tc main_v5))
        (fun cc => W1 m ρ c (Proc.devRef .tc main_v6) (ix2 (0 : Fin 1) cc)) (fun cc => W1 m ρ c (Proc.devRef .tc main_v7) (ix2 (0 : Fin 1) cc))
        (W1 m ρ c (Proc.devRef .tc main_arg0)) := by
  -- the state and the weight as the message call finds them
  have hh : W1 m ρ c (Proc.devRef .tc main_arg0) = W1 m ρ c (Proc.devRef .tc main_arg0) := rfl
  have hw : W1 m ρ c (Proc.devRef .tc main_v9) = wsl0 (W1 m ρ c (Proc.devRef .tc main_arg3)) :=
    (weight0 m ρ c).trans (congrArg wsl0 ((Carry.keep_host0 (W0 m ρ c) main_arg3 (by decide)).symm))
  -- the messages after the message call, and the state carried through it
  have hm : W2 m ρ c (Proc.devRef .tc main_v10) = msgG (W1 m ρ c (Proc.devRef .tc main_arg0)) (wsl0 (W1 m ρ c (Proc.devRef .tc main_arg3))) := by
    refine ((W2_arr m ρ c 2).trans (Msg0.final (V1 m ρ) c)).trans ?_
    show msgG (W1 m ρ c (Proc.devRef .tc main_arg0)) (W1 m ρ c (Proc.devRef .tc main_v9)) = _
    rw [hh, hw]
  have hh2 : W2 m ρ c (Proc.devRef .tc main_arg0) = W1 m ρ c (Proc.devRef .tc main_arg0) :=
    ((W2_arr m ρ c 0).trans (Msg0.kept (V1 m ρ) c)).trans hh
  -- the aggregate the routing stretch computes, and the state carried through the stretch
  have hagg : W3 m ρ c (Proc.devRef .tc main_v23)
      = route (W1 m ρ c (Proc.devRef .tc main_v1)) (W1 m ρ c (Proc.devRef .tc main_v3)) (W1 m ρ c (Proc.devRef .tc main_arg2))
          (msgG (W1 m ρ c (Proc.devRef .tc main_arg0)) (wsl0 (W1 m ρ c (Proc.devRef .tc main_arg3)))) := by
    rw [agg0 m ρ c, hm, Carry.to1_2 m ρ c main_v1 (by decide), Carry.to1_2 m ρ c main_v3 (by decide), Carry.to1_2 m ρ c main_arg2 (by decide)]
  have hh3 : W3 m ρ c (Proc.devRef .tc main_arg0) = W1 m ρ c (Proc.devRef .tc main_arg0) :=
    (Carry.keep_host1 (W2 m ρ c) main_arg0 (by decide)).trans hh2
  -- the update call
  refine ((W4_arr m ρ c 6).trans (Gru1.final (V3 m ρ) c)).trans ?_
  show gruG (W3 m ρ c (Proc.devRef .tc main_v23)) (W3 m ρ c (Proc.devRef .tc main_arg0)) (W3 m ρ c (Proc.devRef .tc main_v4)) (W3 m ρ c (Proc.devRef .tc main_v5))
      (fun cc => W3 m ρ c (Proc.devRef .tc main_v6) (ix2 (0 : Fin 1) cc)) (fun cc => W3 m ρ c (Proc.devRef .tc main_v7) (ix2 (0 : Fin 1) cc)) = _
  rw [hagg, hh3, Carry.to1_3 m ρ c main_v4 (by decide), Carry.to1_3 m ρ c main_v5 (by decide), Carry.to1_3 m ρ c main_v6 (by decide), Carry.to1_3 m ρ c main_v7 (by decide)]
  rfl

end Cert.KernelIdeal.Chain

end
-- ==== Proof.Msg2.lean ====
/-
  Kernel call 2: the message product, from blocks to the whole array.

  The call walks the state in ten blocks of 2000 rows; at block `t` it multiplies rows `2000 t … 2000 t + 1999` by the
  whole weight matrix and writes the product back to the same rows of its result.  The ten row blocks tile the result,
  so after the call the result array is the state times the weight, entry by entry.  Stated at any contents `V` the
  call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Msg2

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the state and the result move one row block per point, the weight stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The payload at any index of the block. -/
theorem pay_at (x0 : Vec Ideal S2000x256 .f32) (x1 : Vec Ideal S256x256 .f32) (y : S2000x256.Idx) :
    k2_pay1 (F := Ideal) x0 x1 y = prodAt x0 x1 (y 0) (y 1) :=
  (congrArg (k2_pay1 (F := Ideal) x0 x1) (eq_ix2 y)).trans (Payload.msg2_ix2 x0 x1 (y 0) (y 1))

set_option maxHeartbeats 4000000 in
/-- What point `t` writes back is block `t` of the product of the arrays the call finds. -/
theorem flushed (c : Dev nD) (t : Fin cfg2.N) :
    (dat2 V c).flushed 2 t = ((cfg2.win 2).blk t).view.read (Elt Ideal) (msgG (V c main_v24) (V c main_v26)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  obtain ⟨e00, e01, e10, e11, e20, e21⟩ := idx t
  funext y
  refine (pay_at _ _ y).trans ?_
  show prodAt (iblk2 V c 0 t) (iblk2 V c 1 t) (y 0) (y 1)
    = prodAt (V c main_v24) (V c main_v26) ((((cfg2.win 2).blk t).view.emb y) 0) ((((cfg2.win 2).blk t).view.emb y) 1)
  unfold prodAt
  refine Finset.sum_congr rfl fun q _ => ?_
  congr 1
  · show V c main_v24 (((cfg2.win 0).blk t).view.emb (ix2 (y 0) q)) = V c main_v24 (ix2 ((((cfg2.win 2).blk t).view.emb y) 0) q)
    congr 1; funext a; apply Fin.ext
    match a with
    | ⟨0, _⟩ => show win2_0.index t (0 : Fin 2) * 2000 + 1 * (y 0).val = win2_2.index t (0 : Fin 2) * 2000 + 1 * (y 0).val; rw [e00, e20]
    | ⟨1, _⟩ => show win2_0.index t (1 : Fin 2) * 256 + 1 * q.val = q.val; rw [e01]; omega
  · show V c main_v26 (((cfg2.win 1).blk t).view.emb (ix2 q (y 1))) = V c main_v26 (ix2 q ((((cfg2.win 2).blk t).view.emb y) 1))
    congr 1; funext a; apply Fin.ext
    match a with
    | ⟨0, _⟩ => show win2_1.index t (0 : Fin 2) * 256 + 1 * q.val = q.val; rw [e10]; omega
    | ⟨1, _⟩ => show win2_1.index t (1 : Fin 2) * 256 + 1 * (y 1).val = win2_2.index t (1 : Fin 2) * 256 + 1 * (y 1).val; rw [e11, e21]

set_option maxHeartbeats 1600000 in
/-- An index of the result is in point `t`'s block iff each coordinate is in the block's range on its axis. -/
theorem mem_blk (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v27).slice (win2_2.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg2.N, (cfg2.win 2).flush t = true ∧ i ∈ ((cfg2.win 2).blk t).view.set := by
  have hi0 : (i 0).val < 20000 := (i 0).isLt
  have hi1 : (i 1).val < 256 := (i 1).isLt
  have hN : cfg2.N = 10 := N_2
  refine ⟨⟨(i 0).val / 2000, by rw [hN]; omega⟩, flush2_2 _, ?_⟩
  rw [mem_blk]
  obtain ⟨-, -, -, -, e20, e21⟩ := idx ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e20]; show (i 0).val / 2000 * 2000 ≤ (i 0).val ∧ (i 0).val < (i 0).val / 2000 * 2000 + 2000; omega
  | ⟨1, _⟩ => show win2_2.index _ (1 : Fin 2) * 256 ≤ (i 1).val ∧ (i 1).val < win2_2.index _ (1 : Fin 2) * 256 + 256; rw [e21]; omega

set_option maxHeartbeats 1600000 in
/-- After the call its result array is the product of the state and the weight it was entered with. -/
theorem final (c : Dev nD) : (dat2 V c).arrAt 2 cfg2.N = msgG (V c main_v24) (V c main_v26) :=
  (dat2 V c).arrAt_eq_of_cover 2 (msgG (V c main_v24) (V c main_v26)) (fun t _ => flushed V c t) cover

set_option maxHeartbeats 1600000 in
/-- The state array is an input of the call: it ends as it was entered. -/
theorem kept (c : Dev nD) : (dat2 V c).arrAt 0 cfg2.N = V c main_v24 :=
  ((dat2 V c).arrAt_in 0 rfl cfg2.N).trans (A_eq2 V c 0)

end Cert.KernelIdeal.Msg2

end
-- ==== Proof.Gru3.lean ====
/-
  Kernel call 3: the gated update, from blocks to the whole array.

  The call walks the aggregated messages and the state in ten blocks of 2000 rows, with the two [256, 768] matrices and
  the two bias rows whole at every point; at block `t` it updates rows `2000 t … 2000 t + 1999` and writes them back to
  the same rows of its result.  An entry's update reads the aggregate and the state only in the entry's own row, so the
  block's update is the whole array's update read through the block, and the ten row blocks tile the result.  Stated at
  any contents `V` the call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Gru3

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate, the state and the result move one row block per point, the
    matrices and the bias rows stay. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The payload at any index of the block. -/
theorem pay_at (x0 x1 : Vec Ideal S2000x256 .f32) (x2 x3 : Vec Ideal S256x768 .f32) (x4 x5 : Vec Ideal S1x768 .f32) (y : S2000x256.Idx) :
    k3_pay1 (F := Ideal) x0 x1 x2 x3 x4 x5 y
      = gruAt x0 x1 x2 x3 (fun cc => x4 (ix2 (0 : Fin 1) cc)) (fun cc => x5 (ix2 (0 : Fin 1) cc)) (y 0) (y 1) :=
  (congrArg (k3_pay1 (F := Ideal) x0 x1 x2 x3 x4 x5) (eq_ix2 y)).trans (Payload.gru3_ix2 x0 x1 x2 x3 x4 x5 (y 0) (y 1))

set_option maxHeartbeats 1600000 in
/-- Window 2's block is its whole array at every point. -/
theorem whole2 (c : Dev nD) (t : Fin cfg3.N) : (iblk3 V c 2 t : Vec Ideal S256x768 .f32) = V c main_v4 := by
  obtain ⟨-, -, -, -, e20, e21, e30, e31, e40, e41, e50, e51, -, -⟩ := idx t
  funext y
  show V c main_v4 (((cfg3.win 2).blk t).view.emb y) = V c main_v4 y
  congr 1; funext a; apply Fin.ext
  match a with
  | ⟨0, _⟩ => show win3_2.index t (0 : Fin 2) * 256 + 1 * (y 0).val = (y 0).val; rw [e20]; omega
  | ⟨1, _⟩ => show win3_2.index t (1 : Fin 2) * 768 + 1 * (y 1).val = (y 1).val; rw [e21]; omega

set_option maxHeartbeats 1600000 in
/-- Window 3's block is its whole array at every point. -/
theorem whole3 (c : Dev nD) (t : Fin cfg3.N) : (iblk3 V c 3 t : Vec Ideal S256x768 .f32) = V c main_v5 := by
  obtain ⟨-, -, -, -, e20, e21, e30, e31, e40, e41, e50, e51, -, -⟩ := idx t
  funext y
  show V c main_v5 (((cfg3.win 3).blk t).view.emb y) = V c main_v5 y
  congr 1; funext a; apply Fin.ext
  match a with
  | ⟨0, _⟩ => show win3_3.index t (0 : Fin 2) * 256 + 1 * (y 0).val = (y 0).val; rw [e30]; omega
  | ⟨1, _⟩ => show win3_3.index t (1 : Fin 2) * 768 + 1 * (y 1).val = (y 1).val; rw [e31]; omega

set_option maxHeartbeats 1600000 in
/-- Window 4's block is its whole array at every point. -/
theorem whole4 (c : Dev nD) (t : Fin cfg3.N) : (iblk3 V c 4 t : Vec Ideal S1x768 .f32) = V c main_v6 := by
  obtain ⟨-, -, -, -, e20, e21, e30, e31, e40, e41, e50, e51, -, -⟩ := idx t
  funext y
  show V c main_v6 (((cfg3.win 4).blk t).view.emb y) = V c main_v6 y
  congr 1; funext a; apply Fin.ext
  match a with
  | ⟨0, _⟩ => show win3_4.index t (0 : Fin 2) * 1 + 1 * (y 0).val = (y 0).val; rw [e40]; omega
  | ⟨1, _⟩ => show win3_4.index t (1 : Fin 2) * 768 + 1 * (y 1).val = (y 1).val; rw [e41]; omega

set_option maxHeartbeats 1600000 in
/-- Window 5's block is its whole array at every point. -/
theorem whole5 (c : Dev nD) (t : Fin cfg3.N) : (iblk3 V c 5 t : Vec Ideal S1x768 .f32) = V c main_v7 := by
  obtain ⟨-, -, -, -, e20, e21, e30, e31, e40, e41, e50, e51, -, -⟩ := idx t
  funext y
  show V c main_v7 (((cfg3.win 5).blk t).view.emb y) = V c main_v7 y
  congr 1; funext a; apply Fin.ext
  match a with
  | ⟨0, _⟩ => show win3_5.index t (0 : Fin 2) * 1 + 1 * (y 0).val = (y 0).val; rw [e50]; omega
  | ⟨1, _⟩ => show win3_5.index t (1 : Fin 2) * 768 + 1 * (y 1).val = (y 1).val; rw [e51]; omega

set_option maxHeartbeats 4000000 in
/-- What point `t` writes back is block `t` of the update of the arrays the call finds. -/
theorem flushed (c : Dev nD) (t : Fin cfg3.N) :
    (dat3 V c).flushed 6 t = ((cfg3.win 6).blk t).view.read (Elt Ideal)
      (gruG (V c main_v40) (V c main_v24) (V c main_v4) (V c main_v5) (fun cc => V c main_v6 (ix2 (0 : Fin 1) cc)) (fun cc => V c main_v7 (ix2 (0 : Fin 1) cc))) := by
  show (cfg3.win 6).cut (grid3.coords t) ((dat3 V c).after 6 t) = _
  rw [after3_6]
  unfold out3_6
  rw [View.canon_unit_zero hz]
  simp only [View.ld_unit_zero (S := S2000x256) hz, View.ld_unit_zero (S := S256x768) hz, View.ld_unit_zero (S := S1x768) hz]
  rw [whole2 V c t, whole3 V c t, whole4 V c t, whole5 V c t]
  obtain ⟨e00, e01, e10, e11, -, -, -, -, -, -, -, -, e60, e61⟩ := idx t
  funext y
  refine (pay_at _ _ _ _ _ _ y).trans ?_
  have hcol : ((((cfg3.win 6).blk t).view.emb y) 1 : Fin 256) = y 1 :=
    Fin.ext (by show win3_6.index t (1 : Fin 2) * 256 + 1 * (y 1).val = (y 1).val; rw [e61]; omega)
  show gruAt (a := 2000) (iblk3 V c 0 t) (iblk3 V c 1 t) (V c main_v4) (V c main_v5) _ _ (y 0) (y 1)
    = gruAt (a := 20000) (V c main_v40) (V c main_v24) (V c main_v4) (V c main_v5) _ _ ((((cfg3.win 6).blk t).view.emb y) 0) ((((cfg3.win 6).blk t).view.emb y) 1)
  rw [hcol]
  refine gruAt_congr _ _ _ _ (fun q => ?_) (fun q => ?_) (y 1)
  · show V c main_v40 (((cfg3.win 0).blk t).view.emb (ix2 (y 0) q)) = V c main_v40 (ix2 ((((cfg3.win 6).blk t).view.emb y) 0) q)
    congr 1; funext a; apply Fin.ext
    match a with
    | ⟨0, _⟩ => show win3_0.index t (0 : Fin 2) * 2000 + 1 * (y 0).val = win3_6.index t (0 : Fin 2) * 2000 + 1 * (y 0).val; rw [e00, e60]
    | ⟨1, _⟩ => show win3_0.index t (1 : Fin 2) * 256 + 1 * q.val = q.val; rw [e01]; omega
  · show V c main_v24 (((cfg3.win 1).blk t).view.emb (ix2 (y 0) q)) = V c main_v24 (ix2 ((((cfg3.win 6).blk t).view.emb y) 0) q)
    congr 1; funext a; apply Fin.ext
    match a with
    | ⟨0, _⟩ => show win3_1.index t (0 : Fin 2) * 2000 + 1 * (y 0).val = win3_6.index t (0 : Fin 2) * 2000 + 1 * (y 0).val; rw [e10, e60]
    | ⟨1, _⟩ => show win3_1.index t (1 : Fin 2) * 256 + 1 * q.val = q.val; rw [e11]; omega

set_option maxHeartbeats 1600000 in
/-- An index of the result is in point `t`'s block iff each coordinate is in the block's range on its axis. -/
theorem mem_blk (t : Fin cfg3.N) (i : S20000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v41).slice (win3_6.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg3.N, (cfg3.win 6).flush t = true ∧ i ∈ ((cfg3.win 6).blk t).view.set := by
  have hi0 : (i 0).val < 20000 := (i 0).isLt
  have hi1 : (i 1).val < 256 := (i 1).isLt
  have hN : cfg3.N = 10 := N_3
  refine ⟨⟨(i 0).val / 2000, by rw [hN]; omega⟩, flush3_6 _, ?_⟩
  rw [mem_blk]
  obtain ⟨-, -, -, -, -, -, -, -, -, -, -, -, e60, e61⟩ := idx ⟨(i 0).val / 2000, by rw [hN]; omega⟩
  intro a
  match a with
  | ⟨0, _⟩ => show win3_6.index _ (0 : Fin 2) * 2000 ≤ (i 0).val ∧ (i 0).val < win3_6.index _ (0 : Fin 2) * 2000 + 2000; rw [e60]; show (i 0).val / 2000 * 2000 ≤ (i 0).val ∧ (i 0).val < (i 0).val / 2000 * 2000 + 2000; omega
  | ⟨1, _⟩ => show win3_6.index _ (1 : Fin 2) * 256 ≤ (i 1).val ∧ (i 1).val < win3_6.index _ (1 : Fin 2) * 256 + 256; rw [e61]; omega

set_option maxHeartbeats 1600000 in
/-- After the call its result array is the gated update of the arrays it was entered with. -/
theorem final (c : Dev nD) : (dat3 V c).arrAt 6 cfg3.N
    = gruG (V c main_v40) (V c main_v24) (V c main_v4) (V c main_v5) (fun cc => V c main_v6 (ix2 (0 : Fin 1) cc)) (fun cc => V c main_v7 (ix2 (0 : Fin 1) cc)) :=
  (dat3 V c).arrAt_eq_of_cover 6 _ (fun t _ => flushed V c t) cover

end Cert.KernelIdeal.Gru3

end
-- ==== Proof.Chain1.lean ====
/-
  Layer 1 of the kernel program.

  The layer is a stretch that cuts the layer's weight out of the weight argument, the message call, the routing stretch
  (gather by source, scale, scatter-add by target) and the update call.  Reading the four segments in order — each host
  stretch's result buffer as the stretch's operations of the buffers before it, each call's result array as the
  whole-array function of the arrays it was entered with, every other buffer carried unchanged — the state after the
  layer is `Layer.layerG` of the state before it, with the routing, the transposed matrices and the bias rows as the
  first stretch left them.
-/
import proofs.«109821_j77129022701746_1_alg».proof.Proof.Route
import proofs.«109821_j77129022701746_1_alg».proof.Proof.Carry
import proofs.«109821_j77129022701746_1_alg».proof.Proof.Msg2
import proofs.«109821_j77129022701746_1_alg».proof.Proof.Gru3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo Cert.GateCell Cert.Layer

variable (m : (ℓ : Loc nD τ sig) → Buf (Elt Ideal) ℓ) (ρ : Dev nD → PrngReg)

set_option maxHeartbeats 16000000 in
/-- Layer 1's weight, as the stretch before the message call leaves it: slice 1 of the weight argument. -/
theorem weight1 (c : Dev nD) : W5 m ρ c (Proc.devRef .tc main_v26) = wsl1 (W4 m ρ c (Proc.devRef .tc main_arg3)) := by
  show StableHlo.after hostOps2 (W4 m ρ c) (Proc.devRef .tc main_v26) = _
  after_results
  rfl

set_option maxHeartbeats 16000000 in
/-- Layer 1's aggregate, as the routing stretch leaves it: the routing of the messages by the edge endpoints and weights. -/
theorem agg1 (c : Dev nD) : W7 m ρ c (Proc.devRef .tc main_v40)
    = route (W6 m ρ c (Proc.devRef .tc main_v1)) (W6 m ρ c (Proc.devRef .tc main_v3)) (W6 m ρ c (Proc.devRef .tc main_arg2))
        (W6 m ρ c (Proc.devRef .tc main_v27)) := by
  show StableHlo.after hostOps3 (W6 m ρ c) (Proc.devRef .tc main_v40) = _
  after_results
  rfl

set_option maxHeartbeats 4000000 in
/-- Layer 1: the state after the layer's update call is `layerG` of the state before the layer. -/
theorem layer1 (c : Dev nD) : W8 m ρ c (Proc.devRef .tc main_v41)
    = layerG (route (W1 m ρ c (Proc.devRef .tc main_v1)) (W1 m ρ c (Proc.devRef .tc main_v3)) (W1 m ρ c (Proc.devRef .tc main_arg2)))
        (wsl1 (W1 m ρ c (Proc.devRef .tc main_arg3))) (W1 m ρ c (Proc.devRef .tc main_v4)) (W1 m ρ c (Proc.devRef .tc main_v5))
        (fun cc => W1 m ρ c (Proc.devRef .tc main_v6) (ix2 (0 : Fin 1) cc)) (fun cc => W1 m ρ c (Proc.devRef .tc main_v7) (ix2 (0 : Fin 1) cc))
        (W4 m ρ c (Proc.devRef .tc main_v24)) := by
  -- the state and the weight as the message call finds them
  have hh : W5 m ρ c (Proc.devRef .tc main_v24) = W4 m ρ c (Proc.devRef .tc main_v24) := Carry.keep_host2 (W4 m ρ c) main_v24 (by decide)
  have hw : W5 m ρ c (Proc.devRef .tc main_v26) = wsl1 (W1 m ρ c (Proc.devRef .tc main_arg3)) :=
    (weight1 m ρ c).trans (congrArg wsl1 (Carry.to1_4 m ρ c main_arg3 (by decide)))
  -- the messages after the message call, and the state carried through it
  have hm : W6 m ρ c (Proc.devRef .tc main_v27) = msgG (W4 m ρ c (Proc.devRef .tc main_v24)) (wsl1 (W1 m ρ c (Proc.devRef .tc main_arg3))) := by
    refine ((W6_arr m ρ c 2).trans (Msg2.final (V5 m ρ) c)).trans ?_
    show msgG (W5 m ρ c (Proc.devRef .tc main_v24)) (W5 m ρ c (Proc.devRef .tc main_v26)) = _
    rw [hh, hw]
  have hh2 : W6 m ρ c (Proc.devRef .tc main_v24) = W4 m ρ c (Proc.devRef .tc main_v24) :=
    ((W6_arr m ρ c 0).trans (Msg2.kept (V5 m ρ) c)).trans hh
  -- the aggregate the routing stretch computes, and the state carried through the stretch
  have hagg : W7 m ρ c (Proc.devRef .tc main_v40)
      = route (W1 m ρ c (Proc.devRef .tc main_v1)) (W1 m ρ c (Proc.devRef .tc main_v3)) (W1 m ρ c (Proc.devRef .tc main_arg2))
          (msgG (W4 m ρ c (Proc.devRef .tc main_v24)) (wsl1 (W1 m ρ c (Proc.devRef .tc main_arg3)))) := by
    rw [agg1 m ρ c, hm, Carry.to1_6 m ρ c main_v1 (by decide), Carry.to1_6 m ρ c main_v3 (by decide), Carry.to1_6 m ρ c main_arg2 (by decide)]
  have hh3 : W7 m ρ c (Proc.devRef .tc main_v24) = W4 m ρ c (Proc.devRef .tc main_v24) :=
    (Carry.keep_host3 (W6 m ρ c) main_v24 (by decide)).trans hh2
  -- the update call
  refine ((W8_arr m ρ c 6).trans (Gru3.final (V7 m ρ) c)).trans ?_
  show gruG (W7 m ρ c (Proc.devRef .tc main_v40)) (W7 m ρ c (Proc.devRef .tc main_v24)) (W7 m ρ c (Proc.devRef .tc main_v4)) (W7 m ρ c (Proc.devRef .tc main_v5))
      (fun cc => W7 m ρ c (Proc.devRef .tc main_v6) (ix2 (0 : Fin 1) cc)) (fun cc => W7 m ρ c (Proc.devRef .tc main_v7) (ix2 (0 : Fin 1) cc)) = _
  rw [hagg, hh3, Carry.to1_7 m ρ c main_v4 (by decide), Carry.to1_7 m ρ c main_v5 (by decide), Carry.to1_7 m ρ c main_v6 (by decide), Carry.to1_7 m ρ c main_v7 (by decide)]
  rfl

end Cert.KernelIdeal.Chain

end
-- ==== Proof.Msg4.lean ====
/-
  Kernel call 4: the message product, from blocks to the whole array.

  The call walks the state in ten blocks of 2000 rows; at block `t` it multiplies rows `2000 t … 2000 t + 1999` by the
  whole weight matrix and writes the product back to the same rows of its result.  The ten row blocks tile the result,
  so after the call the result array is the state times the weight, entry by entry.  Stated at any contents `V` the
  call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Msg4

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the state and the result move one row block per point, the weight stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The payload at any index of the block. -/
theorem pay_at (x0 : Vec Ideal S2000x256 .f32) (x1 : Vec Ideal S256x256 .f32) (y : S2000x256.Idx) :
    k4_pay1 (F := Ideal) x0 x1 y = prodAt x0 x1 (y 0) (y 1) :=
  (congrArg (k4_pay1 (F := Ideal) x0 x1) (eq_ix2 y)).trans (Payload.msg4_ix2 x0 x1 (y 0) (y 1))

set_option maxHeartbeats 4000000 in
/-- What point `t` writes back is block `t` of the product of the arrays the call finds. -/
theorem flushed (c : Dev nD) (t : Fin cfg4.N) :
    (dat4 V c).flushed 2 t = ((cfg4.win 2).blk t).view.read (Elt Ideal) (msgG (V c main_v41) (V c main_v43)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x256) hz]
  obtain ⟨e00, e01, e10, e11, e20, e21⟩ := idx t
  funext y
  refine (pay_at _ _ y).trans ?_
  show prodAt (iblk4 V c 0 t) (iblk4 V c 1 t) (y 0) (y 1)
    = prodAt (V c main_v41) (V c main_v43) ((((cfg4.win 2).blk t).view.emb y) 0) ((((cfg4.win 2).blk t).view.emb y) 1)
  unfold prodAt
  refine Finset.sum_congr rfl fun q _ => ?_
  congr 1
  · show V c main_v41 (((cfg4.win 0).blk t).view.emb (ix2 (y 0) q)) = V c main_v41 (ix2 ((((cfg4.win 2).blk t).view.emb y) 0) q)
    congr 1; funext a; apply Fin.ext
    match a with
    | ⟨0, _⟩ => show win4_0.index t (0 : Fin 2) * 2000 + 1 * (y 0).val = win4_2.index t (0 : Fin 2) * 2000 + 1 * (y 0).val; rw [e00, e20]
    | ⟨1, _⟩ => show win4_0.index t (1 : Fin 2) * 256 + 1 * q.val = q.val; rw [e01]; omega
  · show V c main_v43 (((cfg4.win 1).blk t).view.emb (ix2 q (y 1))) = V c main_v43 (ix2 q ((((cfg4.win 2).blk t).view.emb y) 1))
    congr 1; funext a; apply Fin.ext
    match a with
    | ⟨0, _⟩ => show win4_1.index t (0 : Fin 2) * 256 + 1 * q.val = q.val; rw [e10]; omega
    | ⟨1, _⟩ => show win4_1.index t (1 : Fin 2) * 256 + 1 * (y 1).val = win4_2.index t (1 : Fin 2) * 256 + 1 * (y 1).val; rw [e11, e21]

set_option maxHeartbeats 1600000 in
/-- An index of the result is in point `t`'s block iff each coordinate is in the block's range on its axis. -/
theorem mem_blk (t : Fin cfg4.N) (i : S20000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v44).slice (win4_2.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg4.N, (cfg4.win 2).flush t = true ∧ i ∈ ((cfg4.win 2).blk t).view.set := by
  have hi0 : (i 0).val < 20000 := (i 0).isLt
  have hi1 : (i 1).val < 256 := (i 1).isLt
  have hN : cfg4.N = 10 := N_4
  refine ⟨⟨(i 0).val / 2000, by rw [hN]; omega⟩, flush4_2 _, ?_⟩
  rw [mem_blk]
  obtain ⟨-, -, -, -, e20, e21⟩ := idx ⟨(i 0).val / 2000, by rw [hN]; omega⟩
  intro a
  match a with
  | ⟨0, _⟩ => show win4_2.index _ (0 : Fin 2) * 2000 ≤ (i 0).val ∧ (i 0).val < win4_2.index _ (0 : Fin 2) * 2000 + 2000; rw [e20]; show (i 0).val / 2000 * 2000 ≤ (i 0).val ∧ (i 0).val < (i 0).val / 2000 * 2000 + 2000; omega
  | ⟨1, _⟩ => show win4_2.index _ (1 : Fin 2) * 256 ≤ (i 1).val ∧ (i 1).val < win4_2.index _ (1 : Fin 2) * 256 + 256; rw [e21]; omega

set_option maxHeartbeats 1600000 in
/-- After the call its result array is the product of the state and the weight it was entered with. -/
theorem final (c : Dev nD) : (dat4 V c).arrAt 2 cfg4.N = msgG (V c main_v41) (V c main_v43) :=
  (dat4 V c).arrAt_eq_of_cover 2 (msgG (V c main_v41) (V c main_v43)) (fun t _ => flushed V c t) cover

set_option maxHeartbeats 1600000 in
/-- The state array is an input of the call: it ends as it was entered. -/
theorem kept (c : Dev nD) : (dat4 V c).arrAt 0 cfg4.N = V c main_v41 :=
  ((dat4 V c).arrAt_in 0 rfl cfg4.N).trans (A_eq4 V c 0)

end Cert.KernelIdeal.Msg4

end
-- ==== Proof.Gru5.lean ====
/-
  Kernel call 5: the gated update, from blocks to the whole array.

  The call walks the aggregated messages and the state in ten blocks of 2000 rows, with the two [256, 768] matrices and
  the two bias rows whole at every point; at block `t` it updates rows `2000 t … 2000 t + 1999` and writes them back to
  the same rows of its result.  An entry's update reads the aggregate and the state only in the entry's own row, so the
  block's update is the whole array's update read through the block, and the ten row blocks tile the result.  Stated at
  any contents `V` the call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Gru5

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate, the state and the result move one row block per point, the
    matrices and the bias rows stay. -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The payload at any index of the block. -/
theorem pay_at (x0 x1 : Vec Ideal S2000x256 .f32) (x2 x3 : Vec Ideal S256x768 .f32) (x4 x5 : Vec Ideal S1x768 .f32) (y : S2000x256.Idx) :
    k5_pay1 (F := Ideal) x0 x1 x2 x3 x4 x5 y
      = gruAt x0 x1 x2 x3 (fun cc => x4 (ix2 (0 : Fin 1) cc)) (fun cc => x5 (ix2 (0 : Fin 1) cc)) (y 0) (y 1) :=
  (congrArg (k5_pay1 (F := Ideal) x0 x1 x2 x3 x4 x5) (eq_ix2 y)).trans (Payload.gru5_ix2 x0 x1 x2 x3 x4 x5 (y 0) (y 1))

set_option maxHeartbeats 1600000 in
/-- Window 2's block is its whole array at every point. -/
theorem whole2 (c : Dev nD) (t : Fin cfg5.N) : (iblk5 V c 2 t : Vec Ideal S256x768 .f32) = V c main_v4 := by
  obtain ⟨-, -, -, -, e20, e21, e30, e31, e40, e41, e50, e51, -, -⟩ := idx t
  funext y
  show V c main_v4 (((cfg5.win 2).blk t).view.emb y) = V c main_v4 y
  congr 1; funext a; apply Fin.ext
  match a with
  | ⟨0, _⟩ => show win5_2.index t (0 : Fin 2) * 256 + 1 * (y 0).val = (y 0).val; rw [e20]; omega
  | ⟨1, _⟩ => show win5_2.index t (1 : Fin 2) * 768 + 1 * (y 1).val = (y 1).val; rw [e21]; omega

set_option maxHeartbeats 1600000 in
/-- Window 3's block is its whole array at every point. -/
theorem whole3 (c : Dev nD) (t : Fin cfg5.N) : (iblk5 V c 3 t : Vec Ideal S256x768 .f32) = V c main_v5 := by
  obtain ⟨-, -, -, -, e20, e21, e30, e31, e40, e41, e50, e51, -, -⟩ := idx t
  funext y
  show V c main_v5 (((cfg5.win 3).blk t).view.emb y) = V c main_v5 y
  congr 1; funext a; apply Fin.ext
  match a with
  | ⟨0, _⟩ => show win5_3.index t (0 : Fin 2) * 256 + 1 * (y 0).val = (y 0).val; rw [e30]; omega
  | ⟨1, _⟩ => show win5_3.index t (1 : Fin 2) * 768 + 1 * (y 1).val = (y 1).val; rw [e31]; omega

set_option maxHeartbeats 1600000 in
/-- Window 4's block is its whole array at every point. -/
theorem whole4 (c : Dev nD) (t : Fin cfg5.N) : (iblk5 V c 4 t : Vec Ideal S1x768 .f32) = V c main_v6 := by
  obtain ⟨-, -, -, -, e20, e21, e30, e31, e40, e41, e50, e51, -, -⟩ := idx t
  funext y
  show V c main_v6 (((cfg5.win 4).blk t).view.emb y) = V c main_v6 y
  congr 1; funext a; apply Fin.ext
  match a with
  | ⟨0, _⟩ => show win5_4.index t (0 : Fin 2) * 1 + 1 * (y 0).val = (y 0).val; rw [e40]; omega
  | ⟨1, _⟩ => show win5_4.index t (1 : Fin 2) * 768 + 1 * (y 1).val = (y 1).val; rw [e41]; omega

set_option maxHeartbeats 1600000 in
/-- Window 5's block is its whole array at every point. -/
theorem whole5 (c : Dev nD) (t : Fin cfg5.N) : (iblk5 V c 5 t : Vec Ideal S1x768 .f32) = V c main_v7 := by
  obtain ⟨-, -, -, -, e20, e21, e30, e31, e40, e41, e50, e51, -, -⟩ := idx t
  funext y
  show V c main_v7 (((cfg5.win 5).blk t).view.emb y) = V c main_v7 y
  congr 1; funext a; apply Fin.ext
  match a with
  | ⟨0, _⟩ => show win5_5.index t (0 : Fin 2) * 1 + 1 * (y 0).val = (y 0).val; rw [e50]; omega
  | ⟨1, _⟩ => show win5_5.index t (1 : Fin 2) * 768 + 1 * (y 1).val = (y 1).val; rw [e51]; omega

set_option maxHeartbeats 4000000 in
/-- What point `t` writes back is block `t` of the update of the arrays the call finds. -/
theorem flushed (c : Dev nD) (t : Fin cfg5.N) :
    (dat5 V c).flushed 6 t = ((cfg5.win 6).blk t).view.read (Elt Ideal)
      (gruG (V c main_v57) (V c main_v41) (V c main_v4) (V c main_v5) (fun cc => V c main_v6 (ix2 (0 : Fin 1) cc)) (fun cc => V c main_v7 (ix2 (0 : Fin 1) cc))) := by
  show (cfg5.win 6).cut (grid5.coords t) ((dat5 V c).after 6 t) = _
  rw [after5_6]
  unfold out5_6
  rw [View.canon_unit_zero hz]
  simp only [View.ld_unit_zero (S := S2000x256) hz, View.ld_unit_zero (S := S256x768) hz, View.ld_unit_zero (S := S1x768) hz]
  rw [whole2 V c t, whole3 V c t, whole4 V c t, whole5 V c t]
  obtain ⟨e00, e01, e10, e11, -, -, -, -, -, -, -, -, e60, e61⟩ := idx t
  funext y
  refine (pay_at _ _ _ _ _ _ y).trans ?_
  have hcol : ((((cfg5.win 6).blk t).view.emb y) 1 : Fin 256) = y 1 :=
    Fin.ext (by show win5_6.index t (1 : Fin 2) * 256 + 1 * (y 1).val = (y 1).val; rw [e61]; omega)
  show gruAt (a := 2000) (iblk5 V c 0 t) (iblk5 V c 1 t) (V c main_v4) (V c main_v5) _ _ (y 0) (y 1)
    = gruAt (a := 20000) (V c main_v57) (V c main_v41) (V c main_v4) (V c main_v5) _ _ ((((cfg5.win 6).blk t).view.emb y) 0) ((((cfg5.win 6).blk t).view.emb y) 1)
  rw [hcol]
  refine gruAt_congr _ _ _ _ (fun q => ?_) (fun q => ?_) (y 1)
  · show V c main_v57 (((cfg5.win 0).blk t).view.emb (ix2 (y 0) q)) = V c main_v57 (ix2 ((((cfg5.win 6).blk t).view.emb y) 0) q)
    congr 1; funext a; apply Fin.ext
    match a with
    | ⟨0, _⟩ => show win5_0.index t (0 : Fin 2) * 2000 + 1 * (y 0).val = win5_6.index t (0 : Fin 2) * 2000 + 1 * (y 0).val; rw [e00, e60]
    | ⟨1, _⟩ => show win5_0.index t (1 : Fin 2) * 256 + 1 * q.val = q.val; rw [e01]; omega
  · show V c main_v41 (((cfg5.win 1).blk t).view.emb (ix2 (y 0) q)) = V c main_v41 (ix2 ((((cfg5.win 6).blk t).view.emb y) 0) q)
    congr 1; funext a; apply Fin.ext
    match a with
    | ⟨0, _⟩ => show win5_1.index t (0 : Fin 2) * 2000 + 1 * (y 0).val = win5_6.index t (0 : Fin 2) * 2000 + 1 * (y 0).val; rw [e10, e60]
    | ⟨1, _⟩ => show win5_1.index t (1 : Fin 2) * 256 + 1 * q.val = q.val; rw [e11]; omega

set_option maxHeartbeats 1600000 in
/-- An index of the result is in point `t`'s block iff each coordinate is in the block's range on its axis. -/
theorem mem_blk (t : Fin cfg5.N) (i : S20000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v58).slice (win5_6.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg5.N, (cfg5.win 6).flush t = true ∧ i ∈ ((cfg5.win 6).blk t).view.set := by
  have hi0 : (i 0).val < 20000 := (i 0).isLt
  have hi1 : (i 1).val < 256 := (i 1).isLt
  have hN : cfg5.N = 10 := N_5
  refine ⟨⟨(i 0).val / 2000, by rw [hN]; omega⟩, flush5_6 _, ?_⟩
  rw [mem_blk]
  obtain ⟨-, -, -, -, -, -, -, -, -, -, -, -, e60, e61⟩ := idx ⟨(i 0).val / 2000, by rw [hN]; omega⟩
  intro a
  match a with
  | ⟨0, _⟩ => show win5_6.index _ (0 : Fin 2) * 2000 ≤ (i 0).val ∧ (i 0).val < win5_6.index _ (0 : Fin 2) * 2000 + 2000; rw [e60]; show (i 0).val / 2000 * 2000 ≤ (i 0).val ∧ (i 0).val < (i 0).val / 2000 * 2000 + 2000; omega
  | ⟨1, _⟩ => show win5_6.index _ (1 : Fin 2) * 256 ≤ (i 1).val ∧ (i 1).val < win5_6.index _ (1 : Fin 2) * 256 + 256; rw [e61]; omega

set_option maxHeartbeats 1600000 in
/-- After the call its result array is the gated update of the arrays it was entered with. -/
theorem final (c : Dev nD) : (dat5 V c).arrAt 6 cfg5.N
    = gruG (V c main_v57) (V c main_v41) (V c main_v4) (V c main_v5) (fun cc => V c main_v6 (ix2 (0 : Fin 1) cc)) (fun cc => V c main_v7 (ix2 (0 : Fin 1) cc)) :=
  (dat5 V c).arrAt_eq_of_cover 6 _ (fun t _ => flushed V c t) cover

end Cert.KernelIdeal.Gru5

end
-- ==== Proof.Chain2.lean ====
/-
  Layer 2 of the kernel program.

  The layer is a stretch that cuts the layer's weight out of the weight argument, the message call, the routing stretch
  (gather by source, scale, scatter-add by target) and the update call.  Reading the four segments in order — each host
  stretch's result buffer as the stretch's operations of the buffers before it, each call's result array as the
  whole-array function of the arrays it was entered with, every other buffer carried unchanged — the state after the
  layer is `Layer.layerG` of the state before it, with the routing, the transposed matrices and the bias rows as the
  first stretch left them.
-/
import proofs.«109821_j77129022701746_1_alg».proof.Proof.Route
import proofs.«109821_j77129022701746_1_alg».proof.Proof.Carry
import proofs.«109821_j77129022701746_1_alg».proof.Proof.Msg4
import proofs.«109821_j77129022701746_1_alg».proof.Proof.Gru5
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo Cert.GateCell Cert.Layer

variable (m : (ℓ : Loc nD τ sig) → Buf (Elt Ideal) ℓ) (ρ : Dev nD → PrngReg)

set_option maxHeartbeats 16000000 in
/-- Layer 2's weight, as the stretch before the message call leaves it: slice 2 of the weight argument. -/
theorem weight2 (c : Dev nD) : W9 m ρ c (Proc.devRef .tc main_v43) = wsl2 (W8 m ρ c (Proc.devRef .tc main_arg3)) := by
  show StableHlo.after hostOps4 (W8 m ρ c) (Proc.devRef .tc main_v43) = _
  after_results
  rfl

set_option maxHeartbeats 16000000 in
/-- Layer 2's aggregate, as the routing stretch leaves it: the routing of the messages by the edge endpoints and weights. -/
theorem agg2 (c : Dev nD) : W11 m ρ c (Proc.devRef .tc main_v57)
    = route (W10 m ρ c (Proc.devRef .tc main_v1)) (W10 m ρ c (Proc.devRef .tc main_v3)) (W10 m ρ c (Proc.devRef .tc main_arg2))
        (W10 m ρ c (Proc.devRef .tc main_v44)) := by
  show StableHlo.after hostOps5 (W10 m ρ c) (Proc.devRef .tc main_v57) = _
  after_results
  rfl

set_option maxHeartbeats 4000000 in
/-- Layer 2: the state after the layer's update call is `layerG` of the state before the layer. -/
theorem layer2 (c : Dev nD) : W12 m ρ c (Proc.devRef .tc main_v58)
    = layerG (route (W1 m ρ c (Proc.devRef .tc main_v1)) (W1 m ρ c (Proc.devRef .tc main_v3)) (W1 m ρ c (Proc.devRef .tc main_arg2)))
        (wsl2 (W1 m ρ c (Proc.devRef .tc main_arg3))) (W1 m ρ c (Proc.devRef .tc main_v4)) (W1 m ρ c (Proc.devRef .tc main_v5))
        (fun cc => W1 m ρ c (Proc.devRef .tc main_v6) (ix2 (0 : Fin 1) cc)) (fun cc => W1 m ρ c (Proc.devRef .tc main_v7) (ix2 (0 : Fin 1) cc))
        (W8 m ρ c (Proc.devRef .tc main_v41)) := by
  -- the state and the weight as the message call finds them
  have hh : W9 m ρ c (Proc.devRef .tc main_v41) = W8 m ρ c (Proc.devRef .tc main_v41) := Carry.keep_host4 (W8 m ρ c) main_v41 (by decide)
  have hw : W9 m ρ c (Proc.devRef .tc main_v43) = wsl2 (W1 m ρ c (Proc.devRef .tc main_arg3)) :=
    (weight2 m ρ c).trans (congrArg wsl2 (Carry.to1_8 m ρ c main_arg3 (by decide)))
  -- the messages after the message call, and the state carried through it
  have hm : W10 m ρ c (Proc.devRef .tc main_v44) = msgG (W8 m ρ c (Proc.devRef .tc main_v41)) (wsl2 (W1 m ρ c (Proc.devRef .tc main_arg3))) := by
    refine ((W10_arr m ρ c 2).trans (Msg4.final (V9 m ρ) c)).trans ?_
    show msgG (W9 m ρ c (Proc.devRef .tc main_v41)) (W9 m ρ c (Proc.devRef .tc main_v43)) = _
    rw [hh, hw]
  have hh2 : W10 m ρ c (Proc.devRef .tc main_v41) = W8 m ρ c (Proc.devRef .tc main_v41) :=
    ((W10_arr m ρ c 0).trans (Msg4.kept (V9 m ρ) c)).trans hh
  -- the aggregate the routing stretch computes, and the state carried through the stretch
  have hagg : W11 m ρ c (Proc.devRef .tc main_v57)
      = route (W1 m ρ c (Proc.devRef .tc main_v1)) (W1 m ρ c (Proc.devRef .tc main_v3)) (W1 m ρ c (Proc.devRef .tc main_arg2))
          (msgG (W8 m ρ c (Proc.devRef .tc main_v41)) (wsl2 (W1 m ρ c (Proc.devRef .tc main_arg3)))) := by
    rw [agg2 m ρ c, hm, Carry.to1_10 m ρ c main_v1 (by decide), Carry.to1_10 m ρ c main_v3 (by decide), Carry.to1_10 m ρ c main_arg2 (by decide)]
  have hh3 : W11 m ρ c (Proc.devRef .tc main_v41) = W8 m ρ c (Proc.devRef .tc main_v41) :=
    (Carry.keep_host5 (W10 m ρ c) main_v41 (by decide)).trans hh2
  -- the update call
  refine ((W12_arr m ρ c 6).trans (Gru5.final (V11 m ρ) c)).trans ?_
  show gruG (W11 m ρ c (Proc.devRef .tc main_v57)) (W11 m ρ c (Proc.devRef .tc main_v41)) (W11 m ρ c (Proc.devRef .tc main_v4)) (W11 m ρ c (Proc.devRef .tc main_v5))
      (fun cc => W11 m ρ c (Proc.devRef .tc main_v6) (ix2 (0 : Fin 1) cc)) (fun cc => W11 m ρ c (Proc.devRef .tc main_v7) (ix2 (0 : Fin 1) cc)) = _
  rw [hagg, hh3, Carry.to1_11 m ρ c main_v4 (by decide), Carry.to1_11 m ρ c main_v5 (by decide), Carry.to1_11 m ρ c main_v6 (by decide), Carry.to1_11 m ρ c main_v7 (by decide)]
  rfl

end Cert.KernelIdeal.Chain

end
-- ==== Proof.Msg6.lean ====
/-
  Kernel call 6: the message product, from blocks to the whole array.

  The call walks the state in ten blocks of 2000 rows; at block `t` it multiplies rows `2000 t … 2000 t + 1999` by the
  whole weight matrix and writes the product back to the same rows of its result.  The ten row blocks tile the result,
  so after the call the result array is the state times the weight, entry by entry.  Stated at any contents `V` the
  call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Msg6

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the state and the result move one row block per point, the weight stays. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The payload at any index of the block. -/
theorem pay_at (x0 : Vec Ideal S2000x256 .f32) (x1 : Vec Ideal S256x256 .f32) (y : S2000x256.Idx) :
    k6_pay1 (F := Ideal) x0 x1 y = prodAt x0 x1 (y 0) (y 1) :=
  (congrArg (k6_pay1 (F := Ideal) x0 x1) (eq_ix2 y)).trans (Payload.msg6_ix2 x0 x1 (y 0) (y 1))

set_option maxHeartbeats 4000000 in
/-- What point `t` writes back is block `t` of the product of the arrays the call finds. -/
theorem flushed (c : Dev nD) (t : Fin cfg6.N) :
    (dat6 V c).flushed 2 t = ((cfg6.win 2).blk t).view.read (Elt Ideal) (msgG (V c main_v58) (V c main_v60)) := by
  show (cfg6.win 2).cut (grid6.coords t) ((dat6 V c).after 2 t) = _
  rw [after6_2]
  unfold out6_2
  rw [View.canon_unit_zero hz]
  simp only [View.ld_unit_zero (S := S2000x256) hz, View.ld_unit_zero (S := S256x256) hz]
  obtain ⟨e00, e01, e10, e11, e20, e21⟩ := idx t
  funext y
  refine (pay_at _ _ y).trans ?_
  show prodAt (iblk6 V c 0 t) (iblk6 V c 1 t) (y 0) (y 1)
    = prodAt (V c main_v58) (V c main_v60) ((((cfg6.win 2).blk t).view.emb y) 0) ((((cfg6.win 2).blk t).view.emb y) 1)
  unfold prodAt
  refine Finset.sum_congr rfl fun q _ => ?_
  congr 1
  · show V c main_v58 (((cfg6.win 0).blk t).view.emb (ix2 (y 0) q)) = V c main_v58 (ix2 ((((cfg6.win 2).blk t).view.emb y) 0) q)
    congr 1; funext a; apply Fin.ext
    match a with
    | ⟨0, _⟩ => show win6_0.index t (0 : Fin 2) * 2000 + 1 * (y 0).val = win6_2.index t (0 : Fin 2) * 2000 + 1 * (y 0).val; rw [e00, e20]
    | ⟨1, _⟩ => show win6_0.index t (1 : Fin 2) * 256 + 1 * q.val = q.val; rw [e01]; omega
  · show V c main_v60 (((cfg6.win 1).blk t).view.emb (ix2 q (y 1))) = V c main_v60 (ix2 q ((((cfg6.win 2).blk t).view.emb y) 1))
    congr 1; funext a; apply Fin.ext
    match a with
    | ⟨0, _⟩ => show win6_1.index t (0 : Fin 2) * 256 + 1 * q.val = q.val; rw [e10]; omega
    | ⟨1, _⟩ => show win6_1.index t (1 : Fin 2) * 256 + 1 * (y 1).val = win6_2.index t (1 : Fin 2) * 256 + 1 * (y 1).val; rw [e11, e21]

set_option maxHeartbeats 1600000 in
/-- An index of the result is in point `t`'s block iff each coordinate is in the block's range on its axis. -/
theorem mem_blk (t : Fin cfg6.N) (i : S20000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v61).slice (win6_2.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg6.N, (cfg6.win 2).flush t = true ∧ i ∈ ((cfg6.win 2).blk t).view.set := by
  have hi0 : (i 0).val < 20000 := (i 0).isLt
  have hi1 : (i 1).val < 256 := (i 1).isLt
  have hN : cfg6.N = 10 := N_6
  refine ⟨⟨(i 0).val / 2000, by rw [hN]; omega⟩, flush6_2 _, ?_⟩
  rw [mem_blk]
  obtain ⟨-, -, -, -, e20, e21⟩ := idx ⟨(i 0).val / 2000, by rw [hN]; omega⟩
  intro a
  match a with
  | ⟨0, _⟩ => show win6_2.index _ (0 : Fin 2) * 2000 ≤ (i 0).val ∧ (i 0).val < win6_2.index _ (0 : Fin 2) * 2000 + 2000; rw [e20]; show (i 0).val / 2000 * 2000 ≤ (i 0).val ∧ (i 0).val < (i 0).val / 2000 * 2000 + 2000; omega
  | ⟨1, _⟩ => show win6_2.index _ (1 : Fin 2) * 256 ≤ (i 1).val ∧ (i 1).val < win6_2.index _ (1 : Fin 2) * 256 + 256; rw [e21]; omega

set_option maxHeartbeats 1600000 in
/-- After the call its result array is the product of the state and the weight it was entered with. -/
theorem final (c : Dev nD) : (dat6 V c).arrAt 2 cfg6.N = msgG (V c main_v58) (V c main_v60) :=
  (dat6 V c).arrAt_eq_of_cover 2 (msgG (V c main_v58) (V c main_v60)) (fun t _ => flushed V c t) cover

set_option maxHeartbeats 1600000 in
/-- The state array is an input of the call: it ends as it was entered. -/
theorem kept (c : Dev nD) : (dat6 V c).arrAt 0 cfg6.N = V c main_v58 :=
  ((dat6 V c).arrAt_in 0 rfl cfg6.N).trans (A_eq6 V c 0)

end Cert.KernelIdeal.Msg6

end
-- ==== Proof.Gru7.lean ====
/-
  Kernel call 7: the gated update, from blocks to the whole array.

  The call walks the aggregated messages and the state in ten blocks of 2000 rows, with the two [256, 768] matrices and
  the two bias rows whole at every point; at block `t` it updates rows `2000 t … 2000 t + 1999` and writes them back to
  the same rows of its result.  An entry's update reads the aggregate and the state only in the entry's own row, so the
  block's update is the whole array's update read through the block, and the ten row blocks tile the result.  Stated at
  any contents `V` the call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Gru7

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate, the state and the result move one row block per point, the
    matrices and the bias rows stay. -/
theorem idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- The payload at any index of the block. -/
theorem pay_at (x0 x1 : Vec Ideal S2000x256 .f32) (x2 x3 : Vec Ideal S256x768 .f32) (x4 x5 : Vec Ideal S1x768 .f32) (y : S2000x256.Idx) :
    k7_pay1 (F := Ideal) x0 x1 x2 x3 x4 x5 y
      = gruAt x0 x1 x2 x3 (fun cc => x4 (ix2 (0 : Fin 1) cc)) (fun cc => x5 (ix2 (0 : Fin 1) cc)) (y 0) (y 1) :=
  (congrArg (k7_pay1 (F := Ideal) x0 x1 x2 x3 x4 x5) (eq_ix2 y)).trans (Payload.gru7_ix2 x0 x1 x2 x3 x4 x5 (y 0) (y 1))

set_option maxHeartbeats 1600000 in
/-- Window 2's block is its whole array at every point. -/
theorem whole2 (c : Dev nD) (t : Fin cfg7.N) : (iblk7 V c 2 t : Vec Ideal S256x768 .f32) = V c main_v4 := by
  obtain ⟨-, -, -, -, e20, e21, e30, e31, e40, e41, e50, e51, -, -⟩ := idx t
  funext y
  show V c main_v4 (((cfg7.win 2).blk t).view.emb y) = V c main_v4 y
  congr 1; funext a; apply Fin.ext
  match a with
  | ⟨0, _⟩ => show win7_2.index t (0 : Fin 2) * 256 + 1 * (y 0).val = (y 0).val; rw [e20]; omega
  | ⟨1, _⟩ => show win7_2.index t (1 : Fin 2) * 768 + 1 * (y 1).val = (y 1).val; rw [e21]; omega

set_option maxHeartbeats 1600000 in
/-- Window 3's block is its whole array at every point. -/
theorem whole3 (c : Dev nD) (t : Fin cfg7.N) : (iblk7 V c 3 t : Vec Ideal S256x768 .f32) = V c main_v5 := by
  obtain ⟨-, -, -, -, e20, e21, e30, e31, e40, e41, e50, e51, -, -⟩ := idx t
  funext y
  show V c main_v5 (((cfg7.win 3).blk t).view.emb y) = V c main_v5 y
  congr 1; funext a; apply Fin.ext
  match a with
  | ⟨0, _⟩ => show win7_3.index t (0 : Fin 2) * 256 + 1 * (y 0).val = (y 0).val; rw [e30]; omega
  | ⟨1, _⟩ => show win7_3.index t (1 : Fin 2) * 768 + 1 * (y 1).val = (y 1).val; rw [e31]; omega

set_option maxHeartbeats 1600000 in
/-- Window 4's block is its whole array at every point. -/
theorem whole4 (c : Dev nD) (t : Fin cfg7.N) : (iblk7 V c 4 t : Vec Ideal S1x768 .f32) = V c main_v6 := by
  obtain ⟨-, -, -, -, e20, e21, e30, e31, e40, e41, e50, e51, -, -⟩ := idx t
  funext y
  show V c main_v6 (((cfg7.win 4).blk t).view.emb y) = V c main_v6 y
  congr 1; funext a; apply Fin.ext
  match a with
  | ⟨0, _⟩ => show win7_4.index t (0 : Fin 2) * 1 + 1 * (y 0).val = (y 0).val; rw [e40]; omega
  | ⟨1, _⟩ => show win7_4.index t (1 : Fin 2) * 768 + 1 * (y 1).val = (y 1).val; rw [e41]; omega

set_option maxHeartbeats 1600000 in
/-- Window 5's block is its whole array at every point. -/
theorem whole5 (c : Dev nD) (t : Fin cfg7.N) : (iblk7 V c 5 t : Vec Ideal S1x768 .f32) = V c main_v7 := by
  obtain ⟨-, -, -, -, e20, e21, e30, e31, e40, e41, e50, e51, -, -⟩ := idx t
  funext y
  show V c main_v7 (((cfg7.win 5).blk t).view.emb y) = V c main_v7 y
  congr 1; funext a; apply Fin.ext
  match a with
  | ⟨0, _⟩ => show win7_5.index t (0 : Fin 2) * 1 + 1 * (y 0).val = (y 0).val; rw [e50]; omega
  | ⟨1, _⟩ => show win7_5.index t (1 : Fin 2) * 768 + 1 * (y 1).val = (y 1).val; rw [e51]; omega

set_option maxHeartbeats 4000000 in
/-- What point `t` writes back is block `t` of the update of the arrays the call finds. -/
theorem flushed (c : Dev nD) (t : Fin cfg7.N) :
    (dat7 V c).flushed 6 t = ((cfg7.win 6).blk t).view.read (Elt Ideal)
      (gruG (V c main_v74) (V c main_v58) (V c main_v4) (V c main_v5) (fun cc => V c main_v6 (ix2 (0 : Fin 1) cc)) (fun cc => V c main_v7 (ix2 (0 : Fin 1) cc))) := by
  show (cfg7.win 6).cut (grid7.coords t) ((dat7 V c).after 6 t) = _
  rw [after7_6]
  unfold out7_6
  rw [View.canon_unit_zero hz]
  simp only [View.ld_unit_zero (S := S2000x256) hz, View.ld_unit_zero (S := S256x768) hz, View.ld_unit_zero (S := S1x768) hz]
  rw [whole2 V c t, whole3 V c t, whole4 V c t, whole5 V c t]
  obtain ⟨e00, e01, e10, e11, -, -, -, -, -, -, -, -, e60, e61⟩ := idx t
  funext y
  refine (pay_at _ _ _ _ _ _ y).trans ?_
  have hcol : ((((cfg7.win 6).blk t).view.emb y) 1 : Fin 256) = y 1 :=
    Fin.ext (by show win7_6.index t (1 : Fin 2) * 256 + 1 * (y 1).val = (y 1).val; rw [e61]; omega)
  show gruAt (a := 2000) (iblk7 V c 0 t) (iblk7 V c 1 t) (V c main_v4) (V c main_v5) _ _ (y 0) (y 1)
    = gruAt (a := 20000) (V c main_v74) (V c main_v58) (V c main_v4) (V c main_v5) _ _ ((((cfg7.win 6).blk t).view.emb y) 0) ((((cfg7.win 6).blk t).view.emb y) 1)
  rw [hcol]
  refine gruAt_congr _ _ _ _ (fun q => ?_) (fun q => ?_) (y 1)
  · show V c main_v74 (((cfg7.win 0).blk t).view.emb (ix2 (y 0) q)) = V c main_v74 (ix2 ((((cfg7.win 6).blk t).view.emb y) 0) q)
    congr 1; funext a; apply Fin.ext
    match a with
    | ⟨0, _⟩ => show win7_0.index t (0 : Fin 2) * 2000 + 1 * (y 0).val = win7_6.index t (0 : Fin 2) * 2000 + 1 * (y 0).val; rw [e00, e60]
    | ⟨1, _⟩ => show win7_0.index t (1 : Fin 2) * 256 + 1 * q.val = q.val; rw [e01]; omega
  · show V c main_v58 (((cfg7.win 1).blk t).view.emb (ix2 (y 0) q)) = V c main_v58 (ix2 ((((cfg7.win 6).blk t).view.emb y) 0) q)
    congr 1; funext a; apply Fin.ext
    match a with
    | ⟨0, _⟩ => show win7_1.index t (0 : Fin 2) * 2000 + 1 * (y 0).val = win7_6.index t (0 : Fin 2) * 2000 + 1 * (y 0).val; rw [e10, e60]
    | ⟨1, _⟩ => show win7_1.index t (1 : Fin 2) * 256 + 1 * q.val = q.val; rw [e11]; omega

set_option maxHeartbeats 1600000 in
/-- An index of the result is in point `t`'s block iff each coordinate is in the block's range on its axis. -/
theorem mem_blk (t : Fin cfg7.N) (i : S20000x256.Idx) :
    i ∈ ((cfg7.win 6).blk t).view.set ↔ ∀ a : Fin 2, win7_6.index t a * S2000x256.size a ≤ (i a).val ∧ (i a).val < win7_6.index t a * S2000x256.size a + S2000x256.size a := by
  show i ∈ ((View.whole main_v75).slice (win7_6.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg7.N, (cfg7.win 6).flush t = true ∧ i ∈ ((cfg7.win 6).blk t).view.set := by
  have hi0 : (i 0).val < 20000 := (i 0).isLt
  have hi1 : (i 1).val < 256 := (i 1).isLt
  have hN : cfg7.N = 10 := N_7
  refine ⟨⟨(i 0).val / 2000, by rw [hN]; omega⟩, flush7_6 _, ?_⟩
  rw [mem_blk]
  obtain ⟨-, -, -, -, -, -, -, -, -, -, -, -, e60, e61⟩ := idx ⟨(i 0).val / 2000, by rw [hN]; omega⟩
  intro a
  match a with
  | ⟨0, _⟩ => show win7_6.index _ (0 : Fin 2) * 2000 ≤ (i 0).val ∧ (i 0).val < win7_6.index _ (0 : Fin 2) * 2000 + 2000; rw [e60]; show (i 0).val / 2000 * 2000 ≤ (i 0).val ∧ (i 0).val < (i 0).val / 2000 * 2000 + 2000; omega
  | ⟨1, _⟩ => show win7_6.index _ (1 : Fin 2) * 256 ≤ (i 1).val ∧ (i 1).val < win7_6.index _ (1 : Fin 2) * 256 + 256; rw [e61]; omega

set_option maxHeartbeats 1600000 in
/-- After the call its result array is the gated update of the arrays it was entered with. -/
theorem final (c : Dev nD) : (dat7 V c).arrAt 6 cfg7.N
    = gruG (V c main_v74) (V c main_v58) (V c main_v4) (V c main_v5) (fun cc => V c main_v6 (ix2 (0 : Fin 1) cc)) (fun cc => V c main_v7 (ix2 (0 : Fin 1) cc)) :=
  (dat7 V c).arrAt_eq_of_cover 6 _ (fun t _ => flushed V c t) cover

end Cert.KernelIdeal.Gru7

end
-- ==== Proof.Chain3.lean ====
/-
  Layer 3 of the kernel program.

  The layer is a stretch that cuts the layer's weight out of the weight argument, the message call, the routing stretch
  (gather by source, scale, scatter-add by target) and the update call.  Reading the four segments in order — each host
  stretch's result buffer as the stretch's operations of the buffers before it, each call's result array as the
  whole-array function of the arrays it was entered with, every other buffer carried unchanged — the state after the
  layer is `Layer.layerG` of the state before it, with the routing, the transposed matrices and the bias rows as the
  first stretch left them.
-/
import proofs.«109821_j77129022701746_1_alg».proof.Proof.Route
import proofs.«109821_j77129022701746_1_alg».proof.Proof.Carry
import proofs.«109821_j77129022701746_1_alg».proof.Proof.Msg6
import proofs.«109821_j77129022701746_1_alg».proof.Proof.Gru7
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo Cert.GateCell Cert.Layer

variable (m : (ℓ : Loc nD τ sig) → Buf (Elt Ideal) ℓ) (ρ : Dev nD → PrngReg)

set_option maxHeartbeats 16000000 in
/-- Layer 3's weight, as the stretch before the message call leaves it: slice 3 of the weight argument. -/
theorem weight3 (c : Dev nD) : W13 m ρ c (Proc.devRef .tc main_v60) = wsl3 (W12 m ρ c (Proc.devRef .tc main_arg3)) := by
  show StableHlo.after hostOps6 (W12 m ρ c) (Proc.devRef .tc main_v60) = _
  after_results
  rfl

set_option maxHeartbeats 16000000 in
/-- Layer 3's aggregate, as the routing stretch leaves it: the routing of the messages by the edge endpoints and weights. -/
theorem agg3 (c : Dev nD) : W15 m ρ c (Proc.devRef .tc main_v74)
    = route (W14 m ρ c (Proc.devRef .tc main_v1)) (W14 m ρ c (Proc.devRef .tc main_v3)) (W14 m ρ c (Proc.devRef .tc main_arg2))
        (W14 m ρ c (Proc.devRef .tc main_v61)) := by
  show StableHlo.after hostOps7 (W14 m ρ c) (Proc.devRef .tc main_v74) = _
  after_results
  rfl

set_option maxHeartbeats 4000000 in
/-- Layer 3: the state after the layer's update call is `layerG` of the state before the layer. -/
theorem layer3 (c : Dev nD) : W16 m ρ c (Proc.devRef .tc main_v75)
    = layerG (route (W1 m ρ c (Proc.devRef .tc main_v1)) (W1 m ρ c (Proc.devRef .tc main_v3)) (W1 m ρ c (Proc.devRef .tc main_arg2)))
        (wsl3 (W1 m ρ c (Proc.devRef .tc main_arg3))) (W1 m ρ c (Proc.devRef .tc main_v4)) (W1 m ρ c (Proc.devRef .tc main_v5))
        (fun cc => W1 m ρ c (Proc.devRef .tc main_v6) (ix2 (0 : Fin 1) cc)) (fun cc => W1 m ρ c (Proc.devRef .tc main_v7) (ix2 (0 : Fin 1) cc))
        (W12 m ρ c (Proc.devRef .tc main_v58)) := by
  -- the state and the weight as the message call finds them
  have hh : W13 m ρ c (Proc.devRef .tc main_v58) = W12 m ρ c (Proc.devRef .tc main_v58) := Carry.keep_host6 (W12 m ρ c) main_v58 (by decide)
  have hw : W13 m ρ c (Proc.devRef .tc main_v60) = wsl3 (W1 m ρ c (Proc.devRef .tc main_arg3)) :=
    (weight3 m ρ c).trans (congrArg wsl3 (Carry.to1_12 m ρ c main_arg3 (by decide)))
  -- the messages after the message call, and the state carried through it
  have hm : W14 m ρ c (Proc.devRef .tc main_v61) = msgG (W12 m ρ c (Proc.devRef .tc main_v58)) (wsl3 (W1 m ρ c (Proc.devRef .tc main_arg3))) := by
    refine ((W14_arr m ρ c 2).trans (Msg6.final (V13 m ρ) c)).trans ?_
    show msgG (W13 m ρ c (Proc.devRef .tc main_v58)) (W13 m ρ c (Proc.devRef .tc main_v60)) = _
    rw [hh, hw]
  have hh2 : W14 m ρ c (Proc.devRef .tc main_v58) = W12 m ρ c (Proc.devRef .tc main_v58) :=
    ((W14_arr m ρ c 0).trans (Msg6.kept (V13 m ρ) c)).trans hh
  -- the aggregate the routing stretch computes, and the state carried through the stretch
  have hagg : W15 m ρ c (Proc.devRef .tc main_v74)
      = route (W1 m ρ c (Proc.devRef .tc main_v1)) (W1 m ρ c (Proc.devRef .tc main_v3)) (W1 m ρ c (Proc.devRef .tc main_arg2))
          (msgG (W12 m ρ c (Proc.devRef .tc main_v58)) (wsl3 (W1 m ρ c (Proc.devRef .tc main_arg3)))) := by
    rw [agg3 m ρ c, hm, Carry.to1_14 m ρ c main_v1 (by decide), Carry.to1_14 m ρ c main_v3 (by decide), Carry.to1_14 m ρ c main_arg2 (by decide)]
  have hh3 : W15 m ρ c (Proc.devRef .tc main_v58) = W12 m ρ c (Proc.devRef .tc main_v58) :=
    (Carry.keep_host7 (W14 m ρ c) main_v58 (by decide)).trans hh2
  -- the update call
  refine ((W16_arr m ρ c 6).trans (Gru7.final (V15 m ρ) c)).trans ?_
  show gruG (W15 m ρ c (Proc.devRef .tc main_v74)) (W15 m ρ c (Proc.devRef .tc main_v58)) (W15 m ρ c (Proc.devRef .tc main_v4)) (W15 m ρ c (Proc.devRef .tc main_v5))
      (fun cc => W15 m ρ c (Proc.devRef .tc main_v6) (ix2 (0 : Fin 1) cc)) (fun cc => W15 m ρ c (Proc.devRef .tc main_v7) (ix2 (0 : Fin 1) cc)) = _
  rw [hagg, hh3, Carry.to1_15 m ρ c main_v4 (by decide), Carry.to1_15 m ρ c main_v5 (by decide), Carry.to1_15 m ρ c main_v6 (by decide), Carry.to1_15 m ρ c main_v7 (by decide)]
  rfl

end Cert.KernelIdeal.Chain

end
-- ==== Proof.Msg8.lean ====
/-
  Kernel call 8: the message product, from blocks to the whole array.

  The call walks the state in ten blocks of 2000 rows; at block `t` it multiplies rows `2000 t … 2000 t + 1999` by the
  whole weight matrix and writes the product back to the same rows of its result.  The ten row blocks tile the result,
  so after the call the result array is the state times the weight, entry by entry.  Stated at any contents `V` the
  call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Msg8

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the state and the result move one row block per point, the weight stays. -/
theorem idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The payload at any index of the block. -/
theorem pay_at (x0 : Vec Ideal S2000x256 .f32) (x1 : Vec Ideal S256x256 .f32) (y : S2000x256.Idx) :
    k8_pay1 (F := Ideal) x0 x1 y = prodAt x0 x1 (y 0) (y 1) :=
  (congrArg (k8_pay1 (F := Ideal) x0 x1) (eq_ix2 y)).trans (Payload.msg8_ix2 x0 x1 (y 0) (y 1))

set_option maxHeartbeats 4000000 in
/-- What point `t` writes back is block `t` of the product of the arrays the call finds. -/
theorem flushed (c : Dev nD) (t : Fin cfg8.N) :
    (dat8 V c).flushed 2 t = ((cfg8.win 2).blk t).view.read (Elt Ideal) (msgG (V c main_v75) (V c main_v77)) := by
  show (cfg8.win 2).cut (grid8.coords t) ((dat8 V c).after 2 t) = _
  rw [after8_2]
  unfold out8_2
  rw [View.canon_unit_zero hz]
  simp only [View.ld_unit_zero (S := S2000x256) hz, View.ld_unit_zero (S := S256x256) hz]
  obtain ⟨e00, e01, e10, e11, e20, e21⟩ := idx t
  funext y
  refine (pay_at _ _ y).trans ?_
  show prodAt (iblk8 V c 0 t) (iblk8 V c 1 t) (y 0) (y 1)
    = prodAt (V c main_v75) (V c main_v77) ((((cfg8.win 2).blk t).view.emb y) 0) ((((cfg8.win 2).blk t).view.emb y) 1)
  unfold prodAt
  refine Finset.sum_congr rfl fun q _ => ?_
  congr 1
  · show V c main_v75 (((cfg8.win 0).blk t).view.emb (ix2 (y 0) q)) = V c main_v75 (ix2 ((((cfg8.win 2).blk t).view.emb y) 0) q)
    congr 1; funext a; apply Fin.ext
    match a with
    | ⟨0, _⟩ => show win8_0.index t (0 : Fin 2) * 2000 + 1 * (y 0).val = win8_2.index t (0 : Fin 2) * 2000 + 1 * (y 0).val; rw [e00, e20]
    | ⟨1, _⟩ => show win8_0.index t (1 : Fin 2) * 256 + 1 * q.val = q.val; rw [e01]; omega
  · show V c main_v77 (((cfg8.win 1).blk t).view.emb (ix2 q (y 1))) = V c main_v77 (ix2 q ((((cfg8.win 2).blk t).view.emb y) 1))
    congr 1; funext a; apply Fin.ext
    match a with
    | ⟨0, _⟩ => show win8_1.index t (0 : Fin 2) * 256 + 1 * q.val = q.val; rw [e10]; omega
    | ⟨1, _⟩ => show win8_1.index t (1 : Fin 2) * 256 + 1 * (y 1).val = win8_2.index t (1 : Fin 2) * 256 + 1 * (y 1).val; rw [e11, e21]

set_option maxHeartbeats 1600000 in
/-- An index of the result is in point `t`'s block iff each coordinate is in the block's range on its axis. -/
theorem mem_blk (t : Fin cfg8.N) (i : S20000x256.Idx) :
    i ∈ ((cfg8.win 2).blk t).view.set ↔ ∀ a : Fin 2, win8_2.index t a * S2000x256.size a ≤ (i a).val ∧ (i a).val < win8_2.index t a * S2000x256.size a + S2000x256.size a := by
  show i ∈ ((View.whole main_v78).slice (win8_2.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg8.N, (cfg8.win 2).flush t = true ∧ i ∈ ((cfg8.win 2).blk t).view.set := by
  have hi0 : (i 0).val < 20000 := (i 0).isLt
  have hi1 : (i 1).val < 256 := (i 1).isLt
  have hN : cfg8.N = 10 := N_8
  refine ⟨⟨(i 0).val / 2000, by rw [hN]; omega⟩, flush8_2 _, ?_⟩
  rw [mem_blk]
  obtain ⟨-, -, -, -, e20, e21⟩ := idx ⟨(i 0).val / 2000, by rw [hN]; omega⟩
  intro a
  match a with
  | ⟨0, _⟩ => show win8_2.index _ (0 : Fin 2) * 2000 ≤ (i 0).val ∧ (i 0).val < win8_2.index _ (0 : Fin 2) * 2000 + 2000; rw [e20]; show (i 0).val / 2000 * 2000 ≤ (i 0).val ∧ (i 0).val < (i 0).val / 2000 * 2000 + 2000; omega
  | ⟨1, _⟩ => show win8_2.index _ (1 : Fin 2) * 256 ≤ (i 1).val ∧ (i 1).val < win8_2.index _ (1 : Fin 2) * 256 + 256; rw [e21]; omega

set_option maxHeartbeats 1600000 in
/-- After the call its result array is the product of the state and the weight it was entered with. -/
theorem final (c : Dev nD) : (dat8 V c).arrAt 2 cfg8.N = msgG (V c main_v75) (V c main_v77) :=
  (dat8 V c).arrAt_eq_of_cover 2 (msgG (V c main_v75) (V c main_v77)) (fun t _ => flushed V c t) cover

set_option maxHeartbeats 1600000 in
/-- The state array is an input of the call: it ends as it was entered. -/
theorem kept (c : Dev nD) : (dat8 V c).arrAt 0 cfg8.N = V c main_v75 :=
  ((dat8 V c).arrAt_in 0 rfl cfg8.N).trans (A_eq8 V c 0)

end Cert.KernelIdeal.Msg8

end
-- ==== Proof.Gru9.lean ====
/-
  Kernel call 9: the gated update, from blocks to the whole array.

  The call walks the aggregated messages and the state in ten blocks of 2000 rows, with the two [256, 768] matrices and
  the two bias rows whole at every point; at block `t` it updates rows `2000 t … 2000 t + 1999` and writes them back to
  the same rows of its result.  An entry's update reads the aggregate and the state only in the entry's own row, so the
  block's update is the whole array's update read through the block, and the ten row blocks tile the result.  Stated at
  any contents `V` the call is entered with.
-/
import proofs.«109821_j77129022701746_1_alg».proof.Proof.Gen.KernelIdeal.Frame
import proofs.«109821_j77129022701746_1_alg».proof.Proof.Payload
import proofs.«109821_j77129022701746_1_alg».proof.Proof.Layer
import Idealize.ShloMosaic.Lib.Pipeline.Value

set_option maxRecDepth 16384

noncomputable section

namespace Cert.KernelIdeal.Gru9

open Cert.KernelIdeal Cert.KernelIdeal.Gen Idealize.ShloMosaic Idealize.ShloMosaic.TcCoe Idealize.ShloMosaic.ValueIdx
open Idealize.SL.Sem Cert.GateCell Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate, the state and the result move one row block per point, the
    matrices and the bias rows stay. -/
theorem idx : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- The payload at any index of the block. -/
theorem pay_at (x0 x1 : Vec Ideal S2000x256 .f32) (x2 x3 : Vec Ideal S256x768 .f32) (x4 x5 : Vec Ideal S1x768 .f32) (y : S2000x256.Idx) :
    k9_pay1 (F := Ideal) x0 x1 x2 x3 x4 x5 y
      = gruAt x0 x1 x2 x3 (fun cc => x4 (ix2 (0 : Fin 1) cc)) (fun cc => x5 (ix2 (0 : Fin 1) cc)) (y 0) (y 1) :=
  (congrArg (k9_pay1 (F := Ideal) x0 x1 x2 x3 x4 x5) (eq_ix2 y)).trans (Payload.gru9_ix2 x0 x1 x2 x3 x4 x5 (y 0) (y 1))

set_option maxHeartbeats 1600000 in
/-- Window 2's block is its whole array at every point. -/
theorem whole2 (c : Dev nD) (t : Fin cfg9.N) : (iblk9 V c 2 t : Vec Ideal S256x768 .f32) = V c main_v4 := by
  obtain ⟨-, -, -, -, e20, e21, e30, e31, e40, e41, e50, e51, -, -⟩ := idx t
  funext y
  show V c main_v4 (((cfg9.win 2).blk t).view.emb y) = V c main_v4 y
  congr 1; funext a; apply Fin.ext
  match a with
  | ⟨0, _⟩ => show win9_2.index t (0 : Fin 2) * 256 + 1 * (y 0).val = (y 0).val; rw [e20]; omega
  | ⟨1, _⟩ => show win9_2.index t (1 : Fin 2) * 768 + 1 * (y 1).val = (y 1).val; rw [e21]; omega

set_option maxHeartbeats 1600000 in
/-- Window 3's block is its whole array at every point. -/
theorem whole3 (c : Dev nD) (t : Fin cfg9.N) : (iblk9 V c 3 t : Vec Ideal S256x768 .f32) = V c main_v5 := by
  obtain ⟨-, -, -, -, e20, e21, e30, e31, e40, e41, e50, e51, -, -⟩ := idx t
  funext y
  show V c main_v5 (((cfg9.win 3).blk t).view.emb y) = V c main_v5 y
  congr 1; funext a; apply Fin.ext
  match a with
  | ⟨0, _⟩ => show win9_3.index t (0 : Fin 2) * 256 + 1 * (y 0).val = (y 0).val; rw [e30]; omega
  | ⟨1, _⟩ => show win9_3.index t (1 : Fin 2) * 768 + 1 * (y 1).val = (y 1).val; rw [e31]; omega

set_option maxHeartbeats 1600000 in
/-- Window 4's block is its whole array at every point. -/
theorem whole4 (c : Dev nD) (t : Fin cfg9.N) : (iblk9 V c 4 t : Vec Ideal S1x768 .f32) = V c main_v6 := by
  obtain ⟨-, -, -, -, e20, e21, e30, e31, e40, e41, e50, e51, -, -⟩ := idx t
  funext y
  show V c main_v6 (((cfg9.win 4).blk t).view.emb y) = V c main_v6 y
  congr 1; funext a; apply Fin.ext
  match a with
  | ⟨0, _⟩ => show win9_4.index t (0 : Fin 2) * 1 + 1 * (y 0).val = (y 0).val; rw [e40]; omega
  | ⟨1, _⟩ => show win9_4.index t (1 : Fin 2) * 768 + 1 * (y 1).val = (y 1).val; rw [e41]; omega

set_option maxHeartbeats 1600000 in
/-- Window 5's block is its whole array at every point. -/
theorem whole5 (c : Dev nD) (t : Fin cfg9.N) : (iblk9 V c 5 t : Vec Ideal S1x768 .f32) = V c main_v7 := by
  obtain ⟨-, -, -, -, e20, e21, e30, e31, e40, e41, e50, e51, -, -⟩ := idx t
  funext y
  show V c main_v7 (((cfg9.win 5).blk t).view.emb y) = V c main_v7 y
  congr 1; funext a; apply Fin.ext
  match a with
  | ⟨0, _⟩ => show win9_5.index t (0 : Fin 2) * 1 + 1 * (y 0).val = (y 0).val; rw [e50]; omega
  | ⟨1, _⟩ => show win9_5.index t (1 : Fin 2) * 768 + 1 * (y 1).val = (y 1).val; rw [e51]; omega

set_option maxHeartbeats 4000000 in
/-- What point `t` writes back is block `t` of the update of the arrays the call finds. -/
theorem flushed (c : Dev nD) (t : Fin cfg9.N) :
    (dat9 V c).flushed 6 t = ((cfg9.win 6).blk t).view.read (Elt Ideal)
      (gruG (V c main_v91) (V c main_v75) (V c main_v4) (V c main_v5) (fun cc => V c main_v6 (ix2 (0 : Fin 1) cc)) (fun cc => V c main_v7 (ix2 (0 : Fin 1) cc))) := by
  show (cfg9.win 6).cut (grid9.coords t) ((dat9 V c).after 6 t) = _
  rw [after9_6]
  unfold out9_6
  rw [View.canon_unit_zero hz]
  simp only [View.ld_unit_zero (S := S2000x256) hz, View.ld_unit_zero (S := S256x768) hz, View.ld_unit_zero (S := S1x768) hz]
  rw [whole2 V c t, whole3 V c t, whole4 V c t, whole5 V c t]
  obtain ⟨e00, e01, e10, e11, -, -, -, -, -, -, -, -, e60, e61⟩ := idx t
  funext y
  refine (pay_at _ _ _ _ _ _ y).trans ?_
  have hcol : ((((cfg9.win 6).blk t).view.emb y) 1 : Fin 256) = y 1 :=
    Fin.ext (by show win9_6.index t (1 : Fin 2) * 256 + 1 * (y 1).val = (y 1).val; rw [e61]; omega)
  show gruAt (a := 2000) (iblk9 V c 0 t) (iblk9 V c 1 t) (V c main_v4) (V c main_v5) _ _ (y 0) (y 1)
    = gruAt (a := 20000) (V c main_v91) (V c main_v75) (V c main_v4) (V c main_v5) _ _ ((((cfg9.win 6).blk t).view.emb y) 0) ((((cfg9.win 6).blk t).view.emb y) 1)
  rw [hcol]
  refine gruAt_congr _ _ _ _ (fun q => ?_) (fun q => ?_) (y 1)
  · show V c main_v91 (((cfg9.win 0).blk t).view.emb (ix2 (y 0) q)) = V c main_v91 (ix2 ((((cfg9.win 6).blk t).view.emb y) 0) q)
    congr 1; funext a; apply Fin.ext
    match a with
    | ⟨0, _⟩ => show win9_0.index t (0 : Fin 2) * 2000 + 1 * (y 0).val = win9_6.index t (0 : Fin 2) * 2000 + 1 * (y 0).val; rw [e00, e60]
    | ⟨1, _⟩ => show win9_0.index t (1 : Fin 2) * 256 + 1 * q.val = q.val; rw [e01]; omega
  · show V c main_v75 (((cfg9.win 1).blk t).view.emb (ix2 (y 0) q)) = V c main_v75 (ix2 ((((cfg9.win 6).blk t).view.emb y) 0) q)
    congr 1; funext a; apply Fin.ext
    match a with
    | ⟨0, _⟩ => show win9_1.index t (0 : Fin 2) * 2000 + 1 * (y 0).val = win9_6.index t (0 : Fin 2) * 2000 + 1 * (y 0).val; rw [e10, e60]
    | ⟨1, _⟩ => show win9_1.index t (1 : Fin 2) * 256 + 1 * q.val = q.val; rw [e11]; omega

set_option maxHeartbeats 1600000 in
/-- An index of the result is in point `t`'s block iff each coordinate is in the block's range on its axis. -/
theorem mem_blk (t : Fin cfg9.N) (i : S20000x256.Idx) :
    i ∈ ((cfg9.win 6).blk t).view.set ↔ ∀ a : Fin 2, win9_6.index t a * S2000x256.size a ≤ (i a).val ∧ (i a).val < win9_6.index t a * S2000x256.size a + S2000x256.size a := by
  show i ∈ ((View.whole main_v92).slice (win9_6.rect t)).set ↔ _
  rw [View.set_slice_whole, Rect.mem_set_unit]
  exact Iff.rfl

set_option maxHeartbeats 1600000 in
/-- Every row of the result lies in the block of the point its row block names. -/
theorem cover (i : S20000x256.Idx) : ∃ t : Fin cfg9.N, (cfg9.win 6).flush t = true ∧ i ∈ ((cfg9.win 6).blk t).view.set := by
  have hi0 : (i 0).val < 20000 := (i 0).isLt
  have hi1 : (i 1).val < 256 := (i 1).isLt
  have hN : cfg9.N = 10 := N_9
  refine ⟨⟨(i 0).val / 2000, by rw [hN]; omega⟩, flush9_6 _, ?_⟩
  rw [mem_blk]
  obtain ⟨-, -, -, -, -, -, -, -, -, -, -, -, e60, e61⟩ := idx ⟨(i 0).val / 2000, by rw [hN]; omega⟩
  intro a
  match a with
  | ⟨0, _⟩ => show win9_6.index _ (0 : Fin 2) * 2000 ≤ (i 0).val ∧ (i 0).val < win9_6.index _ (0 : Fin 2) * 2000 + 2000; rw [e60]; show (i 0).val / 2000 * 2000 ≤ (i 0).val ∧ (i 0).val < (i 0).val / 2000 * 2000 + 2000; omega
  | ⟨1, _⟩ => show win9_6.index _ (1 : Fin 2) * 256 ≤ (i 1).val ∧ (i 1).val < win9_6.index _ (1 : Fin 2) * 256 + 256; rw [e61]; omega

set_option maxHeartbeats 1600000 in
/-- After the call its result array is the gated update of the arrays it was entered with. -/
theorem final (c : Dev nD) : (dat9 V c).arrAt 6 cfg9.N
    = gruG (V c main_v91) (V c main_v75) (V c main_v4) (V c main_v5) (fun cc => V c main_v6 (ix2 (0 : Fin 1) cc)) (fun cc => V c main_v7 (ix2 (0 : Fin 1) cc)) :=
  (dat9 V c).arrAt_eq_of_cover 6 _ (fun t _ => flushed V c t) cover

end Cert.KernelIdeal.Gru9

end
-- ==== Proof.Chain4.lean ====
/-
  Layer 4 of the kernel program.

  The layer is a stretch that cuts the layer's weight out of the weight argument, the message call, the routing stretch
  (gather by source, scale, scatter-add by target) and the update call.  Reading the four segments in order — each host
  stretch's result buffer as the stretch's operations of the buffers before it, each call's result array as the
  whole-array function of the arrays it was entered with, every other buffer carried unchanged — the state after the
  layer is `Layer.layerG` of the state before it, with the routing, the transposed matrices and the bias rows as the
  first stretch left them.
-/
import proofs.«109821_j77129022701746_1_alg».proof.Proof.Route
import proofs.«109821_j77129022701746_1_alg».proof.Proof.Carry
import proofs.«109821_j77129022701746_1_alg».proof.Proof.Msg8
import proofs.«109821_j77129022701746_1_alg».proof.Proof.Gru9
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo Cert.GateCell Cert.Layer

variable (m : (ℓ : Loc nD τ sig) → Buf (Elt Ideal) ℓ) (ρ : Dev nD → PrngReg)

set_option maxHeartbeats 16000000 in
/-- Layer 4's weight, as the stretch before the message call leaves it: slice 4 of the weight argument. -/
theorem weight4 (c : Dev nD) : W17 m ρ c (Proc.devRef .tc main_v77) = wsl4 (W16 m ρ c (Proc.devRef .tc main_arg3)) := by
  show StableHlo.after hostOps8 (W16 m ρ c) (Proc.devRef .tc main_v77) = _
  after_results
  rfl

set_option maxHeartbeats 16000000 in
/-- Layer 4's aggregate, as the routing stretch leaves it: the routing of the messages by the edge endpoints and weights. -/
theorem agg4 (c : Dev nD) : W19 m ρ c (Proc.devRef .tc main_v91)
    = route (W18 m ρ c (Proc.devRef .tc main_v1)) (W18 m ρ c (Proc.devRef .tc main_v3)) (W18 m ρ c (Proc.devRef .tc main_arg2))
        (W18 m ρ c (Proc.devRef .tc main_v78)) := by
  show StableHlo.after hostOps9 (W18 m ρ c) (Proc.devRef .tc main_v91) = _
  after_results
  rfl

set_option maxHeartbeats 4000000 in
/-- Layer 4: the state after the layer's update call is `layerG` of the state before the layer. -/
theorem layer4 (c : Dev nD) : W20 m ρ c (Proc.devRef .tc main_v92)
    = layerG (route (W1 m ρ c (Proc.devRef .tc main_v1)) (W1 m ρ c (Proc.devRef .tc main_v3)) (W1 m ρ c (Proc.devRef .tc main_arg2)))
        (wsl4 (W1 m ρ c (Proc.devRef .tc main_arg3))) (W1 m ρ c (Proc.devRef .tc main_v4)) (W1 m ρ c (Proc.devRef .tc main_v5))
        (fun cc => W1 m ρ c (Proc.devRef .tc main_v6) (ix2 (0 : Fin 1) cc)) (fun cc => W1 m ρ c (Proc.devRef .tc main_v7) (ix2 (0 : Fin 1) cc))
        (W16 m ρ c (Proc.devRef .tc main_v75)) := by
  -- the state and the weight as the message call finds them
  have hh : W17 m ρ c (Proc.devRef .tc main_v75) = W16 m ρ c (Proc.devRef .tc main_v75) := Carry.keep_host8 (W16 m ρ c) main_v75 (by decide)
  have hw : W17 m ρ c (Proc.devRef .tc main_v77) = wsl4 (W1 m ρ c (Proc.devRef .tc main_arg3)) :=
    (weight4 m ρ c).trans (congrArg wsl4 (Carry.to1_16 m ρ c main_arg3 (by decide)))
  -- the messages after the message call, and the state carried through it
  have hm : W18 m ρ c (Proc.devRef .tc main_v78) = msgG (W16 m ρ c (Proc.devRef .tc main_v75)) (wsl4 (W1 m ρ c (Proc.devRef .tc main_arg3))) := by
    refine ((W18_arr m ρ c 2).trans (Msg8.final (V17 m ρ) c)).trans ?_
    show msgG (W17 m ρ c (Proc.devRef .tc main_v75)) (W17 m ρ c (Proc.devRef .tc main_v77)) = _
    rw [hh, hw]
  have hh2 : W18 m ρ c (Proc.devRef .tc main_v75) = W16 m ρ c (Proc.devRef .tc main_v75) :=
    ((W18_arr m ρ c 0).trans (Msg8.kept (V17 m ρ) c)).trans hh
  -- the aggregate the routing stretch computes, and the state carried through the stretch
  have hagg : W19 m ρ c (Proc.devRef .tc main_v91)
      = route (W1 m ρ c (Proc.devRef .tc main_v1)) (W1 m ρ c (Proc.devRef .tc main_v3)) (W1 m ρ c (Proc.devRef .tc main_arg2))
          (msgG (W16 m ρ c (Proc.devRef .tc main_v75)) (wsl4 (W1 m ρ c (Proc.devRef .tc main_arg3)))) := by
    rw [agg4 m ρ c, hm, Carry.to1_18 m ρ c main_v1 (by decide), Carry.to1_18 m ρ c main_v3 (by decide), Carry.to1_18 m ρ c main_arg2 (by decide)]
  have hh3 : W19 m ρ c (Proc.devRef .tc main_v75) = W16 m ρ c (Proc.devRef .tc main_v75) :=
    (Carry.keep_host9 (W18 m ρ c) main_v75 (by decide)).trans hh2
  -- the update call
  refine ((W20_arr m ρ c 6).trans (Gru9.final (V19 m ρ) c)).trans ?_
  show gruG (W19 m ρ c (Proc.devRef .tc main_v91)) (W19 m ρ c (Proc.devRef .tc main_v75)) (W19 m ρ c (Proc.devRef .tc main_v4)) (W19 m ρ c (Proc.devRef .tc main_v5))
      (fun cc => W19 m ρ c (Proc.devRef .tc main_v6) (ix2 (0 : Fin 1) cc)) (fun cc => W19 m ρ c (Proc.devRef .tc main_v7) (ix2 (0 : Fin 1) cc)) = _
  rw [hagg, hh3, Carry.to1_19 m ρ c main_v4 (by decide), Carry.to1_19 m ρ c main_v5 (by decide), Carry.to1_19 m ρ c main_v6 (by decide), Carry.to1_19 m ρ c main_v7 (by decide)]
  rfl

end Cert.KernelIdeal.Chain

end
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.KernelValue.lean ====
/-
  The kernel program's result as the network of its arguments.

  The first stretch of host operations prepares, from the arguments, the two rows of edge endpoints, the two transposed
  gate matrices and the two bias rows; it writes no argument.  With these, the five layers of `Chain` compose: the
  result array after the last update call is `Layer.net` of the launch contents of the eight arguments.
-/
import proofs.«109821_j77129022701746_1_alg».proof.Proof.Chain0
import proofs.«109821_j77129022701746_1_alg».proof.Proof.Chain1
import proofs.«109821_j77129022701746_1_alg».proof.Proof.Chain2
import proofs.«109821_j77129022701746_1_alg».proof.Proof.Chain3
import proofs.«109821_j77129022701746_1_alg».proof.Proof.Chain4
import proofs.«109821_j77129022701746_1_alg».proof.Proof.LibRowReshape

set_option maxRecDepth 16384

noncomputable section

namespace Cert.KernelIdeal.Whole

open Cert.KernelIdeal Cert.KernelIdeal.Gen Cert.KernelIdeal.Chain Idealize.ShloMosaic Idealize.ShloMosaic.TcCoe Idealize.ShloMosaic.ValueIdx
open Idealize.SL.Sem Idealize.ShloMosaic.StableHlo Cert.GateCell Cert.Layer

/-- The kernel program's network as a function of the eight argument arrays. -/
def kerNet (a0 : FVec Ideal S20000x256 .f32) (a1 : IVec S2x320000 32)
    (a2 : FVec Ideal S320000 .f32) (a3 : FVec Ideal S5x256x256 .f32)
    (a4 a5 : FVec Ideal S768x256 .f32) (a6 a7 : FVec Ideal S768 .f32) : Nodes :=
  net (route (shapeCast S320000 (extractStridedSlice S1x320000 ![0, 0] a1 slices_S2x320000_S1x320000_0_0) shapeCasts_S1x320000_S320000)
        (shapeCast S320000 (extractStridedSlice S1x320000 ![1, 0] a1 slices_S2x320000_S1x320000_1_0) shapeCasts_S1x320000_S320000) a2)
      (wsl0 a3) (wsl1 a3) (wsl2 a3) (wsl3 a3) (wsl4 a3)
      (transpose S256x768 [1, 0] a4 transposes_S768x256_S256x768_1_0) (transpose S256x768 [1, 0] a5 transposes_S768x256_S256x768_1_0)
      (fun cc => a6 (ix1 cc)) (fun cc => a7 (ix1 cc)) a0

variable (m : (ℓ : Loc nD τ sig) → Buf (Elt Ideal) ℓ) (ρ : Dev nD → PrngReg)

/-! ## The first stretch -/

theorem first_v1 (c : Dev nD) : W1 m ρ c (Proc.devRef .tc main_v1)
    = shapeCast S320000 (extractStridedSlice S1x320000 ![0, 0] (W0 m ρ c (Proc.devRef .tc main_arg1)) slices_S2x320000_S1x320000_0_0) shapeCasts_S1x320000_S320000 := by
  show StableHlo.after hostOps0 (W0 m ρ c) (Proc.devRef .tc main_v1) = _
  after_results
  rfl
theorem first_v3 (c : Dev nD) : W1 m ρ c (Proc.devRef .tc main_v3)
    = shapeCast S320000 (extractStridedSlice S1x320000 ![1, 0] (W0 m ρ c (Proc.devRef .tc main_arg1)) slices_S2x320000_S1x320000_1_0) shapeCasts_S1x320000_S320000 := by
  show StableHlo.after hostOps0 (W0 m ρ c) (Proc.devRef .tc main_v3) = _
  after_results
  rfl
theorem first_v4 (c : Dev nD) : W1 m ρ c (Proc.devRef .tc main_v4) = transpose S256x768 [1, 0] (W0 m ρ c (Proc.devRef .tc main_arg4)) transposes_S768x256_S256x768_1_0 := by
  show StableHlo.after hostOps0 (W0 m ρ c) (Proc.devRef .tc main_v4) = _
  after_results
theorem first_v5 (c : Dev nD) : W1 m ρ c (Proc.devRef .tc main_v5) = transpose S256x768 [1, 0] (W0 m ρ c (Proc.devRef .tc main_arg5)) transposes_S768x256_S256x768_1_0 := by
  show StableHlo.after hostOps0 (W0 m ρ c) (Proc.devRef .tc main_v5) = _
  after_results
theorem first_v6 (c : Dev nD) : W1 m ρ c (Proc.devRef .tc main_v6) = shapeCast _ (W0 m ρ c (Proc.devRef .tc main_arg6)) shapeCasts_S768_S1x768 := by
  show StableHlo.after hostOps0 (W0 m ρ c) (Proc.devRef .tc main_v6) = _
  after_results
  rfl
theorem first_v7 (c : Dev nD) : W1 m ρ c (Proc.devRef .tc main_v7) = shapeCast _ (W0 m ρ c (Proc.devRef .tc main_arg7)) shapeCasts_S768_S1x768 := by
  show StableHlo.after hostOps0 (W0 m ρ c) (Proc.devRef .tc main_v7) = _
  after_results
  rfl
theorem first_arg (c : Dev nD) (b : Ref sig .tc) (hb : b ∉ Carry.host0_W) : W1 m ρ c (Proc.devRef .tc b) = W0 m ρ c (Proc.devRef .tc b) :=
  Carry.keep_host0 (W0 m ρ c) b hb

/-- A bias row is the bias argument reshaped: its entry `(0, cc)` is the argument's entry `cc`. -/
theorem bias6 (c : Dev nD) : (fun cc => W1 m ρ c (Proc.devRef .tc main_v6) (ix2 (0 : Fin 1) cc)) = fun cc => (W0 m ρ c (Proc.devRef .tc main_arg6)) (ix1 cc) := by
  funext cc
  rw [first_v6]
  exact Cert.LibRowReshape.shapeCast_b_1b_apply _ _ 0 cc
theorem bias7 (c : Dev nD) : (fun cc => W1 m ρ c (Proc.devRef .tc main_v7) (ix2 (0 : Fin 1) cc)) = fun cc => (W0 m ρ c (Proc.devRef .tc main_arg7)) (ix1 cc) := by
  funext cc
  rw [first_v7]
  exact Cert.LibRowReshape.shapeCast_b_1b_apply _ _ 0 cc

/-! ## The five layers composed -/

/-- The result array after the last call is the network of the launch contents. -/
theorem value (c : Dev nD) : W20 m ρ c (Proc.devRef .tc main_v92)
    = kerNet (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) := by
  rw [Chain.layer4 m ρ c, Chain.layer3 m ρ c, Chain.layer2 m ρ c, Chain.layer1 m ρ c, Chain.layer0 m ρ c]
  rw [bias6 m ρ c, bias7 m ρ c, first_v1 m ρ c, first_v3 m ρ c, first_v4 m ρ c, first_v5 m ρ c,
    first_arg m ρ c main_arg0 (by decide), first_arg m ρ c main_arg2 (by decide), first_arg m ρ c main_arg3 (by decide)]
  rfl

end Cert.KernelIdeal.Whole

end
-- ==== Proof.RefLayers.lean ====
/-
  The reference's layers.

  The reference's run is stated over named sub-terms, one per layer's state.  Each is the same host expression of the
  previous state: the message product, the routing along the edges (gather by source, scale by the edge weight,
  scatter-add by target onto zeros), two rows of pre-activations (a product with a transposed [768, 256] matrix plus a
  broadcast bias) and the gate arithmetic with the logistic function written out.  Read at an entry, the host's
  `dot_general` is the plain sum over the contracted axis, the broadcasts pick the bias entry of the column, and the gate
  arithmetic is `GateCell.cell`: the expression is `Layer.layerG`.
-/
import proofs.«109821_j77129022701746_1_alg».proof.Proof.Gen.ReferenceIdeal.Run
import proofs.«109821_j77129022701746_1_alg».proof.Proof.Layer
import proofs.«109821_j77129022701746_1_alg».proof.Proof.GateRead
import proofs.«109821_j77129022701746_1_alg».proof.Proof.LibPlainDot
import proofs.«109821_j77129022701746_1_alg».proof.Proof.LibMatrixLayout

set_option maxRecDepth 16384

noncomputable section

namespace Cert.ReferenceIdeal.Layers

open Cert.ReferenceIdeal Cert.ReferenceIdeal.Gen Cert.ReferenceIdeal.Value
open Idealize.ShloMosaic Idealize.ShloMosaic.TcCoe Idealize.ShloMosaic.ValueIdx Idealize.ShloMosaic.StableHlo Cert.GateCell Cert.Layer

/-- Routing the messages along the edges: negative sources wrap once, rows are gathered by source, scaled by the edge
    weight and added up per target onto zeros. -/
def route (src dst : IVec S320000 32) (ea : FVec Ideal S320000 .f32)
    (msgs : FVec Ideal S20000x256 .f32) : FVec Ideal S20000x256 .f32 :=
  Host.scatterAdd scatter_S20000x256_S320000x1_S320000x256_1_0_0_1 (broadcastInDim S20000x256 ![] bcast_S_S20000x256 (constant (F := Ideal) S_ .f32 0x00000000#32)) (broadcastInDim S320000x1 ![0] bcast_S320000_S320000x1_0 dst) (mulf (Host.gather gather_S20000x256_S320000x1_S320000x256_1_0_n_n_0_1_1256 msgs (broadcastInDim S320000x1 ![0] bcast_S320000_S320000x1_0 (select (cmpi .slt src (broadcastInDim S320000 ![] bcast_S_S320000 (constantI S_ 32 0#32))) (addi src (broadcastInDim S320000 ![] bcast_S_S320000 (constantI S_ 32 20000#32))) src))) (broadcastInDim S320000x256 ![0, 1] bcast_S320000x1_S320000x256_0_1 (broadcastInDim S320000x1 ![0] bcast_S320000_S320000x1_0 ea)))

/-- A row of 768 pre-activations per node: the product with the transposed matrix plus the broadcast bias. -/
def hostPre (x : FVec Ideal S20000x256 .f32) (a : FVec Ideal S768x256 .f32)
    (b : FVec Ideal S768 .f32) : FVec Ideal S20000x768 .f32 :=
  addf (Host.dotGeneral dot_S20000x256_S256x768_S20000x768_1_0_0_1_n_n none x (transpose S256x768 [1, 0] a transposes_S768x256_S256x768_1_0)) (broadcastInDim S20000x768 ![0, 1] bcast_S1x768_S20000x768_0_1 (broadcastInDim S1x768 ![1] bcast_S768_S1x768_1 b))

/-- The splat constant one. -/
abbrev one : FVec Ideal S20000x256 .f32 := broadcastInDim S20000x256 ![] bcast_S_S20000x256 (constant (F := Ideal) S_ .f32 0x3F800000#32)

/-- The gate arithmetic as the host writes it. -/
def hostGate (gi gh : FVec Ideal S20000x768 .f32) (x : FVec Ideal S20000x256 .f32) :
    FVec Ideal S20000x256 .f32 :=
  addf (mulf (subf one (Host.divf one (addf one (Host.exp (Host.negf (addf (extractStridedSlice S20000x256 ![0, 256] gi slices_S20000x768_S20000x256_0_256) (extractStridedSlice S20000x256 ![0, 256] gh slices_S20000x768_S20000x256_0_256))))))) (Host.tanh (addf (extractStridedSlice S20000x256 ![0, 512] gi slices_S20000x768_S20000x256_0_512) (mulf (Host.divf one (addf one (Host.exp (Host.negf (addf (extractStridedSlice S20000x256 ![0, 0] gi slices_S20000x768_S20000x256_0_0) (extractStridedSlice S20000x256 ![0, 0] gh slices_S20000x768_S20000x256_0_0)))))) (extractStridedSlice S20000x256 ![0, 512] gh slices_S20000x768_S20000x256_0_512))))) (mulf (Host.divf one (addf one (Host.exp (Host.negf (addf (extractStridedSlice S20000x256 ![0, 256] gi slices_S20000x768_S20000x256_0_256) (extractStridedSlice S20000x256 ![0, 256] gh slices_S20000x768_S20000x256_0_256)))))) x)

/-- One layer as the host writes it. -/
def hostLayer (src dst : IVec S320000 32) (ea : FVec Ideal S320000 .f32)
    (w : FVec Ideal S256x256 .f32) (a4 a5 : FVec Ideal S768x256 .f32)
    (a6 a7 : FVec Ideal S768 .f32) (x : FVec Ideal S20000x256 .f32) :
    FVec Ideal S20000x256 .f32 :=
  hostGate (hostPre (route src dst ea (Host.dotGeneral dot_S20000x256_S256x256_S20000x256_1_0_0_1_n_n none x w)) a4 a6) (hostPre x a5 a7) x

/-- The host's message product is the plain product, entry by entry. -/
theorem msg_eq (x : FVec Ideal S20000x256 .f32) (w : FVec Ideal S256x256 .f32) :
    Host.dotGeneral dot_S20000x256_S256x256_S20000x256_1_0_0_1_n_n none x w = msgG x w := by
  funext i
  obtain ⟨P, j, rfl⟩ : ∃ (P : Fin 20000) (j : Fin 256), i = ix2 P j := ⟨i 0, i 1, eq_ix2 i⟩
  exact Cert.PlainDot.dotGeneral_ix2 dot_S20000x256_S256x256_S20000x256_1_0_0_1_n_n rfl none x w P j

/-- A pre-activation at `(P, c)`. -/
theorem hostPre_ix2 (x : FVec Ideal S20000x256 .f32) (a : FVec Ideal S768x256 .f32)
    (b : FVec Ideal S768 .f32) (P : Fin 20000) (c : Fin 768) :
    hostPre x a b (ix2 P c) = pre x (transpose S256x768 [1, 0] a transposes_S768x256_S256x768_1_0) (fun c => b (ix1 c)) P c := by
  unfold hostPre
  rw [addf_apply, Cert.PlainDot.dotGeneral_ix2 dot_S20000x256_S256x768_S20000x768_1_0_0_1_n_n rfl none _ _ P c, Cert.LibMatrixLayout.bcast_1b_ab_apply, Cert.LibMatrixLayout.bcast_b_1b_apply]
  rfl

/-- One host layer is `layerG` of the routing, the layer's weight, the transposed matrices and the biases. -/
theorem hostLayer_eq (src dst : IVec S320000 32) (ea : FVec Ideal S320000 .f32)
    (w : FVec Ideal S256x256 .f32) (a4 a5 : FVec Ideal S768x256 .f32)
    (a6 a7 : FVec Ideal S768 .f32) (x : FVec Ideal S20000x256 .f32) :
    hostLayer src dst ea w a4 a5 a6 a7 x
      = layerG (route src dst ea) w (transpose S256x768 [1, 0] a4 transposes_S768x256_S256x768_1_0)
          (transpose S256x768 [1, 0] a5 transposes_S768x256_S256x768_1_0) (fun c => a6 (ix1 c)) (fun c => a7 (ix1 c)) x := by
  funext i
  obtain ⟨P, j, rfl⟩ : ∃ (P : Fin 20000) (j : Fin 256), i = ix2 P j := ⟨i 0, i 1, eq_ix2 i⟩
  unfold hostLayer hostGate
  refine (Cert.GateRead.gate_host (a := 20000) _ _ _ _ _ _ _ P j).trans ?_
  rw [hostPre_ix2, hostPre_ix2, hostPre_ix2, hostPre_ix2, hostPre_ix2, hostPre_ix2, msg_eq]
  rfl

/-- The layer weights: slice `k` of the [5, 256, 256] argument, reshaped to a matrix. -/
abbrev wsl0 (a3 : FVec Ideal S5x256x256 .f32) : FVec Ideal S256x256 .f32 :=
  shapeCast S256x256 (extractStridedSlice S1x256x256 ![0, 0, 0] a3 slices_S5x256x256_S1x256x256_0_0_0) shapeCasts_S1x256x256_S256x256
abbrev wsl1 (a3 : FVec Ideal S5x256x256 .f32) : FVec Ideal S256x256 .f32 :=
  shapeCast S256x256 (extractStridedSlice S1x256x256 ![1, 0, 0] a3 slices_S5x256x256_S1x256x256_1_0_0) shapeCasts_S1x256x256_S256x256
abbrev wsl2 (a3 : FVec Ideal S5x256x256 .f32) : FVec Ideal S256x256 .f32 :=
  shapeCast S256x256 (extractStridedSlice S1x256x256 ![2, 0, 0] a3 slices_S5x256x256_S1x256x256_2_0_0) shapeCasts_S1x256x256_S256x256
abbrev wsl3 (a3 : FVec Ideal S5x256x256 .f32) : FVec Ideal S256x256 .f32 :=
  shapeCast S256x256 (extractStridedSlice S1x256x256 ![3, 0, 0] a3 slices_S5x256x256_S1x256x256_3_0_0) shapeCasts_S1x256x256_S256x256
abbrev wsl4 (a3 : FVec Ideal S5x256x256 .f32) : FVec Ideal S256x256 .f32 :=
  shapeCast S256x256 (extractStridedSlice S1x256x256 ![4, 0, 0] a3 slices_S5x256x256_S1x256x256_4_0_0) shapeCasts_S1x256x256_S256x256

variable (V0 : Valuation τ sig (Elt Ideal))

/-- The reference's layer as a function of the state, at the launch contents `V0`. -/
abbrev L (w : FVec Ideal S256x256 .f32) (x : FVec Ideal S20000x256 .f32) :
    FVec Ideal S20000x256 .f32 :=
  hostLayer (res_main_v1 V0) (res_main_v3 V0) (V0 (Proc.devRef .tc main_arg2)) w (V0 (Proc.devRef .tc main_arg4)) (V0 (Proc.devRef .tc main_arg5)) (V0 (Proc.devRef .tc main_arg6)) (V0 (Proc.devRef .tc main_arg7)) x

/-- Each named state of the reference's run is the layer applied to the one before. -/
theorem s1 : res_main_v57 V0 = L V0 (wsl0 (V0 (Proc.devRef .tc main_arg3))) (V0 (Proc.devRef .tc main_arg0)) := rfl
theorem s2 : res_main_v111 V0 = L V0 (wsl1 (V0 (Proc.devRef .tc main_arg3))) (res_main_v57 V0) := rfl
theorem s3 : res_main_v165 V0 = L V0 (wsl2 (V0 (Proc.devRef .tc main_arg3))) (res_main_v111 V0) := rfl
theorem s4 : res_main_v219 V0 = L V0 (wsl3 (V0 (Proc.devRef .tc main_arg3))) (res_main_v165 V0) := rfl

/-- The run's result term is the last layer applied to the fourth state. -/
theorem s5 : addf (mulf (subf (broadcastInDim S20000x256 ![] bcast_S_S20000x256 (constant (F := Ideal) S_ .f32 0x3F800000#32)) (res_main_v265 V0)) (Host.tanh (addf (extractStridedSlice S20000x256 ![0, 512] (res_main_v240 V0) slices_S20000x768_S20000x256_0_512) (mulf (Host.divf (broadcastInDim S20000x256 ![] bcast_S_S20000x256 (constant (F := Ideal) S_ .f32 0x3F800000#32)) (addf (broadcastInDim S20000x256 ![] bcast_S_S20000x256 (constant (F := Ideal) S_ .f32 0x3F800000#32)) (Host.exp (Host.negf (addf (extractStridedSlice S20000x256 ![0, 0] (res_main_v240 V0) slices_S20000x768_S20000x256_0_0) (extractStridedSlice S20000x256 ![0, 0] (res_main_v245 V0) slices_S20000x768_S20000x256_0_0)))))) (extractStridedSlice S20000x256 ![0, 512] (res_main_v245 V0) slices_S20000x768_S20000x256_0_512))))) (mulf (res_main_v265 V0) (res_main_v219 V0))
    = L V0 (wsl4 (V0 (Proc.devRef .tc main_arg3))) (res_main_v219 V0) := rfl

/-- The reference's result: the network of the launch contents. -/
theorem result_net : addf (mulf (subf (broadcastInDim S20000x256 ![] bcast_S_S20000x256 (constant (F := Ideal) S_ .f32 0x3F800000#32)) (res_main_v265 V0)) (Host.tanh (addf (extractStridedSlice S20000x256 ![0, 512] (res_main_v240 V0) slices_S20000x768_S20000x256_0_512) (mulf (Host.divf (broadcastInDim S20000x256 ![] bcast_S_S20000x256 (constant (F := Ideal) S_ .f32 0x3F800000#32)) (addf (broadcastInDim S20000x256 ![] bcast_S_S20000x256 (constant (F := Ideal) S_ .f32 0x3F800000#32)) (Host.exp (Host.negf (addf (extractStridedSlice S20000x256 ![0, 0] (res_main_v240 V0) slices_S20000x768_S20000x256_0_0) (extractStridedSlice S20000x256 ![0, 0] (res_main_v245 V0) slices_S20000x768_S20000x256_0_0)))))) (extractStridedSlice S20000x256 ![0, 512] (res_main_v245 V0) slices_S20000x768_S20000x256_0_512))))) (mulf (res_main_v265 V0) (res_main_v219 V0))
    = net (route (res_main_v1 V0) (res_main_v3 V0) (V0 (Proc.devRef .tc main_arg2)))
        (wsl0 (V0 (Proc.devRef .tc main_arg3))) (wsl1 (V0 (Proc.devRef .tc main_arg3))) (wsl2 (V0 (Proc.devRef .tc main_arg3)))
        (wsl3 (V0 (Proc.devRef .tc main_arg3))) (wsl4 (V0 (Proc.devRef .tc main_arg3)))
        (transpose S256x768 [1, 0] (V0 (Proc.devRef .tc main_arg4)) transposes_S768x256_S256x768_1_0)
        (transpose S256x768 [1, 0] (V0 (Proc.devRef .tc main_arg5)) transposes_S768x256_S256x768_1_0)
        (fun c => V0 (Proc.devRef .tc main_arg6) (ix1 c)) (fun c => V0 (Proc.devRef .tc main_arg7) (ix1 c))
        (V0 (Proc.devRef .tc main_arg0)) := by
  rw [s5, s4, s3, s2, s1]
  unfold L
  rw [hostLayer_eq, hostLayer_eq, hostLayer_eq, hostLayer_eq, hostLayer_eq]
  rfl

/-- The reference's network as a function of the eight argument arrays. -/
def refNet (a0 : FVec Ideal S20000x256 .f32) (a1 : IVec S2x320000 32)
    (a2 : FVec Ideal S320000 .f32) (a3 : FVec Ideal S5x256x256 .f32)
    (a4 a5 : FVec Ideal S768x256 .f32) (a6 a7 : FVec Ideal S768 .f32) : Nodes :=
  net (route (shapeCast S320000 (extractStridedSlice S1x320000 ![0, 0] a1 slices_S2x320000_S1x320000_0_0) shapeCasts_S1x320000_S320000)
        (shapeCast S320000 (extractStridedSlice S1x320000 ![1, 0] a1 slices_S2x320000_S1x320000_1_0) shapeCasts_S1x320000_S320000) a2)
      (wsl0 a3) (wsl1 a3) (wsl2 a3) (wsl3 a3) (wsl4 a3)
      (transpose S256x768 [1, 0] a4 transposes_S768x256_S256x768_1_0) (transpose S256x768 [1, 0] a5 transposes_S768x256_S256x768_1_0)
      (fun cc => a6 (ix1 cc)) (fun cc => a7 (ix1 cc)) a0

/-- The run's result term is the network of the launch contents. -/
theorem result_refNet : addf (mulf (subf (broadcastInDim S20000x256 ![] bcast_S_S20000x256 (constant (F := Ideal) S_ .f32 0x3F800000#32)) (res_main_v265 V0)) (Host.tanh (addf (extractStridedSlice S20000x256 ![0, 512] (res_main_v240 V0) slices_S20000x768_S20000x256_0_512) (mulf (Host.divf (broadcastInDim S20000x256 ![] bcast_S_S20000x256 (constant (F := Ideal) S_ .f32 0x3F800000#32)) (addf (broadcastInDim S20000x256 ![] bcast_S_S20000x256 (constant (F := Ideal) S_ .f32 0x3F800000#32)) (Host.exp (Host.negf (addf (extractStridedSlice S20000x256 ![0, 0] (res_main_v240 V0) slices_S20000x768_S20000x256_0_0) (extractStridedSlice S20000x256 ![0, 0] (res_main_v245 V0) slices_S20000x768_S20000x256_0_0)))))) (extractStridedSlice S20000x256 ![0, 512] (res_main_v245 V0) slices_S20000x768_S20000x256_0_512))))) (mulf (res_main_v265 V0) (res_main_v219 V0))
    = refNet (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) (V0 (Proc.devRef .tc main_arg7)) :=
  result_net V0

end Cert.ReferenceIdeal.Layers

end
-- ==== Proof.lean ====
/-
  A five-layer gated graph network, tiled for the accelerator, against its plain reference, on the extended reals.

  Each layer multiplies the node states [20000, 256] by the layer's [256, 256] weight, gathers the products along
  320000 edges by source node, scales each by its edge weight, adds them up per target node, and updates every state
  entry by a gated recurrent rule: with a = agg · Wiᵀ + bi and b = h · Whᵀ + bh read in three blocks of 256 columns,
      h' = (1 - z) · tanh (a₂ + r · b₂) + z · h,   r = σ (a₀ + b₀),   z = σ (a₁ + b₁).
  The kernel program does the two dense steps in ten kernel calls (a message product and an update per layer), each
  over ten blocks of 2000 rows, and leaves the gather, the scaling and the scatter-add to the same host operations the
  reference uses; the reference does everything with host operations.

  On the extended reals the narrowing of a product's operands is the identity, a product into a zero accumulator and
  the host's dot_general are the same sum over the contracted axis in the same order, an entry's update reads the
  aggregate and the state only in its own row — so a row block's result is the whole array's result read through the
  block, and the ten row blocks tile the array —, and the logistic function is by definition 1 / (1 + e^(-x)), the
  expression the host writes out.  No law of arithmetic beyond these readings is used, so the precondition (finite
  inputs) is never opened.

  The modules: GateCell (one entry's update), GateRead (the two spellings of the gate arithmetic), Layer (a layer and
  the network as functions of whole arrays), Payload (each kernel call's stored value at an entry), Msg0 … Msg8 and
  Gru1 … Gru9 (each call's result array from its blocks), Carry (buffers nobody writes), Chain (a layer of the kernel
  program), KernelValue (the kernel program's result as the network of its arguments), RunResult (the run with its
  result kept), RefLayers (the reference's run as the same network).  Here: the two networks are one function, and
  the five claims.
-/
import proofs.«109821_j77129022701746_1_alg».proof.Defs
import proofs.«109821_j77129022701746_1_alg».proof.Proof.Gen.Kernel
import proofs.«109821_j77129022701746_1_alg».proof.Proof.Gen.Kernel.Skeleton
import proofs.«109821_j77129022701746_1_alg».proof.Proof.Gen.Kernel.Launch
import proofs.«109821_j77129022701746_1_alg».proof.Proof.Gen.Kernel.Points
import proofs.«109821_j77129022701746_1_alg».proof.Proof.Gen.Kernel.Frame
import proofs.«109821_j77129022701746_1_alg».proof.Proof.Gen.KernelIdeal
import proofs.«109821_j77129022701746_1_alg».proof.Proof.Gen.KernelIdeal.Skeleton
import proofs.«109821_j77129022701746_1_alg».proof.Proof.Gen.KernelIdeal.Launch
import proofs.«109821_j77129022701746_1_alg».proof.Proof.Gen.KernelIdeal.Points
import proofs.«109821_j77129022701746_1_alg».proof.Proof.Gen.KernelIdeal.Frame
import proofs.«109821_j77129022701746_1_alg».proof.Proof.Gen.ReferenceIdeal
import proofs.«109821_j77129022701746_1_alg».proof.Proof.Gen.Pre_finite_inputs
import proofs.«109821_j77129022701746_1_alg».proof.Proof.Gen.ReferenceIdeal.Run
import proofs.«109821_j77129022701746_1_alg».proof.Proof.RunResult
import proofs.«109821_j77129022701746_1_alg».proof.Proof.KernelValue
import proofs.«109821_j77129022701746_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

/-- The printed kernel program runs, and leaves its arguments as launched. -/
theorem frame_k : Cert.frame_Kernel := fun m ρ _ => Cert.Kernel.Gen.frame m ρ

/-- The idealized kernel program runs, and leaves its arguments as launched. -/
theorem frame_ki : Cert.frame_KernelIdeal := fun m ρ _ => Cert.KernelIdeal.Gen.frame m ρ

/-- The idealized reference runs, and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs' networks are one function of the eight arguments: the same routing operations, the same slices,
    transposes and reshapes, over dimension records that are equal entry by entry. -/
theorem nets_eq (a0 : FVec Ideal Cert.ReferenceIdeal.S20000x256 .f32) (a1 : IVec Cert.ReferenceIdeal.S2x320000 32)
    (a2 : FVec Ideal Cert.ReferenceIdeal.S320000 .f32) (a3 : FVec Ideal Cert.ReferenceIdeal.S5x256x256 .f32)
    (a4 a5 : FVec Ideal Cert.ReferenceIdeal.S768x256 .f32) (a6 a7 : FVec Ideal Cert.ReferenceIdeal.S768 .f32) :
    Cert.ReferenceIdeal.Layers.refNet a0 a1 a2 a3 a4 a5 a6 a7 = Cert.KernelIdeal.Whole.kerNet a0 a1 a2 a3 a4 a5 a6 a7 := rfl

/-- From memories agreeing on the arguments both idealized programs run, and end with the same result array: the
    network of the arguments. -/
theorem algebraic : Cert.algebraic_KernelIdeal_ReferenceIdeal := by
  intro m ρ m' ρ' _ hagree
  refine ⟨fun c => Cert.KernelIdeal.Gen.W20 m ρ c (Proc.devRef .tc Cert.KernelIdeal.main_v92), Cert.KernelIdeal.Whole.run_result m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7⟩ := hagree c
  refine ((Cert.ReferenceIdeal.Layers.result_refNet (StableHlo.launchContents m' c)).trans ?_).trans (Cert.KernelIdeal.Whole.value m ρ c).symm
  show Cert.ReferenceIdeal.Layers.refNet (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
    = Cert.KernelIdeal.Whole.kerNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
  rw [h0, h1, h2, h3, h4, h5, h6, h7]
  exact nets_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
